-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v198) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S3x128x128 : Shape := ⟨3, ![3, 128, 128]⟩
abbrev S3x128 : Shape := ⟨2, ![3, 128]⟩
abbrev S128x32 : Shape := ⟨2, ![128, 32]⟩
abbrev S32 : Shape := ⟨1, ![32]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg8 : FVec F S128x32 .f32) (main_arg9 : FVec F S32 .f32) (main_v33 : IVec S_ 1) : IVec S_ 1 :=
  let main_v34 : FVec F S128x32 .f32 := Host.absf main_arg8
  let main_cst_12 : FVec F S_ .f32 := constant S_ .f32 0x7F800000#32
  let main_v35 : FVec F S128x32 .f32 := broadcastInDim S128x32 ![] bcast_S_S128x32 main_cst_12
  let main_v36 : IVec S128x32 1 := cmpf .olt main_v34 main_v35
  let main_c_13 : IVec S_ 1 := constantI S_ 1 1#1
  let main_v37 : IVec S_ 1 := (fun x v => Host.reduce IntOp.andi x v reducesTo_S128x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  main_v43

def fn_part1 {F : FTy → Type} [FloatOps F] (main_arg5 : FVec F S3x128 .f32) (main_arg6 : FVec F S3x128 .f32) (main_arg7 : FVec F S3x128 .f32) (main_arg8 : FVec F S128x32 .f32) (main_arg9 : FVec F S32 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg8 main_arg9 main_v33

def fn {F : FTy → Type} [FloatOps F] (main_arg0 : FVec F S50000x256 .f32) (main_arg1 : IVec S2x800000 32) (main_arg2 : FVec F S256x128 .f32) (main_arg3 : FVec F S128 .f32) (main_arg4 : FVec F S3x128x128 .f32) (main_arg5 : FVec F S3x128 .f32) (main_arg6 : FVec F S3x128 .f32) (main_arg7 : FVec F S3x128 .f32) (main_arg8 : FVec F S128x32 .f32) (main_arg9 : FVec F S32 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_arg7 main_arg8 main_arg9 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S3x128x128 : Shape := ⟨3, ![3, 128, 128]⟩
abbrev S3x128 : Shape := ⟨2, ![3, 128]⟩
abbrev S128x32 : Shape := ⟨2, ![128, 32]⟩
abbrev S32 : Shape := ⟨1, ![32]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x128 : Shape := ⟨2, ![1, 128]⟩
abbrev S50000x128 : Shape := ⟨2, ![50000, 128]⟩
abbrev S2000x256 : Shape := ⟨2, ![2000, 256]⟩
abbrev S2000x128 : Shape := ⟨2, ![2000, 128]⟩
abbrev S1x128x128 : Shape := ⟨3, ![1, 128, 128]⟩
abbrev S128x128 : Shape := ⟨2, ![128, 128]⟩
abbrev S800000x128 : Shape := ⟨2, ![800000, 128]⟩
abbrev S2000x1 : Shape := ⟨2, ![2000, 1]⟩
abbrev S2000 : Shape := ⟨1, ![2000]⟩
abbrev S1x32 : Shape := ⟨2, ![1, 32]⟩
abbrev S50000x32 : Shape := ⟨2, ![50000, 32]⟩
abbrev S2000x32 : Shape := ⟨2, ![2000, 32]⟩

abbrev nBuf : Space → Nat
  | .hbm => 145
  | .vmem => 69
  | .smem => 0
  | _ => 0

abbrev hbmTy0_0 (i : Nat) : BufTy := match i % 128 with
  | 0 => ⟨S50000x256, .f32⟩
  | 1 => ⟨S2x800000, .i32⟩
  | 2 => ⟨S256x128, .f32⟩
  | 3 => ⟨S128, .f32⟩
  | 4 => ⟨S3x128x128, .f32⟩
  | 5 => ⟨S3x128, .f32⟩
  | 6 => ⟨S3x128, .f32⟩
  | 7 => ⟨S3x128, .f32⟩
  | 8 => ⟨S128x32, .f32⟩
  | 9 => ⟨S32, .f32⟩
  | 10 => ⟨S1x800000, .i32⟩
  | 11 => ⟨S800000, .i32⟩
  | 12 => ⟨S1x800000, .i32⟩
  | 13 => ⟨S800000, .i32⟩
  | 14 => ⟨S_, .f32⟩
  | 15 => ⟨S800000, .f32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S50000, .f32⟩
  | 23 => ⟨S50000, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000, .f32⟩
  | 42 => ⟨S800000, .f32⟩
  | 43 => ⟨S50000, .f32⟩
  | 44 => ⟨S50000x1, .f32⟩
  | 45 => ⟨S1x128, .f32⟩
  | 46 => ⟨S50000x128, .f32⟩
  | 47 => ⟨S1x128x128, .f32⟩
  | 48 => ⟨S128x128, .f32⟩
  | 49 => ⟨S_, .f32⟩
  | 50 => ⟨S128, .f32⟩
  | 51 => ⟨S1x128, .f32⟩
  | 52 => ⟨S50000x128, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x128, .f32⟩
  | 62 => ⟨S800000x1, .f32⟩
  | 63 => ⟨S800000x128, .f32⟩
  | 64 => ⟨S800000x128, .f32⟩
  | 65 => ⟨S_, .f32⟩
  | 66 => ⟨S50000x128, .f32⟩
  | 67 => ⟨S800000x1, .i32⟩
  | 68 => ⟨S50000x128, .f32⟩
  | 69 => ⟨S1x128, .f32⟩
  | 70 => ⟨S128, .f32⟩
  | 71 => ⟨S1x128, .f32⟩
  | 72 => ⟨S1x128, .f32⟩
  | 73 => ⟨S128, .f32⟩
  | 74 => ⟨S1x128, .f32⟩
  | 75 => ⟨S1x128, .f32⟩
  | 76 => ⟨S128, .f32⟩
  | 77 => ⟨S1x128, .f32⟩
  | 78 => ⟨S50000x128, .f32⟩
  | 79 => ⟨S1x128x128, .f32⟩
  | 80 => ⟨S128x128, .f32⟩
  | 81 => ⟨S_, .f32⟩
  | 82 => ⟨S128, .f32⟩
  | 83 => ⟨S1x128, .f32⟩
  | 84 => ⟨S50000x128, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000x128, .f32⟩
  | 94 => ⟨S800000x1, .f32⟩
  | 95 => ⟨S800000x128, .f32⟩
  | 96 => ⟨S800000x128, .f32⟩
  | 97 => ⟨S_, .f32⟩
  | 98 => ⟨S50000x128, .f32⟩
  | 99 => ⟨S800000x1, .i32⟩
  | 100 => ⟨S50000x128, .f32⟩
  | 101 => ⟨S1x128, .f32⟩
  | 102 => ⟨S128, .f32⟩
  | 103 => ⟨S1x128, .f32⟩
  | 104 => ⟨S1x128, .f32⟩
  | 105 => ⟨S128, .f32⟩
  | 106 => ⟨S1x128, .f32⟩
  | 107 => ⟨S1x128, .f32⟩
  | 108 => ⟨S128, .f32⟩
  | 109 => ⟨S1x128, .f32⟩
  | 110 => ⟨S50000x128, .f32⟩
  | 111 => ⟨S1x128x128, .f32⟩
  | 112 => ⟨S128x128, .f32⟩
  | 113 => ⟨S_, .f32⟩
  | 114 => ⟨S128, .f32⟩
  | 115 => ⟨S1x128, .f32⟩
  | 116 => ⟨S50000x128, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000x128, .f32⟩
  | 126 => ⟨S800000x1, .f32⟩
  | 127 => ⟨S800000x128, .f32⟩
  | _ => ⟨S50000x256, .f32⟩

abbrev hbmTy0_1 (i : Nat) : BufTy := match i % 128 with
  | 0 => ⟨S800000x128, .f32⟩
  | 1 => ⟨S_, .f32⟩
  | 2 => ⟨S50000x128, .f32⟩
  | 3 => ⟨S800000x1, .i32⟩
  | 4 => ⟨S50000x128, .f32⟩
  | 5 => ⟨S1x128, .f32⟩
  | 6 => ⟨S128, .f32⟩
  | 7 => ⟨S1x128, .f32⟩
  | 8 => ⟨S1x128, .f32⟩
  | 9 => ⟨S128, .f32⟩
  | 10 => ⟨S1x128, .f32⟩
  | 11 => ⟨S1x128, .f32⟩
  | 12 => ⟨S128, .f32⟩
  | 13 => ⟨S1x128, .f32⟩
  | 14 => ⟨S50000x128, .f32⟩
  | 15 => ⟨S1x32, .f32⟩
  | 16 => ⟨S50000x32, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x1, .f32⟩
  | .local _ .vmem, ⟨17, _⟩ => ⟨S2000x1, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S128x128, .f32⟩
  | .local _ .vmem, ⟨28, _⟩ => ⟨S1x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x1, .f32⟩
  | .local _ .vmem, ⟨36, _⟩ => ⟨S2000x1, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S128x128, .f32⟩
  | .local _ .vmem, ⟨47, _⟩ => ⟨S1x128, .f32⟩
  | .local _ .vmem, ⟨48, _⟩ => ⟨S2000x128, .f32⟩
  | .local _ .vmem, ⟨49, _⟩ => ⟨S2000x128, .f32⟩
  | .local _ .vmem, ⟨50, _⟩ => ⟨S2000x128, .f32⟩
  | .local _ .vmem, ⟨51, _⟩ => ⟨S2000x128, .f32⟩
  | .local _ .vmem, ⟨52, _⟩ => ⟨S2000x128, .f32⟩
  | .local _ .vmem, ⟨53, _⟩ => ⟨S2000x128, .f32⟩
  | .local _ .vmem, ⟨54, _⟩ => ⟨S2000x1, .f32⟩
  | .local _ .vmem, ⟨55, _⟩ => ⟨S2000x1, .f32⟩
  | .local _ .vmem, ⟨56, _⟩ => ⟨S1x128, .f32⟩
  | .local _ .vmem, ⟨57, _⟩ => ⟨S1x128, .f32⟩
  | .local _ .vmem, ⟨58, _⟩ => ⟨S1x128, .f32⟩
  | .local _ .vmem, ⟨59, _⟩ => ⟨S2000x128, .f32⟩
  | .local _ .vmem, ⟨60, _⟩ => ⟨S2000x128, .f32⟩
  | .local _ .vmem, ⟨61, _⟩ => ⟨S2000x128, .f32⟩
  | .local _ .vmem, ⟨62, _⟩ => ⟨S2000x128, .f32⟩
  | .local _ .vmem, ⟨63, _⟩ => ⟨S2000x128, .f32⟩
  | .local _ .vmem, ⟨64, _⟩ => ⟨S2000x128, .f32⟩
  | .local _ .vmem, ⟨65, _⟩ => ⟨S128x32, .f32⟩
  | .local _ .vmem, ⟨66, _⟩ => ⟨S1x32, .f32⟩
  | .local _ .vmem, ⟨67, _⟩ => ⟨S2000x32, .f32⟩
  | .local _ .vmem, ⟨68, _⟩ => ⟨S2000x32, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | _, _ => false

abbrev semScoped : Fin 0 → Bool
  | ⟨_, h⟩ => absurd h (Nat.not_lt_zero _)

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  ofTc nBuf bufTy 0 69 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_9 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_c_10 : Ref sig .tc := ⟨.hbm, 85, rfl⟩
abbrev main_v63 : Ref sig .tc := ⟨.hbm, 86, rfl⟩
abbrev main_v64 : Ref sig .tc := ⟨.hbm, 87, rfl⟩
abbrev main_c_11 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_12 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_cst_13 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_c_14 : Ref sig .tc := ⟨.hbm, 117, rfl⟩
abbrev main_v91 : Ref sig .tc := ⟨.hbm, 118, rfl⟩
abbrev main_v92 : Ref sig .tc := ⟨.hbm, 119, rfl⟩
abbrev main_c_15 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_cst_16 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg6_1 : Ref sig .tc := ⟨.vmem, 22, rfl⟩
abbrev cc2_stg7_0 : Ref sig .tc := ⟨.vmem, 23, rfl⟩
abbrev cc2_stg7_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg3_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg2_1 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg5_0 : Ref sig .tc := ⟨.vmem, 39, rfl⟩
abbrev cc4_stg6_0 : Ref sig .tc := ⟨.vmem, 40, rfl⟩
abbrev cc4_stg6_1 : Ref sig .tc := ⟨.vmem, 41, rfl⟩
abbrev cc4_stg7_0 : Ref sig .tc := ⟨.vmem, 42, rfl⟩
abbrev cc4_stg7_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg3_1 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg1_1 : Ref sig .tc := ⟨.vmem, 53, rfl⟩
abbrev cc6_stg2_0 : Ref sig .tc := ⟨.vmem, 54, rfl⟩
abbrev cc6_stg2_1 : Ref sig .tc := ⟨.vmem, 55, rfl⟩
abbrev cc6_stg3_0 : Ref sig .tc := ⟨.vmem, 56, rfl⟩
abbrev cc6_stg4_0 : Ref sig .tc := ⟨.vmem, 57, rfl⟩
abbrev cc6_stg5_0 : Ref sig .tc := ⟨.vmem, 58, rfl⟩
abbrev cc6_stg6_0 : Ref sig .tc := ⟨.vmem, 59, rfl⟩
abbrev cc6_stg6_1 : Ref sig .tc := ⟨.vmem, 60, rfl⟩
abbrev cc6_stg7_0 : Ref sig .tc := ⟨.vmem, 61, rfl⟩
abbrev cc6_stg7_1 : Ref sig .tc := ⟨.vmem, 62, rfl⟩
abbrev cc7_stg0_0 : Ref sig .tc := ⟨.vmem, 63, rfl⟩
abbrev cc7_stg0_1 : Ref sig .tc := ⟨.vmem, 64, rfl⟩
abbrev cc7_stg1_0 : Ref sig .tc := ⟨.vmem, 65, rfl⟩
abbrev cc7_stg2_0 : Ref sig .tc := ⟨.vmem, 66, rfl⟩
abbrev cc7_stg3_0 : Ref sig .tc := ⟨.vmem, 67, rfl⟩
abbrev cc7_stg3_1 : Ref sig .tc := ⟨.vmem, 68, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem6_1 : DmaSem sig := 22
abbrev cc2_sem7_0 : DmaSem sig := 23
abbrev cc2_sem7_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem3_0 : DmaSem sig := 29
abbrev cc3_sem3_1 : DmaSem sig := 30
abbrev cc4_sem0_0 : DmaSem sig := 31
abbrev cc4_sem0_1 : DmaSem sig := 32
abbrev cc4_sem1_0 : DmaSem sig := 33
abbrev cc4_sem1_1 : DmaSem sig := 34
abbrev cc4_sem2_0 : DmaSem sig := 35
abbrev cc4_sem2_1 : DmaSem sig := 36
abbrev cc4_sem3_0 : DmaSem sig := 37
abbrev cc4_sem4_0 : DmaSem sig := 38
abbrev cc4_sem5_0 : DmaSem sig := 39
abbrev cc4_sem6_0 : DmaSem sig := 40
abbrev cc4_sem6_1 : DmaSem sig := 41
abbrev cc4_sem7_0 : DmaSem sig := 42
abbrev cc4_sem7_1 : DmaSem sig := 43
abbrev cc5_sem0_0 : DmaSem sig := 44
abbrev cc5_sem0_1 : DmaSem sig := 45
abbrev cc5_sem1_0 : DmaSem sig := 46
abbrev cc5_sem2_0 : DmaSem sig := 47
abbrev cc5_sem3_0 : DmaSem sig := 48
abbrev cc5_sem3_1 : DmaSem sig := 49
abbrev cc6_sem0_0 : DmaSem sig := 50
abbrev cc6_sem0_1 : DmaSem sig := 51
abbrev cc6_sem1_0 : DmaSem sig := 52
abbrev cc6_sem1_1 : DmaSem sig := 53
abbrev cc6_sem2_0 : DmaSem sig := 54
abbrev cc6_sem2_1 : DmaSem sig := 55
abbrev cc6_sem3_0 : DmaSem sig := 56
abbrev cc6_sem4_0 : DmaSem sig := 57
abbrev cc6_sem5_0 : DmaSem sig := 58
abbrev cc6_sem6_0 : DmaSem sig := 59
abbrev cc6_sem6_1 : DmaSem sig := 60
abbrev cc6_sem7_0 : DmaSem sig := 61
abbrev cc6_sem7_1 : DmaSem sig := 62
abbrev cc7_sem0_0 : DmaSem sig := 63
abbrev cc7_sem0_1 : DmaSem sig := 64
abbrev cc7_sem1_0 : DmaSem sig := 65
abbrev cc7_sem2_0 : DmaSem sig := 66
abbrev cc7_sem3_0 : DmaSem sig := 67
abbrev cc7_sem3_1 : DmaSem sig := 68

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S2000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S2000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S2000x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x32 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x32 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S2000x32 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  shapeCasts_S128_S1x128 : S128.ShapeCasts S1x128
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  slices_S3x128x128_S1x128x128_0_0_0 : S3x128x128.Slices ![0, 0, 0] S1x128x128
  shapeCasts_S1x128x128_S128x128 : S1x128x128.ShapeCasts S128x128
  bcast_S_S128 : S_.BroadcastsInDim S128 (![] : Fin 0 → Fin S128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S3x128_S1x128_0_0 : S3x128.Slices ![0, 0] S1x128
  shapeCasts_S1x128_S128 : S1x128.ShapeCasts S128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  reduces_S2000x128_S2000 : S2000x128.Reduces [1] S2000
  shapeCasts_S2000_S2000x1 : S2000.ShapeCasts S2000x1
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S32_S1x32 : S32.ShapeCasts S1x32
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S2000x32_S2000x32_0_0 : ∀ a, (![0, 0] : Fin 2 → Nat) a + S2000x32.size a ≤ S2000x32.size a
  h_S2000x32 : 0 < S2000x32.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x256_S256x128_S2000x128_1_0_0_1_n_n_wf : DotDims.WF S2000x256 S256x128 S2000x128 [1] [0] [0] [1] [] []
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x32_S2000x32_1_0_0_1_n_n_wf : DotDims.WF S2000x128 S128x32 S2000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S50000x128.size a
  hwx2_7 : ∀ i : grid2.Coords, EltTy.bits .f32 = 32 ∨ (Rect.block (s := S50000x128) S2000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S50000x1.size a
  hwx4_2 : ∀ i : grid4.Coords, EltTy.bits .f32 = 32 ∨ (Rect.block (s := S50000x1) S2000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x128.size a ≤ S50000x128.size a
  hwx4_6 : ∀ i : grid4.Coords, EltTy.bits .f32 = 32 ∨ (Rect.block (s := S50000x128) S2000x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x128.size a ≤ S50000x128.size a
  hwx4_7 : ∀ i : grid4.Coords, EltTy.bits .f32 = 32 ∨ (Rect.block (s := S50000x128) S2000x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S50000x128.size a
  hwx5_3 : ∀ i : grid5.Coords, EltTy.bits .f32 = 32 ∨ (Rect.block (s := S50000x128) S2000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x128.size a ≤ S50000x128.size a
  hwx6_1 : ∀ i : grid6.Coords, EltTy.bits .f32 = 32 ∨ (Rect.block (s := S50000x128) S2000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x1.size a ≤ S50000x1.size a
  hwx6_2 : ∀ i : grid6.Coords, EltTy.bits .f32 = 32 ∨ (Rect.block (s := S50000x1) S2000x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S2000x128.size a ≤ S50000x128.size a
  hwx6_6 : ∀ i : grid6.Coords, EltTy.bits .f32 = 32 ∨ (Rect.block (s := S50000x128) S2000x128.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S2000x128.size a ≤ S50000x128.size a
  hwx6_7 : ∀ i : grid6.Coords, EltTy.bits .f32 = 32 ∨ (Rect.block (s := S50000x128) S2000x128.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x32.size a ≤ S128x32.size a
  hwx7_1 : ∀ i : grid7.Coords, EltTy.bits .f32 = 32 ∨ (Rect.block (s := S128x32) S128x32.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x32.size a ≤ S1x32.size a
  hwx7_2 : ∀ i : grid7.Coords, EltTy.bits .f32 = 32 ∨ (Rect.block (s := S1x32) S1x32.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x32.size a ≤ S50000x32.size a
  hwx7_3 : ∀ i : grid7.Coords, EltTy.bits .f32 = 32 ∨ (Rect.block (s := S50000x32) S2000x32.size (cc7_transform_3 i) (hinb7_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x32_S2000x32_1_0_0_1_n_n : DotDims S2000x128 S128x32 S2000x32 where
  lhsContracting := [1]
  rhsContracting := [0]
  lhsNonContracting := [0]
  rhsNonContracting := [1]
  lhsBatch := []
  rhsBatch := []
  wf := dot_S2000x128_S128x32_S2000x32_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v47) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v50) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v29) S2000x128.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v57) S2000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v57) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v62) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v75) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v62) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v27) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v78) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v81) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v84) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v57) S2000x128.size cc4_transform_6 reads4_6 false false 2 stage4_6 sem4_6
    hrank4 hreads4_6 hinb4_6 nbuf4_6 (Memref.isWhole_whole _) hwx4_6 hstage4_6

abbrev win4_7 : Pipeline.Window sig grid4 :=
  Pipeline.Window.ofSpec (Memref.whole main_v85) S2000x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v85) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v87) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v89) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v90) S2000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v103) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v90) S2000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v27) S2000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v106) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v109) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v112) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v85) S2000x128.size cc6_transform_6 reads6_6 false false 2 stage6_6 sem6_6
    hrank6 hreads6_6 hinb6_6 nbuf6_6 (Memref.isWhole_whole _) hwx6_6 hstage6_6

abbrev win6_7 : Pipeline.Window sig grid6 :=
  Pipeline.Window.ofSpec (Memref.whole main_v113) S2000x128.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v113) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg8) S128x32.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v114) S1x32.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v115) S2000x32.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S3x128x128 : Shape := ⟨3, ![3, 128, 128]⟩
abbrev S3x128 : Shape := ⟨2, ![3, 128]⟩
abbrev S128x32 : Shape := ⟨2, ![128, 32]⟩
abbrev S32 : Shape := ⟨1, ![32]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x128 : Shape := ⟨2, ![50000, 128]⟩
abbrev S1x128 : Shape := ⟨2, ![1, 128]⟩
abbrev S1x128x128 : Shape := ⟨3, ![1, 128, 128]⟩
abbrev S128x128 : Shape := ⟨2, ![128, 128]⟩
abbrev S800000x128 : Shape := ⟨2, ![800000, 128]⟩
abbrev S50000x32 : Shape := ⟨2, ![50000, 32]⟩
abbrev S1x32 : Shape := ⟨2, ![1, 32]⟩

abbrev nBuf : Space → Nat
  | .hbm => 248
  | .vmem => 0
  | .smem => 0
  | _ => 0

abbrev hbmTy0_0 (i : Nat) : BufTy := match i % 128 with
  | 0 => ⟨S50000x256, .f32⟩
  | 1 => ⟨S2x800000, .i32⟩
  | 2 => ⟨S256x128, .f32⟩
  | 3 => ⟨S128, .f32⟩
  | 4 => ⟨S3x128x128, .f32⟩
  | 5 => ⟨S3x128, .f32⟩
  | 6 => ⟨S3x128, .f32⟩
  | 7 => ⟨S3x128, .f32⟩
  | 8 => ⟨S128x32, .f32⟩
  | 9 => ⟨S32, .f32⟩
  | 10 => ⟨S1x800000, .i32⟩
  | 11 => ⟨S800000, .i32⟩
  | 12 => ⟨S1x800000, .i32⟩
  | 13 => ⟨S800000, .i32⟩
  | 14 => ⟨S_, .f32⟩
  | 15 => ⟨S800000, .f32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S50000, .f32⟩
  | 23 => ⟨S50000, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000, .f32⟩
  | 42 => ⟨S800000, .f32⟩
  | 43 => ⟨S50000, .f32⟩
  | 44 => ⟨S50000x1, .f32⟩
  | 45 => ⟨S50000x128, .f32⟩
  | 46 => ⟨S1x128, .f32⟩
  | 47 => ⟨S50000x128, .f32⟩
  | 48 => ⟨S50000x128, .f32⟩
  | 49 => ⟨S_, .f32⟩
  | 50 => ⟨S50000x128, .f32⟩
  | 51 => ⟨S50000x128, .f32⟩
  | 52 => ⟨S1x128x128, .f32⟩
  | 53 => ⟨S128x128, .f32⟩
  | 54 => ⟨S50000x128, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x128, .f32⟩
  | 64 => ⟨S800000x1, .f32⟩
  | 65 => ⟨S800000x128, .f32⟩
  | 66 => ⟨S800000x128, .f32⟩
  | 67 => ⟨S_, .f32⟩
  | 68 => ⟨S50000x128, .f32⟩
  | 69 => ⟨S800000x1, .i32⟩
  | 70 => ⟨S50000x128, .f32⟩
  | 71 => ⟨S50000x128, .f32⟩
  | 72 => ⟨S50000x128, .f32⟩
  | 73 => ⟨S50000x128, .f32⟩
  | 74 => ⟨S1x128, .f32⟩
  | 75 => ⟨S128, .f32⟩
  | 76 => ⟨S1x128, .f32⟩
  | 77 => ⟨S50000x128, .f32⟩
  | 78 => ⟨S50000x128, .f32⟩
  | 79 => ⟨S1x128, .f32⟩
  | 80 => ⟨S128, .f32⟩
  | 81 => ⟨S1x128, .f32⟩
  | 82 => ⟨S128, .f32⟩
  | 83 => ⟨S_, .f32⟩
  | 84 => ⟨S50000, .f32⟩
  | 85 => ⟨S50000x1, .f32⟩
  | 86 => ⟨S_, .f32⟩
  | 87 => ⟨S50000x1, .f32⟩
  | 88 => ⟨S50000x1, .f32⟩
  | 89 => ⟨S50000x128, .f32⟩
  | 90 => ⟨S50000x128, .f32⟩
  | 91 => ⟨S50000x128, .f32⟩
  | 92 => ⟨S_, .f32⟩
  | 93 => ⟨S50000, .f32⟩
  | 94 => ⟨S50000x1, .f32⟩
  | 95 => ⟨S_, .f32⟩
  | 96 => ⟨S50000x1, .f32⟩
  | 97 => ⟨S50000x1, .f32⟩
  | 98 => ⟨S50000x128, .f32⟩
  | 99 => ⟨S50000x128, .f32⟩
  | 100 => ⟨S_, .f32⟩
  | 101 => ⟨S50000x1, .f32⟩
  | 102 => ⟨S50000x1, .f32⟩
  | 103 => ⟨S50000x1, .f32⟩
  | 104 => ⟨S50000x128, .f32⟩
  | 105 => ⟨S50000x128, .f32⟩
  | 106 => ⟨S1x128, .f32⟩
  | 107 => ⟨S50000x128, .f32⟩
  | 108 => ⟨S50000x128, .f32⟩
  | 109 => ⟨S1x128, .f32⟩
  | 110 => ⟨S50000x128, .f32⟩
  | 111 => ⟨S50000x128, .f32⟩
  | 112 => ⟨S_, .f32⟩
  | 113 => ⟨S50000x128, .f32⟩
  | 114 => ⟨S50000x128, .f32⟩
  | 115 => ⟨S50000x128, .f32⟩
  | 116 => ⟨S1x128x128, .f32⟩
  | 117 => ⟨S128x128, .f32⟩
  | 118 => ⟨S50000x128, .f32⟩
  | 119 => ⟨S_, .i32⟩
  | 120 => ⟨S800000, .i32⟩
  | 121 => ⟨S800000, .i1⟩
  | 122 => ⟨S_, .i32⟩
  | 123 => ⟨S800000, .i32⟩
  | 124 => ⟨S800000, .i32⟩
  | 125 => ⟨S800000, .i32⟩
  | 126 => ⟨S800000x1, .i32⟩
  | 127 => ⟨S800000x128, .f32⟩
  | _ => ⟨S50000x256, .f32⟩

abbrev hbmTy0_1 (i : Nat) : BufTy := match i % 128 with
  | 0 => ⟨S800000x1, .f32⟩
  | 1 => ⟨S800000x128, .f32⟩
  | 2 => ⟨S800000x128, .f32⟩
  | 3 => ⟨S_, .f32⟩
  | 4 => ⟨S50000x128, .f32⟩
  | 5 => ⟨S800000x1, .i32⟩
  | 6 => ⟨S50000x128, .f32⟩
  | 7 => ⟨S50000x128, .f32⟩
  | 8 => ⟨S50000x128, .f32⟩
  | 9 => ⟨S50000x128, .f32⟩
  | 10 => ⟨S1x128, .f32⟩
  | 11 => ⟨S128, .f32⟩
  | 12 => ⟨S1x128, .f32⟩
  | 13 => ⟨S50000x128, .f32⟩
  | 14 => ⟨S50000x128, .f32⟩
  | 15 => ⟨S1x128, .f32⟩
  | 16 => ⟨S128, .f32⟩
  | 17 => ⟨S1x128, .f32⟩
  | 18 => ⟨S128, .f32⟩
  | 19 => ⟨S_, .f32⟩
  | 20 => ⟨S50000, .f32⟩
  | 21 => ⟨S50000x1, .f32⟩
  | 22 => ⟨S_, .f32⟩
  | 23 => ⟨S50000x1, .f32⟩
  | 24 => ⟨S50000x1, .f32⟩
  | 25 => ⟨S50000x128, .f32⟩
  | 26 => ⟨S50000x128, .f32⟩
  | 27 => ⟨S50000x128, .f32⟩
  | 28 => ⟨S_, .f32⟩
  | 29 => ⟨S50000, .f32⟩
  | 30 => ⟨S50000x1, .f32⟩
  | 31 => ⟨S_, .f32⟩
  | 32 => ⟨S50000x1, .f32⟩
  | 33 => ⟨S50000x1, .f32⟩
  | 34 => ⟨S50000x128, .f32⟩
  | 35 => ⟨S50000x128, .f32⟩
  | 36 => ⟨S_, .f32⟩
  | 37 => ⟨S50000x1, .f32⟩
  | 38 => ⟨S50000x1, .f32⟩
  | 39 => ⟨S50000x1, .f32⟩
  | 40 => ⟨S50000x128, .f32⟩
  | 41 => ⟨S50000x128, .f32⟩
  | 42 => ⟨S1x128, .f32⟩
  | 43 => ⟨S50000x128, .f32⟩
  | 44 => ⟨S50000x128, .f32⟩
  | 45 => ⟨S1x128, .f32⟩
  | 46 => ⟨S50000x128, .f32⟩
  | 47 => ⟨S50000x128, .f32⟩
  | 48 => ⟨S_, .f32⟩
  | 49 => ⟨S50000x128, .f32⟩
  | 50 => ⟨S50000x128, .f32⟩
  | 51 => ⟨S50000x128, .f32⟩
  | 52 => ⟨S1x128x128, .f32⟩
  | 53 => ⟨S128x128, .f32⟩
  | 54 => ⟨S50000x128, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x128, .f32⟩
  | 64 => ⟨S800000x1, .f32⟩
  | 65 => ⟨S800000x128, .f32⟩
  | 66 => ⟨S800000x128, .f32⟩
  | 67 => ⟨S_, .f32⟩
  | 68 => ⟨S50000x128, .f32⟩
  | 69 => ⟨S800000x1, .i32⟩
  | 70 => ⟨S50000x128, .f32⟩
  | 71 => ⟨S50000x128, .f32⟩
  | 72 => ⟨S50000x128, .f32⟩
  | 73 => ⟨S50000x128, .f32⟩
  | 74 => ⟨S1x128, .f32⟩
  | 75 => ⟨S128, .f32⟩
  | 76 => ⟨S1x128, .f32⟩
  | 77 => ⟨S50000x128, .f32⟩
  | 78 => ⟨S50000x128, .f32⟩
  | 79 => ⟨S1x128, .f32⟩
  | 80 => ⟨S128, .f32⟩
  | 81 => ⟨S1x128, .f32⟩
  | 82 => ⟨S128, .f32⟩
  | 83 => ⟨S_, .f32⟩
  | 84 => ⟨S50000, .f32⟩
  | 85 => ⟨S50000x1, .f32⟩
  | 86 => ⟨S_, .f32⟩
  | 87 => ⟨S50000x1, .f32⟩
  | 88 => ⟨S50000x1, .f32⟩
  | 89 => ⟨S50000x128, .f32⟩
  | 90 => ⟨S50000x128, .f32⟩
  | 91 => ⟨S50000x128, .f32⟩
  | 92 => ⟨S_, .f32⟩
  | 93 => ⟨S50000, .f32⟩
  | 94 => ⟨S50000x1, .f32⟩
  | 95 => ⟨S_, .f32⟩
  | 96 => ⟨S50000x1, .f32⟩
  | 97 => ⟨S50000x1, .f32⟩
  | 98 => ⟨S50000x128, .f32⟩
  | 99 => ⟨S50000x128, .f32⟩
  | 100 => ⟨S_, .f32⟩
  | 101 => ⟨S50000x1, .f32⟩
  | 102 => ⟨S50000x1, .f32⟩
  | 103 => ⟨S50000x1, .f32⟩
  | 104 => ⟨S50000x128, .f32⟩
  | 105 => ⟨S50000x128, .f32⟩
  | 106 => ⟨S1x128, .f32⟩
  | 107 => ⟨S50000x128, .f32⟩
  | 108 => ⟨S50000x128, .f32⟩
  | 109 => ⟨S1x128, .f32⟩
  | 110 => ⟨S50000x128, .f32⟩
  | 111 => ⟨S50000x128, .f32⟩
  | 112 => ⟨S_, .f32⟩
  | 113 => ⟨S50000x128, .f32⟩
  | 114 => ⟨S50000x128, .f32⟩
  | 115 => ⟨S50000x128, .f32⟩
  | 116 => ⟨S50000x32, .f32⟩
  | 117 => ⟨S1x32, .f32⟩
  | 118 => ⟨S50000x32, .f32⟩
  | 119 => ⟨S50000x32, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_call0_cst : Ref sig .tc := ⟨.hbm, 49, rfl⟩
abbrev main_call0_v0 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_5 : Ref sig .tc := ⟨.hbm, 55, rfl⟩
abbrev main_v36 : Ref sig .tc := ⟨.hbm, 56, rfl⟩
abbrev main_v37 : Ref sig .tc := ⟨.hbm, 57, rfl⟩
abbrev main_c_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_7 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_8 : Ref sig .tc := ⟨.hbm, 83, rfl⟩
abbrev main_v61 : Ref sig .tc := ⟨.hbm, 84, rfl⟩
abbrev main_v62 : Ref sig .tc := ⟨.hbm, 85, rfl⟩
abbrev main_cst_9 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_10 : Ref sig .tc := ⟨.hbm, 92, rfl⟩
abbrev main_v68 : Ref sig .tc := ⟨.hbm, 93, rfl⟩
abbrev main_v69 : Ref sig .tc := ⟨.hbm, 94, rfl⟩
abbrev main_cst_11 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_12 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_call1_cst : Ref sig .tc := ⟨.hbm, 112, rfl⟩
abbrev main_call1_v0 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_c_13 : Ref sig .tc := ⟨.hbm, 119, rfl⟩
abbrev main_v90 : Ref sig .tc := ⟨.hbm, 120, rfl⟩
abbrev main_v91 : Ref sig .tc := ⟨.hbm, 121, rfl⟩
abbrev main_c_14 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_15 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_cst_16 : Ref sig .tc := ⟨.hbm, 147, rfl⟩
abbrev main_v115 : Ref sig .tc := ⟨.hbm, 148, rfl⟩
abbrev main_v116 : Ref sig .tc := ⟨.hbm, 149, rfl⟩
abbrev main_cst_17 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_cst_18 : Ref sig .tc := ⟨.hbm, 156, rfl⟩
abbrev main_v122 : Ref sig .tc := ⟨.hbm, 157, rfl⟩
abbrev main_v123 : Ref sig .tc := ⟨.hbm, 158, rfl⟩
abbrev main_cst_19 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_cst_20 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_call2_cst : Ref sig .tc := ⟨.hbm, 176, rfl⟩
abbrev main_call2_v0 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_c_21 : Ref sig .tc := ⟨.hbm, 183, rfl⟩
abbrev main_v144 : Ref sig .tc := ⟨.hbm, 184, rfl⟩
abbrev main_v145 : Ref sig .tc := ⟨.hbm, 185, rfl⟩
abbrev main_c_22 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_cst_23 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_cst_24 : Ref sig .tc := ⟨.hbm, 211, rfl⟩
abbrev main_v169 : Ref sig .tc := ⟨.hbm, 212, rfl⟩
abbrev main_v170 : Ref sig .tc := ⟨.hbm, 213, rfl⟩
abbrev main_cst_25 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_cst_26 : Ref sig .tc := ⟨.hbm, 220, rfl⟩
abbrev main_v176 : Ref sig .tc := ⟨.hbm, 221, rfl⟩
abbrev main_v177 : Ref sig .tc := ⟨.hbm, 222, rfl⟩
abbrev main_cst_27 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_cst_28 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_call3_cst : Ref sig .tc := ⟨.hbm, 240, rfl⟩
abbrev main_call3_v0 : Ref sig .tc := ⟨.hbm, 241, rfl⟩
abbrev main_v193 : Ref sig .tc := ⟨.hbm, 242, rfl⟩
abbrev main_v194 : Ref sig .tc := ⟨.hbm, 243, rfl⟩
abbrev main_v195 : Ref sig .tc := ⟨.hbm, 244, rfl⟩
abbrev main_v196 : Ref sig .tc := ⟨.hbm, 245, rfl⟩
abbrev main_v197 : Ref sig .tc := ⟨.hbm, 246, rfl⟩
abbrev main_v198 : Ref sig .tc := ⟨.hbm, 247, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  bcast_S800000x1_S800000x128_0_1 : S800000x1.BroadcastsInDim S800000x128 (![0, 1] : Fin 2 → Fin S800000x128.rank)
  bcast_S50000x1_S50000x128_0_1 : S50000x1.BroadcastsInDim S50000x128 (![0, 1] : Fin 2 → Fin S50000x128.rank)
  slices_S3x128_S1x128_0_0 : S3x128.Slices ![0, 0] S1x128
  shapeCasts_S1x128_S128 : S1x128.ShapeCasts S128
  reducesTo_S50000x128_S50000_d1 : S50000x128.ReducesTo [1] S50000
  h_S_ : 0 < S_.numel
  bcast_S_S50000x1 : S_.BroadcastsInDim S50000x1 (![] : Fin 0 → Fin S50000x1.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x32_S50000x32_1_0_0_1_n_n_wf : DotDims.WF S50000x128 S128x32 S50000x32 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf

class Facts : Prop extends Facts₀ where

variable [Facts]
-- ==== Proof.RunNamed.lean ====
/-
  The idealized kernel's run with its RESULT named. @main is sixteen segments — a stretch of host operations, then a
  pallas_call, eight times over — and the contents of every buffer at each segment boundary are a fold from the launch
  memory: a host stretch applies its operations, a pallas_call leaves in each of its arrays what its write-backs
  leave and every other buffer as it found it. Every weakly fair execution terminates, without a fault, in a state
  whose unscoped buffers hold the last boundary's contents; read at the result array and at the ten arguments this
  says: the result is the fold's last contents at that array, and the arguments are as launched.
-/
import proofs.«107958_j12893491822680_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement
set_option backward.isDefEq.respectTransparency.types false in
/-- Every weakly fair execution of @main terminates, nothing faulting, with the result array at the last boundary's
    contents and each argument array as launched. -/
theorem run_named : θ_run defs (onTc (τ := τ) (main (F := F))) ⟨m, fun _ => 0, ρ⟩ (fun r => ∀ c : Dev nD,
      r.2.mem ((c.tc : Thread nD τ).loc main_v115) = W16 m ρ c (Proc.devRef .tc main_v115)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v115 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c)⟩)

end Cert.KernelIdeal.RunValue

end
-- ==== Proof.Spec.lean ====
/-
  What each dense stage of the network computes, index by index, over the extended reals — stated once, away from
  both programs, so that the kernel's tiled stages and the reference's whole-array stages are each compared with ONE
  function.

  * `lin x w b`      — row p of `x` against column q of `w`, plus the bias row: (Σ_k x[p,k]·w[k,q]) + b[0,q];
  * `linRelu`        — the same, clamped below at 0;
  * `combine`        — one graph-convolution layer's tail, per node p: the pre-activation row
                         a[k] = agg[p,k] + m[p,k]·s[p,0] + cb[0,k]; its mean μ = (Σ_k a[k]) / 128 and its variance
                         σ² = (Σ_k (a[k] − μ)²) / 128 (both quotients by the float 128.0); the normalised, scaled and shifted
                         entry (a[q] − μ)·rsqrt(σ² + ε)·g[0,q] + b[0,q], clamped below at 0, plus the residual entry id[p,q];
  * `row`, `col`, `layerRow` — a vector laid out as a one-row / one-column matrix, and row l of a stack of rows.

  Sums are finite sums in the extended reals: their order and grouping are immaterial, which is all the tiling of
  the node axis ever changes.
-/
import Idealize.ShloMosaic.PureOps.Ideal
import Idealize.ShloMosaic.Lib.ValueIdx

noncomputable section

namespace Cert.Spec

open Idealize.ShloMosaic Idealize.ShloMosaic.ValueIdx

/-- A matrix of extended reals with `a` rows and `b` columns. -/
abbrev Mat (a b : Nat) := (⟨2, ![a, b]⟩ : Shape).Idx → EReal
/-- A vector of extended reals of length `a`. -/
abbrev Vc (a : Nat) := (⟨1, ![a]⟩ : Shape).Idx → EReal

/-- The dense layer: entry (p,q) is (Σ_k x[p,k]·w[k,q]) + b[0,q]. -/
def lin {N K M : Nat} (x : Mat N K) (w : Mat K M) (b : Mat 1 M) : Mat N M :=
  fun i => (∑ k : Fin K, x (ix2 (i 0) k) * w (ix2 k (i 1))) + b (ix2 (0 : Fin 1) (i 1))

/-- The dense layer followed by the clamp at zero. -/
def linRelu {N K M : Nat} (x : Mat N K) (w : Mat K M) (b : Mat 1 M) : Mat N M :=
  fun i => max (lin x w b i) (Ideal.ofBits .f32 0x00000000#32)

/-- The quotient of a finite sum by the float 128.0. -/
def mean128 {H : Nat} (a : Fin H → EReal) : EReal :=
  Ideal.div (∑ k : Fin H, a k) (Ideal.ofBits .f32 0x43000000#32)

/-- Node p's pre-activation row: the neighbours' aggregate, the node's own message weighted by its self-loop
    coefficient, and the layer's bias. -/
def preact {N H : Nat} (agg m : Mat N H) (s : Mat N 1) (cb : Mat 1 H) (p : Fin N) (k : Fin H) : EReal :=
  agg (ix2 p k) + m (ix2 p k) * s (ix2 p (0 : Fin 1)) + cb (ix2 (0 : Fin 1) k)

/-- A layer's tail: layer normalisation of the pre-activation row, the clamp at zero, the residual. -/
def combine {N H : Nat} (agg m : Mat N H) (s : Mat N 1) (cb g b : Mat 1 H) (id : Mat N H) : Mat N H :=
  fun i =>
    max ((preact agg m s cb (i 0) (i 1) - mean128 (preact agg m s cb (i 0)))
          * Ideal.rsqrt (mean128 (fun k => (preact agg m s cb (i 0) k - mean128 (preact agg m s cb (i 0)))
                                          * (preact agg m s cb (i 0) k - mean128 (preact agg m s cb (i 0))))
                          + Ideal.ofBits .f32 0x3727C5AC#32)
          * g (ix2 (0 : Fin 1) (i 1)) + b (ix2 (0 : Fin 1) (i 1)))
        (Ideal.ofBits .f32 0x00000000#32)
      + id i

/-- A vector as a one-row matrix. -/
def row {M : Nat} (v : Vc M) : Mat 1 M := fun i => v (ix1 (i 1))
/-- A vector as a one-column matrix. -/
def col {N : Nat} (v : Vc N) : Mat N 1 := fun i => v (ix1 (i 0))
/-- Row `l` of a stack of rows, as a one-row matrix. -/
def layerRow {L M : Nat} (a : Mat L M) (l : Fin L) : Mat 1 M := fun i => a (ix2 l (i 1))
/-- The one-row matrix of zeros. -/
def zeroRow {M : Nat} : Mat 1 M := fun _ => 0

theorem lin_zeroRow {N K M : Nat} (x : Mat N K) (w : Mat K M) (i : (⟨2, ![N, M]⟩ : Shape).Idx) :
    lin x w zeroRow i = ∑ k : Fin K, x (ix2 (i 0) k) * w (ix2 k (i 1)) := by
  unfold lin zeroRow; exact add_zero _

end Cert.Spec

end
-- ==== Proof.LibRowLayout.lean ====
/-
  A row vector's layout operations read at coordinates. Independent of any program.

  A vector [b] re-laid as the row [1, b] keeps its entries in order, so the row at (0, q) is the vector at q; a row
  [1, b] broadcast down a rows repeats it, so the result at (p, q) is the row at (0, q); and the one entry of a [1, 1]
  array extracted at position (0, 0) is the array at (0, 0).
-/
import Idealize.ShloMosaic.Lib.ValueIdx
import Idealize.ShloMosaic.Lib.Pipeline.Value

noncomputable section

namespace Cert.Lib

open Idealize.ShloMosaic Idealize.ShloMosaic.ValueIdx

/-- A vector [b] shape-cast to the row [1, b], read at (0, q), is the vector at q (any b; with b = 1 this is a [1]
    array re-laid as [1, 1]). -/
theorem vecToRow_apply {α : Type} {b : Nat} (x : (⟨1, ![b]⟩ : Shape).Idx → α)
    (h : (⟨1, ![b]⟩ : Shape).ShapeCasts ⟨2, ![1, b]⟩) (q : Fin b) :
    shapeCast ⟨2, ![1, b]⟩ x h (ix2 0 q) = x (ix1 q) :=
  shapeCast_apply x h (ix2 0 q) (ix1 q) (by
    rw [Shape.rowMajor_val_two, Shape.rowMajor_val_one]; show q.val = 0 * b + q.val; omega)

/-- A row [1, b] broadcast to [a, b], read at (p, q), is the row at (0, q). -/
theorem rowBroadcast_apply {α : Type} {a b : Nat} (x : (⟨2, ![1, b]⟩ : Shape).Idx → α)
    (h : (⟨2, ![1, b]⟩ : Shape).Broadcasts ⟨2, ![a, b]⟩) (p : Fin a) (q : Fin b) :
    broadcastTo ⟨2, ![a, b]⟩ x h (ix2 p q) = x (ix2 0 q) :=
  broadcastTo_apply x h (ix2 p q) (ix2 0 q) (fun d => by
    match d with
    | ⟨0, _⟩ => show (0 : Nat) = if (1 : Nat) = 1 then 0 else p.val; rw [if_pos rfl]
    | ⟨1, _⟩ => show q.val = if b = 1 then 0 else q.val; have := q.isLt; split <;> omega)

/-- The entry of a [1, 1] array extracted at position (0, 0) is the array at (0, 0). -/
theorem extract_one_one {α : Type} (x : (⟨2, ![1, 1]⟩ : Shape).Idx → α)
    (h : ∀ d, (![0, 0] : Fin 2 → Nat) d < (⟨2, ![1, 1]⟩ : Shape).size d) :
    extractAt ![0, 0] x h = x (ix2 0 0) :=
  congrArg x (funext fun d => Fin.ext (by match d with | ⟨0, _⟩ => rfl | ⟨1, _⟩ => rfl))

end Cert.Lib

end
-- ==== Proof.LibColumnCast.lean ====
/-
  A vector as a column: an [a] array cast to [a, 1] reads, at (i, 0), the operand at i.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib

end
-- ==== Proof.Glue.lean ====
/-
  Four ways the two programs lay out the same numbers, each read at an index once.

  A bias vector enters a dense stage as a one-row matrix (a reshape [M] → [1, M]); the zero bias of the inner dense stages
  is the zero word broadcast to [M] and reshaped the same way; the self-loop coefficient enters a layer's tail as a
  one-column matrix (a reshape [N] → [N, 1]); and a layer's row of a stacked [L, M] parameter is the slice [l : l+1, 0 : M].
  Entry by entry these are the vector's entry, zero, the vector's entry, and the stack's entry in row l.
-/
import Idealize.ShloMosaic.Lib.Pipeline.Value
import Idealize.ShloMosaic.Lib.ValueIdx
import Idealize.ShloMosaic.PureOps.Ideal.Laws
import proofs.«107958_j12893491822680_1_alg».proof.Proof.Spec
import proofs.«107958_j12893491822680_1_alg».proof.Proof.LibRowLayout
import proofs.«107958_j12893491822680_1_alg».proof.Proof.LibColumnCast

noncomputable section

namespace Cert.Glue

open Idealize.ShloMosaic Idealize.ShloMosaic.ValueIdx

/-- A vector reshaped to one row is the row whose entry (0, q) is the vector's entry q. -/
theorem vecRow {b : Nat} (x : Cert.Spec.Vc b) (h : (⟨1, ![b]⟩ : Shape).ShapeCasts ⟨2, ![1, b]⟩) :
    shapeCast ⟨2, ![1, b]⟩ x h = Cert.Spec.row x := by
  funext i
  obtain ⟨p, q, rfl⟩ : ∃ (p : Fin 1) (q : Fin b), i = ix2 p q := ⟨i 0, i 1, eq_ix2 i⟩
  obtain rfl : p = 0 := Subsingleton.elim _ _
  exact Cert.Lib.vecToRow_apply x h q

/-- The zero word broadcast to a vector and reshaped to one row is the row of zeros. -/
theorem zeroRow_eq {b : Nat} (hb : (⟨0, ![]⟩ : Shape).BroadcastsInDim ⟨1, ![b]⟩ ![])
    (h : (⟨1, ![b]⟩ : Shape).ShapeCasts ⟨2, ![1, b]⟩) :
    shapeCast ⟨2, ![1, b]⟩ (broadcastInDim ⟨1, ![b]⟩ ![] hb (constant (F := Ideal) ⟨0, ![]⟩ .f32 0x00000000#32)) h
      = (Cert.Spec.zeroRow : Cert.Spec.Mat 1 b) := by
  refine (vecRow _ h).trans ?_
  funext i
  obtain ⟨p, q, rfl⟩ : ∃ (p : Fin 1) (q : Fin b), i = ix2 p q := ⟨i 0, i 1, eq_ix2 i⟩
  exact (broadcastInDim_apply ![] hb (constant (F := Ideal) ⟨0, ![]⟩ .f32 0x00000000#32) (ix1 q) ix0 (fun a => a.elim0)).trans
    Ideal.ofBits_zero_f32

/-- A vector reshaped to one column is the column whose entry (p, 0) is the vector's entry p. -/
theorem vecCol {a : Nat} (x : Cert.Spec.Vc a) (h : (⟨1, ![a]⟩ : Shape).ShapeCasts ⟨2, ![a, 1]⟩) :
    shapeCast ⟨2, ![a, 1]⟩ x h = Cert.Spec.col x := by
  funext i
  obtain ⟨p, u, rfl⟩ : ∃ (p : Fin a) (u : Fin 1), i = ix2 p u := ⟨i 0, i 1, eq_ix2 i⟩
  exact Cert.Lib.shapeCast_a_a1_apply x h p u

/-- The slice [l : l+1, 0 : M] of a stack of L rows is row l, as a one-row matrix. -/
theorem sliceRow {L M : Nat} (x : Cert.Spec.Mat L M) (l : Fin L)
    (hs : (⟨2, ![L, M]⟩ : Shape).Slices ![l.val, 0] ⟨2, ![1, M]⟩) :
    extractStridedSlice ⟨2, ![1, M]⟩ ![l.val, 0] x hs = Cert.Spec.layerRow x l := by
  funext i
  obtain ⟨p, q, rfl⟩ : ∃ (p : Fin 1) (q : Fin M), i = ix2 p q := ⟨i 0, i 1, eq_ix2 i⟩
  refine extractStridedSlice_apply ![l.val, 0] x hs (ix2 p q) (ix2 l q) (fun a => ?_)
  match a with
  | ⟨0, _⟩ =>
    have h0 : p.val < 1 := p.isLt
    show l.val = l.val + p.val
    omega
  | ⟨1, _⟩ =>
    show q.val = 0 + q.val
    omega

end Cert.Glue

end
-- ==== Proof.LibHostLine.lean ====
/-
  Reading a long straight line of host operations a stretch at a time.

  What an array holds after a line of operations is a fold over the line. Three facts make a long line readable in short
  stretches: a line cut in two is run by running the first part and then the second; a stretch leaves alone every array
  none of its operations writes; and a join of six operands written as one operation over a literal family of six
  arrays reads each operand at its own array (the library states this for four operands). Independent of any program.
-/
import Idealize.ShloMosaic.Lib.StableHlo.Run

noncomputable section

namespace Cert.Lib

open Idealize.ShloMosaic Idealize.ShloMosaic.StableHlo Idealize.SL.Sem

variable {τ : Topo} {sig : RefSig} {Val : EltTy → Type}

/-- Running one stretch after another: the line `l₁ ++ l₂` from `V` is `l₂` from what `l₁` leaves. -/
theorem after_append (l₁ l₂ : List (HloOp τ sig Val)) (V : Valuation τ sig Val) :
    StableHlo.after (l₁ ++ l₂) V = StableHlo.after l₂ (StableHlo.after l₁ V) := by
  induction l₁ generalizing V with
  | nil => rfl
  | cons op ops ih => exact ih (op.result V)

/-- A stretch leaves alone every array none of its operations writes (the hypothesis as a `List.Forall`, which a literal
    stretch discharges operation by operation: each operation writes only its own result array). -/
theorem after_keeps {seg : List (HloOp τ sig Val)} {b : Ref sig .tc} (ν : Valuation τ sig Val)
    (h : seg.Forall fun op => Proc.devRef .tc b ∉ op.writes) :
    StableHlo.after seg ν (Proc.devRef .tc b) = ν (Proc.devRef .tc b) :=
  StableHlo.after_of_forall_not_mem _ _ (List.forall_iff_forall_mem.mp h)

variable {x0 x1 x2 x3 x4 x5 y : Ref sig .tc}

/-- An operation over a LITERAL family of six arrays (a join of six operands), read at its result array: its function of
    the six operands' contents, each at its own array — so that reading can go on into the operands. -/
theorem nary6_result
    (f : ((k : Fin 6) → ((![x0, x1, x2, x3, x4, x5] : Fin 6 → Ref sig .tc) k).ty.Contents Val) → y.ty.Contents Val) (hxs hy)
    (V : Valuation τ sig Val) :
    (nary (τ := τ) ![x0, x1, x2, x3, x4, x5] y f hxs hy).result V (Proc.devRef .tc y)
      = f (Fin.cons (V (Proc.devRef .tc x0)) (Fin.cons (V (Proc.devRef .tc x1)) (Fin.cons (V (Proc.devRef .tc x2))
          (Fin.cons (V (Proc.devRef .tc x3)) (Fin.cons (V (Proc.devRef .tc x4)) (Fin.cons (V (Proc.devRef .tc x5))
            (fun i => i.elim0))))))) := by
  rw [nary_result]; congr 1; funext k; fin_cases k <;> rfl

end Cert.Lib

end
-- ==== Proof.LibAxisSums.lean ====
/-
  The sum of a matrix along one of its two axes, read at an index. Independent of any program.

  A float add-reduction of an [a, b] matrix over its second axis leaves an [a] vector whose entry p is the sum over
  k : Fin b of the matrix at (p, k) — a row sum; over its first axis it leaves a [b] vector whose entry q is the sum
  over k : Fin a of the matrix at (k, q) — a column sum. Over the extended reals the reduction's neutral start value
  contributes nothing, so each is the plain finite sum.
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- ROW SUMS: an add-reduction of an [a, b] matrix over axis 1, at row p, is the sum over k of the matrix at (p, k). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun c => Fin.ext ?_)
  match c with
  | ⟨0, _⟩ => rfl
  | ⟨1, _⟩ => rfl

/-- COLUMN SUMS: an add-reduction of an [a, b] matrix over axis 0, at column q, is the sum over k of the matrix at (k, q). -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ k : Fin a, src (ix2 k q) := by
  refine (Ideal.multiReduction_add_single src acc h hφ hacc (ix1 q)).trans ?_
  refine Finset.sum_congr rfl fun k _ => congrArg src (funext fun c => Fin.ext ?_)
  match c with
  | ⟨0, _⟩ => rfl
  | ⟨1, _⟩ => rfl

end Cert.Lib

end
-- ==== Proof.LibColumnBroadcast.lean ====
/-
  A column broadcast over the columns: a [a, 1] array broadcast to [a, b] reads, at (p, c), the operand's row p.
-/
import Idealize.ShloMosaic.Lib.Pipeline.Value
import Idealize.ShloMosaic.Lib.ValueIdx

noncomputable section

namespace Cert.Lib

open Idealize.ShloMosaic Idealize.ShloMosaic.ValueIdx

variable {α : Type}

/-- A `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.Region6.lean ====
/-
  Region 6 of the kernel program: one graph-convolution layer's tail, tiled over the nodes.

  The 50000 nodes are cut into 25 blocks of 2000 consecutive rows. At grid point t the body is handed rows
  2000·t … 2000·t+1999 of the neighbours' aggregate, of the messages and of the residual ([2000,128] blocks at block
  index (t,0)), the same rows of the self-loop coefficient column ([2000,1] block at (t,0)), and the three parameter rows
  whole ([1,128], block index (0,0)). Entry (p,q) of what it writes depends on row p of those blocks only: the
  pre-activation row a[k] = agg[p,k] + m[p,k]·s[p,0] + cb[0,k], its mean over the 128 features, the mean of its squared
  deviations, the normalised, scaled and shifted entry clamped below at 0, plus the residual entry. Row p of block t
  is row 2000·t + p of the whole arrays, so the block written back is the block of ONE function of the whole arrays —
  the specification's `combine` —, and since every row r of the 50000 lies in the block of point r / 2000, the output
  array ends holding that function everywhere.
-/
import proofs.«107958_j12893491822680_1_alg».proof.Proof.Gen.KernelIdeal.Frame
import proofs.«107958_j12893491822680_1_alg».proof.Proof.Spec
import proofs.«107958_j12893491822680_1_alg».proof.Proof.LibAxisSums
import proofs.«107958_j12893491822680_1_alg».proof.Proof.LibColumnCast
import proofs.«107958_j12893491822680_1_alg».proof.Proof.LibColumnBroadcast
import proofs.«107958_j12893491822680_1_alg».proof.Proof.LibRowLayout
import Idealize.ShloMosaic.Lib.ValueIdx
import Idealize.ShloMosaic.Lib.Pipeline.Value
import Idealize.ShloMosaic.PureOps.Ideal
import Idealize.ShloMosaic.PureOps.Ideal.Laws

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)

/-! ## The body on one block -/

/-- A row's sum, laid out as a column entry: the lane reduction over the 128 features followed by the cast of the
    [2000] vector to a [2000,1] column reads, at (p, ·), the finite sum of row p. -/
theorem rowSumCol6_apply (v : FVec Ideal S2000x128 .f32) (h : S2000x128.Reduces [1] S2000) (hφ : FTy.f32 = FTy.f32 ∨ FTy.f32 = FTy.bf16)
    (hacc : (0x00000000#32 : BitVec 32) = 0x00000000#32) (hc : S2000.ShapeCasts S2000x1) (p : Fin 2000) (u : Fin 1) :
    shapeCast S2000x1 (multiReduction (F := Ideal) .add [1] S2000 v 0x00000000#32 h hφ hacc) hc (ix2 p u) = ∑ k : Fin 128, v (ix2 p k) :=
  (Cert.Lib.shapeCast_a_a1_apply _ hc p u).trans (Cert.Lib.rowSum_apply v _ h hφ hacc p)

/-- The reciprocal square root acts entry by entry. -/
theorem rsqrt6_apply (v : FVec Ideal S2000x1 .f32) (i : S2000x1.Idx) : rsqrt v i = Ideal.rsqrt (v i) := rfl

/-- THE BODY ON ONE BLOCK: what the kernel leaves at (p, q) of its 2000-row output block is the layer's tail computed
    from the 2000-row input blocks — row p of the aggregate, message and residual blocks, entry p of the coefficient
    block, and the three parameter rows. The two lane reductions are the two finite sums of the specification (the
    row's mean, then the mean of the squared deviations); everything else acts entry by entry. -/
theorem pay6_apply (x0 x1 : Vec Ideal S2000x128 .f32) (x2 : Vec Ideal S2000x1 .f32) (x3 x4 x5 : Vec Ideal S1x128 .f32)
    (x6 : Vec Ideal S2000x128 .f32) (p : Fin 2000) (q : Fin 128) :
    k6_pay1 (F := Ideal) (k6_pay2 (F := Ideal) x0 x1 x2 x3 x4 x5) x6 (ix2 p q) = Cert.Spec.combine x0 x1 x2 x3 x4 x5 x6 (ix2 p q) := by
  unfold k6_pay1 k6_pay2
  simp only [shapeCast_self]
  simp only [addf_apply, maximumf_apply, mulf_apply, subf_apply, divf_apply, broadcast_apply, rsqrt6_apply,
    Cert.Lib.broadcastTo_a1_ab_apply, Cert.Lib.rowBroadcast_apply]
  rw [rowSumCol6_apply, rowSumCol6_apply]
  simp only [addf_apply, mulf_apply, subf_apply, divf_apply, broadcast_apply,
    Cert.Lib.broadcastTo_a1_ab_apply, Cert.Lib.rowBroadcast_apply]
  rw [rowSumCol6_apply]
  simp only [addf_apply, mulf_apply, Cert.Lib.broadcastTo_a1_ab_apply, Cert.Lib.rowBroadcast_apply]
  rfl

/-! ## A block of rows of the whole arrays -/

/-- The layer's tail at an explicit entry (p, q). -/
theorem combine6_apply {N H : Nat} (agg m : Cert.Spec.Mat N H) (s : Cert.Spec.Mat N 1) (cb g b : Cert.Spec.Mat 1 H)
    (id : Cert.Spec.Mat N H) (p : Fin N) (q : Fin H) :
    Cert.Spec.combine agg m s cb g b id (ix2 p q)
      = max ((Cert.Spec.preact agg m s cb p q - Cert.Spec.mean128 (Cert.Spec.preact agg m s cb p))
            * Ideal.rsqrt (Cert.Spec.mean128 (fun k => (Cert.Spec.preact agg m s cb p k - Cert.Spec.mean128 (Cert.Spec.preact agg m s cb p))
                                            * (Cert.Spec.preact agg m s cb p k - Cert.Spec.mean128 (Cert.Spec.preact agg m s cb p)))
                            + Ideal.ofBits .f32 0x3727C5AC#32)
            * g (ix2 (0 : Fin 1) q) + b (ix2 (0 : Fin 1) q))
          (Ideal.ofBits .f32 0x00000000#32)
        + id (ix2 p q) := rfl

/-- The layer's tail only reads row p of its node-indexed operands: when the n-row operands are the rows r(0), r(1), …
    of N-row ones (and the parameter rows are the same), the tail at (p, q) of the former is the tail at (r p, q) of
    the latter. -/
theorem combine6_rows {N n H : Nat} (A0 A1 : Cert.Spec.Mat N H) (A2 : Cert.Spec.Mat N 1) (A3 A4 A5 : Cert.Spec.Mat 1 H)
    (A6 : Cert.Spec.Mat N H) (x0 x1 : Cert.Spec.Mat n H) (x2 : Cert.Spec.Mat n 1) (x3 x4 x5 : Cert.Spec.Mat 1 H)
    (x6 : Cert.Spec.Mat n H) (r : Fin n → Fin N)
    (h0 : ∀ (p : Fin n) (k : Fin H), x0 (ix2 p k) = A0 (ix2 (r p) k))
    (h1 : ∀ (p : Fin n) (k : Fin H), x1 (ix2 p k) = A1 (ix2 (r p) k))
    (h2 : ∀ (p : Fin n), x2 (ix2 p (0 : Fin 1)) = A2 (ix2 (r p) (0 : Fin 1)))
    (h3 : ∀ (k : Fin H), x3 (ix2 (0 : Fin 1) k) = A3 (ix2 (0 : Fin 1) k))
    (h4 : ∀ (k : Fin H), x4 (ix2 (0 : Fin 1) k) = A4 (ix2 (0 : Fin 1) k))
    (h5 : ∀ (k : Fin H), x5 (ix2 (0 : Fin 1) k) = A5 (ix2 (0 : Fin 1) k))
    (h6 : ∀ (p : Fin n) (k : Fin H), x6 (ix2 p k) = A6 (ix2 (r p) k))
    (p : Fin n) (q : Fin H) :
    Cert.Spec.combine x0 x1 x2 x3 x4 x5 x6 (ix2 p q) = Cert.Spec.combine A0 A1 A2 A3 A4 A5 A6 (ix2 (r p) q) := by
  rw [combine6_apply, combine6_apply]
  unfold Cert.Spec.preact
  simp only [h0, h1, h2, h3, h4, h5, h6]

/-! ## From the blocks to the array -/

theorem hz6 : (![0, 0] : Fin 2 → Nat) = fun _ => 0 := funext fun a => by fin_cases a <;> rfl

/-- The printed index maps, decided over the 25 grid points: the node-indexed windows sit at block (t, 0), the
    parameter rows at block (0, 0). -/
theorem idx_facts6 : ∀ t : Fin cfg6.N,
      win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = t.val ∧ win6_6.index t (1 : Fin 2) = 0
    ∧ win6_7.index t (0 : Fin 2) = t.val ∧ win6_7.index t (1 : Fin 2) = 0 :=
  (by decide +kernel : ∀ t : Fin grid6.N, _)

/-- Row p of block t is row 2000·t + p of the 50000. -/
def row6 (t : Fin cfg6.N) (p : Fin 2000) : Fin 50000 :=
  ⟨t.val * 2000 + p.val, by have ht : t.val < 25 := lt_of_lt_of_eq t.isLt N_6; have := p.isLt; omega⟩

variable (V : (c : Dev nD) → (b : Ref sig .tc) → Buf (Elt Ideal) ((c : Thread nD τ).loc b))

/-- WHAT POINT t WRITES BACK is block t of the layer's tail of the whole arrays as the region finds them. -/
theorem flushed6_eq (c : Dev nD) (t : Fin cfg6.N) :
    (dat6 (F := Ideal) V c).flushed 7 t = ((cfg6.win 7).blk t).view.read (Elt Ideal)
      (Cert.Spec.combine (V c main_v103) (V c main_v90) (V c main_v27) (V c main_v106) (V c main_v109) (V c main_v112) (V c main_v85) : S50000x128.Idx → EReal) := by
  show (cfg6.win 7).cut (grid6.coords t) ((dat6 (F := Ideal) V c).after 7 t) = _
  rw [after6_7]
  unfold out6_7
  rw [View.canon_unit_zero hz6]
  simp only [View.ld_unit_zero (S := S2000x128) hz6, View.ld_unit_zero (S := S2000x1) hz6, View.ld_unit_zero (S := S1x128) hz6]
  obtain ⟨e00, e01, e10, e11, e20, e21, e30, e31, e40, e41, e50, e51, e60, e61, e70, e71⟩ := idx_facts6 t
  funext j
  obtain ⟨p, q, rfl⟩ : ∃ (p : Fin 2000) (q : Fin 128), j = ix2 p q := ⟨j 0, j 1, eq_ix2 j⟩
  show k6_pay1 (F := Ideal) (k6_pay2 (F := Ideal) (iblk6 V c 0 t) (iblk6 V c 1 t) (iblk6 V c 2 t) (iblk6 V c 3 t) (iblk6 V c 4 t) (iblk6 V c 5 t)) (iblk6 V c 6 t) (ix2 p q)
    = (Cert.Spec.combine (V c main_v103) (V c main_v90) (V c main_v27) (V c main_v106) (V c main_v109) (V c main_v112) (V c main_v85) : S50000x128.Idx → EReal)
        (((cfg6.win 7).blk t).view.emb (ix2 p q))
  have hemb : ((cfg6.win 7).blk t).view.emb (ix2 p q) = (ix2 (row6 t p) q : S50000x128.Idx) := by
    funext a; apply Fin.ext
    match a with
    | ⟨0, _⟩ => show win6_7.index t (0 : Fin 2) * 2000 + 1 * p.val = t.val * 2000 + p.val; omega
    | ⟨1, _⟩ => show win6_7.index t (1 : Fin 2) * 128 + 1 * q.val = q.val; omega
  rw [hemb]
  have h0 : ∀ (p : Fin 2000) (k : Fin 128), (iblk6 V c 0 t : S2000x128.Idx → EReal) (ix2 p k) = (V c main_v103 : S50000x128.Idx → EReal) (ix2 (row6 t p) k) := by
    intro p k
    show (V c main_v103 : S50000x128.Idx → EReal) (((cfg6.win 0).blk t).view.emb (ix2 p k)) = _
    refine congrArg (V c main_v103 : S50000x128.Idx → EReal) (funext fun a => Fin.ext ?_)
    match a with
    | ⟨0, _⟩ => show win6_0.index t (0 : Fin 2) * 2000 + 1 * p.val = t.val * 2000 + p.val; omega
    | ⟨1, _⟩ => show win6_0.index t (1 : Fin 2) * 128 + 1 * k.val = k.val; omega
  have h1 : ∀ (p : Fin 2000) (k : Fin 128), (iblk6 V c 1 t : S2000x128.Idx → EReal) (ix2 p k) = (V c main_v90 : S50000x128.Idx → EReal) (ix2 (row6 t p) k) := by
    intro p k
    show (V c main_v90 : S50000x128.Idx → EReal) (((cfg6.win 1).blk t).view.emb (ix2 p k)) = _
    refine congrArg (V c main_v90 : S50000x128.Idx → EReal) (funext fun a => Fin.ext ?_)
    match a with
    | ⟨0, _⟩ => show win6_1.index t (0 : Fin 2) * 2000 + 1 * p.val = t.val * 2000 + p.val; omega
    | ⟨1, _⟩ => show win6_1.index t (1 : Fin 2) * 128 + 1 * k.val = k.val; omega
  have h2 : ∀ (p : Fin 2000), (iblk6 V c 2 t : S2000x1.Idx → EReal) (ix2 p (0 : Fin 1)) = (V c main_v27 : S50000x1.Idx → EReal) (ix2 (row6 t p) (0 : Fin 1)) := by
    intro p
    show (V c main_v27 : S50000x1.Idx → EReal) (((cfg6.win 2).blk t).view.emb (ix2 p (0 : Fin 1))) = _
    refine congrArg (V c main_v27 : S50000x1.Idx → EReal) (funext fun a => Fin.ext ?_)
    match a with
    | ⟨0, _⟩ => show win6_2.index t (0 : Fin 2) * 2000 + 1 * p.val = t.val * 2000 + p.val; omega
    | ⟨1, _⟩ => show win6_2.index t (1 : Fin 2) * 1 + 1 * 0 = 0; omega
  have h3 : ∀ (k : Fin 128), (iblk6 V c 3 t : S1x128.Idx → EReal) (ix2 (0 : Fin 1) k) = (V c main_v106 : S1x128.Idx → EReal) (ix2 (0 : Fin 1) k) := by
    intro k
    show (V c main_v106 : S1x128.Idx → EReal) (((cfg6.win 3).blk t).view.emb (ix2 (0 : Fin 1) k)) = _
    refine congrArg (V c main_v106 : S1x128.Idx → EReal) (funext fun a => Fin.ext ?_)
    match a with
    | ⟨0, _⟩ => show win6_3.index t (0 : Fin 2) * 1 + 1 * 0 = 0; omega
    | ⟨1, _⟩ => show win6_3.index t (1 : Fin 2) * 128 + 1 * k.val = k.val; omega
  have h4 : ∀ (k : Fin 128), (iblk6 V c 4 t : S1x128.Idx → EReal) (ix2 (0 : Fin 1) k) = (V c main_v109 : S1x128.Idx → EReal) (ix2 (0 : Fin 1) k) := by
    intro k
    show (V c main_v109 : S1x128.Idx → EReal) (((cfg6.win 4).blk t).view.emb (ix2 (0 : Fin 1) k)) = _
    refine congrArg (V c main_v109 : S1x128.Idx → EReal) (funext fun a => Fin.ext ?_)
    match a with
    | ⟨0, _⟩ => show win6_4.index t (0 : Fin 2) * 1 + 1 * 0 = 0; omega
    | ⟨1, _⟩ => show win6_4.index t (1 : Fin 2) * 128 + 1 * k.val = k.val; omega
  have h5 : ∀ (k : Fin 128), (iblk6 V c 5 t : S1x128.Idx → EReal) (ix2 (0 : Fin 1) k) = (V c main_v112 : S1x128.Idx → EReal) (ix2 (0 : Fin 1) k) := by
    intro k
    show (V c main_v112 : S1x128.Idx → EReal) (((cfg6.win 5).blk t).view.emb (ix2 (0 : Fin 1) k)) = _
    refine congrArg (V c main_v112 : S1x128.Idx → EReal) (funext fun a => Fin.ext ?_)
    match a with
    | ⟨0, _⟩ => show win6_5.index t (0 : Fin 2) * 1 + 1 * 0 = 0; omega
    | ⟨1, _⟩ => show win6_5.index t (1 : Fin 2) * 128 + 1 * k.val = k.val; omega
  have h6 : ∀ (p : Fin 2000) (k : Fin 128), (iblk6 V c 6 t : S2000x128.Idx → EReal) (ix2 p k) = (V c main_v85 : S50000x128.Idx → EReal) (ix2 (row6 t p) k) := by
    intro p k
    show (V c main_v85 : S50000x128.Idx → EReal) (((cfg6.win 6).blk t).view.emb (ix2 p k)) = _
    refine congrArg (V c main_v85 : S50000x128.Idx → EReal) (funext fun a => Fin.ext ?_)
    match a with
    | ⟨0, _⟩ => show win6_6.index t (0 : Fin 2) * 2000 + 1 * p.val = t.val * 2000 + p.val; omega
    | ⟨1, _⟩ => show win6_6.index t (1 : Fin 2) * 128 + 1 * k.val = k.val; omega
  refine (pay6_apply (iblk6 V c 0 t) (iblk6 V c 1 t) (iblk6 V c 2 t) (iblk6 V c 3 t) (iblk6 V c 4 t) (iblk6 V c 5 t) (iblk6 V c 6 t) p q).trans ?_
  exact combine6_rows (N := 50000) (n := 2000) (H := 128) (V c main_v103) (V c main_v90) (V c main_v27) (V c main_v106) (V c main_v109) (V c main_v112) (V c main_v85)
    (iblk6 V c 0 t) (iblk6 V c 1 t) (iblk6 V c 2 t) (iblk6 V c 3 t) (iblk6 V c 4 t) (iblk6 V c 5 t) (iblk6 V c 6 t)
    (row6 t) h0 h1 h2 h3 h4 h5 h6 p q

/-- An index of the array is in point t's block iff each coordinate is in the block's range on its axis. -/
theorem mem_blk6 (t : Fin cfg6.N) (i : S50000x128.Idx) :
    i ∈ ((cfg6.win 7).blk t).view.set ↔ ∀ a : Fin 2, win6_7.index t a * S2000x128.size a ≤ (i a).val ∧ (i a).val < win6_7.index t a * S2000x128.size a + S2000x128.size a := by
  show i ∈ ((View.whole main_v113).slice (win6_7.rect t)).set ↔ _
  rw [View.set_slice_whole, Rect.mem_set_unit]
  exact Iff.rfl

/-- THE BLOCKS TILE THE ARRAY: row r of the 50000 lies in the block of point r / 2000 (and every column in its one
    column block). -/
theorem cover6 (i : S50000x128.Idx) :
    ∃ t : Fin cfg6.N, (cfg6.win 7).flush t = true ∧ i ∈ ((cfg6.win 7).blk t).view.set := by
  have hi0 : (i 0).val < 50000 := (i 0).isLt
  have hi1 : (i 1).val < 128 := (i 1).isLt
  obtain ⟨t, ht⟩ : ∃ t : Fin cfg6.N, t.val = (i 0).val / 2000 :=
    ⟨⟨(i 0).val / 2000, lt_of_lt_of_eq (show (i 0).val / 2000 < 25 by omega) N_6.symm⟩, rfl⟩
  obtain ⟨-, -, -, -, -, -, -, -, -, -, -, -, -, -, e70, e71⟩ := idx_facts6 t
  refine ⟨t, flush6_7 t, ?_⟩
  rw [mem_blk6]
  intro a
  match a with
  | ⟨0, _⟩ => show win6_7.index t (0 : Fin 2) * 2000 ≤ (i 0).val ∧ (i 0).val < win6_7.index t (0 : Fin 2) * 2000 + 2000; omega
  | ⟨1, _⟩ => show win6_7.index t (1 : Fin 2) * 128 ≤ (i 1).val ∧ (i 1).val < win6_7.index t (1 : Fin 2) * 128 + 128; omega

/-- THE ARRAY AFTER THE REGION: the layer's tail of the arrays the region found, at every node and feature. -/
theorem region6 (c : Dev nD) :
    ((dat6 (F := Ideal) V c).arrAt 7 cfg6.N : S50000x128.Idx → EReal)
      = Cert.Spec.combine (V c main_v103) (V c main_v90) (V c main_v27) (V c main_v106) (V c main_v109) (V c main_v112) (V c main_v85) :=
  (dat6 (F := Ideal) V c).arrAt_eq_of_cover 7 (Cert.Spec.combine (V c main_v103) (V c main_v90) (V c main_v27) (V c main_v106) (V c main_v109) (V c main_v112) (V c main_v85) : S50000x128.Idx → EReal)
    (fun t _ => flushed6_eq V c t) cover6

end Cert.KernelIdeal.RegionValue

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.Region7.lean ====
/-
  The output dense layer (128 → 32), tiled over the node axis.

  Entry (r, q) of the stage's result depends on row r of the node array x [50000, 128], on column q of the weight matrix
  w [128, 32] and on entry (0, q) of the bias row b [1, 32]: it is (Σ_k x[r,k]·w[k,q]) + b[0,q].

  The stage visits 25 grid points. At point t it is handed rows 2000·t … 2000·t + 1999 of x (all 128 columns), the whole of
  w and the whole of b, and it writes rows 2000·t … 2000·t + 1999 of the result (all 32 columns). Inside a block, entry
  (p, q) is computed from row p of the x block, which is row 2000·t + p of x, so every block is the restriction of the one
  whole-array function to its rows. Since 25 · 2000 = 50000, row r lies in the block of point r / 2000: the blocks tile
  the result array, and the array after the stage is that function everywhere. The sum over k is a finite sum of extended
  reals, the same on both sides term by term; the tiling never splits it.
-/
import proofs.«107958_j12893491822680_1_alg».proof.Proof.Gen.KernelIdeal.Frame
import proofs.«107958_j12893491822680_1_alg».proof.Proof.Spec
import proofs.«107958_j12893491822680_1_alg».proof.Proof.LibPlainDot
import proofs.«107958_j12893491822680_1_alg».proof.Proof.LibRowLayout
import Idealize.ShloMosaic.Lib.ValueIdx
import Idealize.ShloMosaic.Lib.Pipeline.Value

noncomputable section

namespace Cert.KernelIdeal.RegionValue

open Cert.KernelIdeal Cert.KernelIdeal.Gen Idealize.ShloMosaic Idealize.ShloMosaic.TcCoe Idealize.ShloMosaic.ValueIdx Idealize.SL.Sem

/-- The offset (0, 0) of a block read or written whole. -/
theorem hz7 : (![0, 0] : Fin 2 → Nat) = fun _ => 0 := funext fun a => by fin_cases a <;> rfl

/-- One block's arithmetic at the entry (p, q): the product of row p of the row block with column q of the weights,
    summed over the 128 shared positions, plus the bias row's entry q. Changes of float format and re-layouts of a
    shape to itself do nothing over the extended reals. -/
theorem pay7_apply (x0 : Vec Ideal S2000x128 .f32) (x1 : Vec Ideal S128x32 .f32) (x2 : Vec Ideal S1x32 .f32)
    (p : Fin 2000) (q : Fin 32) :
    k7_pay1 (F := Ideal) x0 x1 x2 (ix2 p q)
      = (∑ k : Fin 128, x0 (ix2 p k) * x1 (ix2 k q)) + x2 (ix2 (0 : Fin 1) q) := by
  unfold k7_pay1
  rw [addf_apply, Cert.Lib.rowBroadcast_apply, shapeCast_self, shapeCast_self]
  refine congrArg₂ (· + ·) ?_ rfl
  exact Cert.Lib.matmul_zero_apply (M := 2000) (K := 128) (N := 32) dot_S2000x128_S128x32_S2000x32_1_0_0_1_n_n_wf none _ _ p q

/-- Where the blocks sit: at grid point t the row block and the result block are block t along the node axis and block 0
    along the feature axis; the weights and the bias row are block (0, 0), i.e. whole. Decided over the 25 points. -/
theorem blockIndex7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

variable (V : (c : Dev nD) → (b : Ref sig .tc) → Buf (Elt Ideal) ((c : Thread nD τ).loc b))

/-- What grid point t writes back is block t of the dense layer of the whole arrays: entry (p, q) of the block is computed
    from row p of the row block, which is row 2000·t + p of the whole array, and sits at row 2000·t + p of the result. -/
theorem flushed7_eq (c : Dev nD) (t : Fin cfg7.N) :
    (dat7 (F := Ideal) V c).flushed 3 t = ((cfg7.win 3).blk t).view.read (Elt Ideal)
      (Cert.Spec.lin (V c main_v113 : S50000x128.Idx → EReal) (V c main_arg8 : S128x32.Idx → EReal) (V c main_v114 : S1x32.Idx → EReal)) := by
  show (cfg7.win 3).cut (grid7.coords t) ((dat7 (F := Ideal) V c).after 3 t) = _
  rw [after7_3]
  unfold out7_3
  rw [View.canon_unit_zero hz7]
  simp only [View.ld_unit_zero (S := S2000x128) hz7, View.ld_unit_zero (S := S128x32) hz7, View.ld_unit_zero (S := S1x32) hz7]
  obtain ⟨e00, e01, e10, e11, e20, e21, e30, e31⟩ := blockIndex7 t
  refine funext fun (j : S2000x32.Idx) => ?_
  obtain ⟨p, q, rfl⟩ : ∃ (p : Fin 2000) (q : Fin 32), j = ix2 p q := ⟨j 0, j 1, eq_ix2 j⟩
  show k7_pay1 (F := Ideal) (iblk7 V c 0 t) (iblk7 V c 1 t) (iblk7 V c 2 t) (ix2 p q)
      = Cert.Spec.lin (V c main_v113 : S50000x128.Idx → EReal) (V c main_arg8 : S128x32.Idx → EReal) (V c main_v114 : S1x32.Idx → EReal)
          (((cfg7.win 3).blk t).view.emb (ix2 p q))
  refine (pay7_apply (iblk7 V c 0 t) (iblk7 V c 1 t) (iblk7 V c 2 t) p q).trans ?_
  unfold Cert.Spec.lin
  refine congrArg₂ (· + ·) (Finset.sum_congr rfl fun k _ => congrArg₂ (· * ·) ?_ ?_) ?_
  · show V c main_v113 (((cfg7.win 0).blk t).view.emb (ix2 p k)) = V c main_v113 (ix2 ((((cfg7.win 3).blk t).view.emb (ix2 p q)) 0) k)
    refine congrArg (V c main_v113) (funext fun a => Fin.ext ?_)
    match a with
    | ⟨0, _⟩ => show win7_0.index t (0 : Fin 2) * 2000 + 1 * p.val = win7_3.index t (0 : Fin 2) * 2000 + 1 * p.val; omega
    | ⟨1, _⟩ => show win7_0.index t (1 : Fin 2) * 128 + 1 * k.val = k.val; omega
  · show V c main_arg8 (((cfg7.win 1).blk t).view.emb (ix2 k q)) = V c main_arg8 (ix2 k ((((cfg7.win 3).blk t).view.emb (ix2 p q)) 1))
    refine congrArg (V c main_arg8) (funext fun a => Fin.ext ?_)
    match a with
    | ⟨0, _⟩ => show win7_1.index t (0 : Fin 2) * 128 + 1 * k.val = k.val; omega
    | ⟨1, _⟩ => show win7_1.index t (1 : Fin 2) * 32 + 1 * q.val = win7_3.index t (1 : Fin 2) * 32 + 1 * q.val; omega
  · show V c main_v114 (((cfg7.win 2).blk t).view.emb (ix2 (0 : Fin 1) q)) = V c main_v114 (ix2 (0 : Fin 1) ((((cfg7.win 3).blk t).view.emb (ix2 p q)) 1))
    refine congrArg (V c main_v114) (funext fun a => Fin.ext ?_)
    match a with
    | ⟨0, _⟩ => show win7_2.index t (0 : Fin 2) * 1 + 1 * 0 = 0; omega
    | ⟨1, _⟩ => show win7_2.index t (1 : Fin 2) * 32 + 1 * q.val = win7_3.index t (1 : Fin 2) * 32 + 1 * q.val; omega

/-- An index of the result array lies in point t's block iff each coordinate lies in the block's range on its axis. -/
theorem mem_blk7 (t : Fin cfg7.N) (i : S50000x32.Idx) :
    i ∈ ((cfg7.win 3).blk t).view.set ↔ ∀ a : Fin 2, win7_3.index t a * S2000x32.size a ≤ (i a).val ∧ (i a).val < win7_3.index t a * S2000x32.size a + S2000x32.size a := by
  show i ∈ ((View.whole main_v115).slice (win7_3.rect t)).set ↔ _
  rw [View.set_slice_whole, Rect.mem_set_unit]
  exact Iff.rfl

/-- The blocks tile the result: 25 · 2000 = 50000, so row r lies in the block of point r / 2000, and every block spans all
    32 columns. -/
theorem cover7 (i : S50000x32.Idx) :
    ∃ t : Fin cfg7.N, (cfg7.win 3).flush t = true ∧ i ∈ ((cfg7.win 3).blk t).view.set := by
  have hi0 : (i 0).val < 50000 := (i 0).isLt
  have hi1 : (i 1).val < 32 := (i 1).isLt
  have hN : cfg7.N = 25 := N_7
  let t : Fin cfg7.N := ⟨(i 0).val / 2000, by rw [hN]; omega⟩
  obtain ⟨-, -, -, -, -, -, e30, e31⟩ := blockIndex7 t
  have ht : t.val = (i 0).val / 2000 := rfl
  refine ⟨t, flush7_3 t, ?_⟩
  rw [mem_blk7]
  intro a
  match a with
  | ⟨0, _⟩ => show win7_3.index t (0 : Fin 2) * 2000 ≤ (i 0).val ∧ (i 0).val < win7_3.index t (0 : Fin 2) * 2000 + 2000; omega
  | ⟨1, _⟩ => show win7_3.index t (1 : Fin 2) * 32 ≤ (i 1).val ∧ (i 1).val < win7_3.index t (1 : Fin 2) * 32 + 32; omega

/-- The result array after the stage is the dense layer of the whole arrays as the stage found them. -/
theorem region7 (c : Dev nD) :
    ((dat7 (F := Ideal) V c).arrAt 3 cfg7.N : S50000x32.Idx → EReal)
      = Cert.Spec.lin (V c main_v113 : S50000x128.Idx → EReal) (V c main_arg8 : S128x32.Idx → EReal) (V c main_v114 : S1x32.Idx → EReal) :=
  (dat7 (F := Ideal) V c).arrAt_eq_of_cover 3 _ (fun t _ => flushed7_eq V c t) (cover7)

end Cert.KernelIdeal.RegionValue

end
-- ==== Proof.RefStages.lean ====
/-
  The reference program's dense stages, each compared with the shared index-by-index specification.

  The reference computes every stage on whole arrays: a product of the node features with a weight matrix, a bias row
  broadcast over the nodes, a clamp at zero, and, per layer, the normalisation of each node's 128-entry row by its own
  mean and variance. Read at one index (p,q), each of these is a finite sum or a pointwise expression in the entries of
  the stage's operands; the layout operations in between (slices of the stacked parameters, reshapes, broadcasts) only
  rename indices. The theorems below record that reading, stage by stage, as equalities of whole arrays with the
  functions of `Cert.Spec`. The neighbour aggregate (a scatter), and each stage's predecessor, stay opaque operands.
-/
import proofs.«107958_j12893491822680_1_alg».proof.Proof.RefReadP
import proofs.«107958_j12893491822680_1_alg».proof.Proof.Spec

noncomputable section

namespace Cert.ReferenceIdeal.RefValue

open Cert.ReferenceIdeal Cert.ReferenceIdeal.Read Idealize.ShloMosaic Idealize.ShloMosaic.ValueIdx

/-- The input layer: the dense product with the bias row, clamped below at zero. -/
theorem stage_h0 (x0 : (⟨S50000x256, .f32⟩ : BufTy).Contents (Elt Ideal)) (x2 : (⟨S256x128, .f32⟩ : BufTy).Contents (Elt Ideal)) (x3 : (⟨S128, .f32⟩ : BufTy).Contents (Elt Ideal)) :
    (val_main_v32 (F := Ideal) x0 x2 x3) = Cert.Spec.linRelu x0 x2 (Cert.Spec.row x3) := by
  funext i
  rw [val_main_v32_apply, val_main_v31_apply, val_main_v28_apply, val_main_v30_apply, val_main_v29_apply,
    val_main_call0_v0_apply, val_main_call0_cst_apply]
  have hl : ∀ k : Fin 256, lidx_main_v28 i k = ix2 (i 0) k := fun k =>
    funext fun a => Fin.ext (by match a with | ⟨0, _⟩ => rfl | ⟨1, _⟩ => rfl)
  have hr : ∀ k : Fin 256, ridx_main_v28 i k = ix2 k (i 1) := fun k =>
    funext fun a => Fin.ext (by match a with | ⟨0, _⟩ => rfl | ⟨1, _⟩ => rfl)
  have hb : idx_main_v29 (idx_main_v30 i) = ix1 (i 1) :=
    funext fun a => Fin.ext (by match a with | ⟨0, _⟩ => rfl)
  simp only [hl, hr, hb]
  rfl

/-- The layer's dense product: entry (p,q) of the product is the sum over k of x[p,k]·w[k,q], the dense layer with a
    zero bias row. -/
theorem stage_m1 (x0 : (⟨S50000x256, .f32⟩ : BufTy).Contents (Elt Ideal)) (x2 : (⟨S256x128, .f32⟩ : BufTy).Contents (Elt Ideal)) (x3 : (⟨S128, .f32⟩ : BufTy).Contents (Elt Ideal)) (x4 : (⟨S3x128x128, .f32⟩ : BufTy).Contents (Elt Ideal)) :
    (val_main_v35 (F := Ideal) x0 x2 x3 x4) = Cert.Spec.lin (val_main_v32 (F := Ideal) x0 x2 x3) (val_main_v34 (F := Ideal) x4) Cert.Spec.zeroRow := by
  funext i
  rw [val_main_v35_apply, Cert.Spec.lin_zeroRow]
  have hl : ∀ k : Fin 128, lidx_main_v35 i k = ix2 (i 0) k := fun k =>
    funext fun a => Fin.ext (by match a with | ⟨0, _⟩ => rfl | ⟨1, _⟩ => rfl)
  have hr : ∀ k : Fin 128, ridx_main_v35 i k = ix2 k (i 1) := fun k =>
    funext fun a => Fin.ext (by match a with | ⟨0, _⟩ => rfl | ⟨1, _⟩ => rfl)
  simp only [hl, hr]
  rfl

/-- The layer's dense product: entry (p,q) of the product is the sum over k of x[p,k]·w[k,q], the dense layer with a
    zero bias row. -/
theorem stage_m2 (x0 : (⟨S50000x256, .f32⟩ : BufTy).Contents (Elt Ideal)) (x1 : (⟨S2x800000, .i32⟩ : BufTy).Contents (Elt Ideal)) (x2 : (⟨S256x128, .f32⟩ : BufTy).Contents (Elt Ideal)) (x3 : (⟨S128, .f32⟩ : BufTy).Contents (Elt Ideal)) (x4 : (⟨S3x128x128, .f32⟩ : BufTy).Contents (Elt Ideal)) (x5 : (⟨S3x128, .f32⟩ : BufTy).Contents (Elt Ideal)) (x6 : (⟨S3x128, .f32⟩ : BufTy).Contents (Elt Ideal)) (x7 : (⟨S3x128, .f32⟩ : BufTy).Contents (Elt Ideal)) :
    (val_main_v89 (F := Ideal) x0 x1 x2 x3 x4 x5 x6 x7) = Cert.Spec.lin (val_main_v86 (F := Ideal) x0 x1 x2 x3 x4 x5 x6 x7) (val_main_v88 (F := Ideal) x4) Cert.Spec.zeroRow := by
  funext i
  rw [val_main_v89_apply, Cert.Spec.lin_zeroRow]
  have hl : ∀ k : Fin 128, lidx_main_v89 i k = ix2 (i 0) k := fun k =>
    funext fun a => Fin.ext (by match a with | ⟨0, _⟩ => rfl | ⟨1, _⟩ => rfl)
  have hr : ∀ k : Fin 128, ridx_main_v89 i k = ix2 k (i 1) := fun k =>
    funext fun a => Fin.ext (by match a with | ⟨0, _⟩ => rfl | ⟨1, _⟩ => rfl)
  simp only [hl, hr]
  rfl

/-- The layer's dense product: entry (p,q) of the product is the sum over k of x[p,k]·w[k,q], the dense layer with a
    zero bias row. -/
theorem stage_m3 (x0 : (⟨S50000x256, .f32⟩ : BufTy).Contents (Elt Ideal)) (x1 : (⟨S2x800000, .i32⟩ : BufTy).Contents (Elt Ideal)) (x2 : (⟨S256x128, .f32⟩ : BufTy).Contents (Elt Ideal)) (x3 : (⟨S128, .f32⟩ : BufTy).Contents (Elt Ideal)) (x4 : (⟨S3x128x128, .f32⟩ : BufTy).Contents (Elt Ideal)) (x5 : (⟨S3x128, .f32⟩ : BufTy).Contents (Elt Ideal)) (x6 : (⟨S3x128, .f32⟩ : BufTy).Contents (Elt Ideal)) (x7 : (⟨S3x128, .f32⟩ : BufTy).Contents (Elt Ideal)) :
    (val_main_v143 (F := Ideal) x0 x1 x2 x3 x4 x5 x6 x7) = Cert.Spec.lin (val_main_v140 (F := Ideal) x0 x1 x2 x3 x4 x5 x6 x7) (val_main_v142 (F := Ideal) x4) Cert.Spec.zeroRow := by
  funext i
  rw [val_main_v143_apply, Cert.Spec.lin_zeroRow]
  have hl : ∀ k : Fin 128, lidx_main_v143 i k = ix2 (i 0) k := fun k =>
    funext fun a => Fin.ext (by match a with | ⟨0, _⟩ => rfl | ⟨1, _⟩ => rfl)
  have hr : ∀ k : Fin 128, ridx_main_v143 i k = ix2 k (i 1) := fun k =>
    funext fun a => Fin.ext (by match a with | ⟨0, _⟩ => rfl | ⟨1, _⟩ => rfl)
  simp only [hl, hr]
  rfl

/-- The output layer: the dense product with the bias row. -/
theorem stage_out (x0 : (⟨S50000x256, .f32⟩ : BufTy).Contents (Elt Ideal)) (x1 : (⟨S2x800000, .i32⟩ : BufTy).Contents (Elt Ideal)) (x2 : (⟨S256x128, .f32⟩ : BufTy).Contents (Elt Ideal)) (x3 : (⟨S128, .f32⟩ : BufTy).Contents (Elt Ideal)) (x4 : (⟨S3x128x128, .f32⟩ : BufTy).Contents (Elt Ideal)) (x5 : (⟨S3x128, .f32⟩ : BufTy).Contents (Elt Ideal)) (x6 : (⟨S3x128, .f32⟩ : BufTy).Contents (Elt Ideal)) (x7 : (⟨S3x128, .f32⟩ : BufTy).Contents (Elt Ideal)) (x8 : (⟨S128x32, .f32⟩ : BufTy).Contents (Elt Ideal)) (x9 : (⟨S32, .f32⟩ : BufTy).Contents (Elt Ideal)) :
    (val_main_v198 (F := Ideal) x0 x1 x2 x3 x4 x5 x6 x7 x8 x9) = Cert.Spec.lin (val_main_v194 (F := Ideal) x0 x1 x2 x3 x4 x5 x6 x7) x8 (Cert.Spec.row x9) := by
  funext i
  rw [val_main_v198_apply, val_main_v195_apply, val_main_v197_apply, val_main_v196_apply]
  have hl : ∀ k : Fin 128, lidx_main_v195 i k = ix2 (i 0) k := fun k =>
    funext fun a => Fin.ext (by match a with | ⟨0, _⟩ => rfl | ⟨1, _⟩ => rfl)
  have hr : ∀ k : Fin 128, ridx_main_v195 i k = ix2 k (i 1) := fun k =>
    funext fun a => Fin.ext (by match a with | ⟨0, _⟩ => rfl | ⟨1, _⟩ => rfl)
  have hb : idx_main_v196 (idx_main_v197 i) = ix1 (i 1) :=
    funext fun a => Fin.ext (by match a with | ⟨0, _⟩ => rfl)
  simp only [hl, hr, hb]
  rfl

end Cert.ReferenceIdeal.RefValue

end
-- ==== Proof.RefStagesH3.lean ====
/-
  The reference program's layer 3 tail (the node's own message weighted by its self-loop coefficient, the bias, the
  normalisation of each node's 128-entry row by its own mean and variance, the scale and shift, the clamp at zero and
  the residual), compared with the shared index-by-index specification `Cert.Spec.combine`.

  Every operation of this tail is pointwise in the node index p, except the two row sums, which run over the 128
  features of the same node; the broadcasts and the slices of the stacked parameters only rename indices. So the value
  at (p,q) is an expression in row p of the aggregate and of the layer's product, entry p of the self-loop coefficients,
  row 2 of each stacked parameter, and entry (p,q) of the residual — the expression `Cert.Spec.combine` names.
-/
import proofs.«107958_j12893491822680_1_alg».proof.Proof.RefReadP
import proofs.«107958_j12893491822680_1_alg».proof.Proof.Spec

noncomputable section

namespace Cert.ReferenceIdeal.RefValue

open Cert.ReferenceIdeal Cert.ReferenceIdeal.Read Idealize.ShloMosaic Idealize.ShloMosaic.ValueIdx

/-- One graph-convolution layer's tail, read index by index: the pre-activation row (aggregate, self-loop term, bias),
    its mean and variance over the 128 features, the normalised, scaled and shifted entry, the clamp at zero and the
    residual. The aggregate, the layer's product, the self-loop coefficients and the residual are opaque arrays: each
    step ends by naming them as variables, so that the two sides are compared as expressions in those variables only. -/
theorem stage_h3 (x0 : (⟨S50000x256, .f32⟩ : BufTy).Contents (Elt Ideal)) (x1 : (⟨S2x800000, .i32⟩ : BufTy).Contents (Elt Ideal)) (x2 : (⟨S256x128, .f32⟩ : BufTy).Contents (Elt Ideal)) (x3 : (⟨S128, .f32⟩ : BufTy).Contents (Elt Ideal)) (x4 : (⟨S3x128x128, .f32⟩ : BufTy).Contents (Elt Ideal)) (x5 : (⟨S3x128, .f32⟩ : BufTy).Contents (Elt Ideal)) (x6 : (⟨S3x128, .f32⟩ : BufTy).Contents (Elt Ideal)) (x7 : (⟨S3x128, .f32⟩ : BufTy).Contents (Elt Ideal)) :
    (val_main_v194 (F := Ideal) x0 x1 x2 x3 x4 x5 x6 x7)
      = Cert.Spec.combine (val_main_v156 (F := Ideal) x0 x1 x2 x3 x4 x5 x6 x7) (val_main_v143 (F := Ideal) x0 x1 x2 x3 x4 x5 x6 x7) (Cert.Spec.col (val_main_v26 (F := Ideal) x1)) (Cert.Spec.layerRow x5 2) (Cert.Spec.layerRow x6 2) (Cert.Spec.layerRow x7 2) (val_main_v140 (F := Ideal) x0 x1 x2 x3 x4 x5 x6 x7) := by
  -- the pre-activation entry
  have hpre : ∀ j : S50000x128.Idx, (val_main_v164 (F := Ideal) x0 x1 x2 x3 x4 x5 x6 x7) j = Cert.Spec.preact (val_main_v156 (F := Ideal) x0 x1 x2 x3 x4 x5 x6 x7) (val_main_v143 (F := Ideal) x0 x1 x2 x3 x4 x5 x6 x7) (Cert.Spec.col (val_main_v26 (F := Ideal) x1)) (Cert.Spec.layerRow x5 2) (j 0) (j 1) := by
    intro j
    obtain ⟨p, q, rfl⟩ : ∃ p q, j = ix2 p q := ⟨j 0, j 1, eq_ix2 j⟩
    rw [val_main_v164_apply, val_main_v159_apply, val_main_v158_apply, val_main_v157_apply, val_main_v27_apply, val_main_v163_apply, val_main_v162_apply, val_main_v161_apply, val_main_v160_apply]
    have e1 : idx_main_v27 (idx_main_v157 (ix2 p q)) = ix1 p :=
      funext fun a => Fin.ext (by match a with | ⟨0, _⟩ => rfl)
    have e2 : idx_main_v160 (idx_main_v161 (idx_main_v162 (idx_main_v163 (ix2 p q)))) = ix2 (2 : Fin 3) q :=
      funext fun a => Fin.ext (by
      match a with
      | ⟨0, _⟩ => rfl
      | ⟨1, _⟩ => exact Nat.mod_eq_of_lt q.isLt)
    rw [e1, e2]
    generalize (val_main_v156 (F := Ideal) x0 x1 x2 x3 x4 x5 x6 x7) = A
    generalize (val_main_v143 (F := Ideal) x0 x1 x2 x3 x4 x5 x6 x7) = M
    generalize (val_main_v26 (F := Ideal) x1) = D
    rfl
  -- the mean of the row
  have hmean : ∀ j : S50000x1.Idx, (val_main_v172 (F := Ideal) x0 x1 x2 x3 x4 x5 x6 x7) j = Cert.Spec.mean128 (Cert.Spec.preact (val_main_v156 (F := Ideal) x0 x1 x2 x3 x4 x5 x6 x7) (val_main_v143 (F := Ideal) x0 x1 x2 x3 x4 x5 x6 x7) (Cert.Spec.col (val_main_v26 (F := Ideal) x1)) (Cert.Spec.layerRow x5 2) (j 0)) := by
    intro j
    rw [val_main_v172_apply, val_main_v170_apply, val_main_v169_apply, val_main_v171_apply, val_main_cst_25_apply, val_main_cst_24_apply]
    simp only [hpre, Ideal.ofBits_def, Ideal.ofBits_zero_f32, zero_add, Ideal.hostDivf_def]
    generalize (val_main_v156 (F := Ideal) x0 x1 x2 x3 x4 x5 x6 x7) = A
    generalize (val_main_v143 (F := Ideal) x0 x1 x2 x3 x4 x5 x6 x7) = M
    generalize (val_main_v26 (F := Ideal) x1) = D
    rfl
  -- the centred entry
  have hcen : ∀ j : S50000x128.Idx, (val_main_v174 (F := Ideal) x0 x1 x2 x3 x4 x5 x6 x7) j = Cert.Spec.preact (val_main_v156 (F := Ideal) x0 x1 x2 x3 x4 x5 x6 x7) (val_main_v143 (F := Ideal) x0 x1 x2 x3 x4 x5 x6 x7) (Cert.Spec.col (val_main_v26 (F := Ideal) x1)) (Cert.Spec.layerRow x5 2) (j 0) (j 1) - Cert.Spec.mean128 (Cert.Spec.preact (val_main_v156 (F := Ideal) x0 x1 x2 x3 x4 x5 x6 x7) (val_main_v143 (F := Ideal) x0 x1 x2 x3 x4 x5 x6 x7) (Cert.Spec.col (val_main_v26 (F := Ideal) x1)) (Cert.Spec.layerRow x5 2) (j 0)) := by
    intro j
    rw [val_main_v174_apply, val_main_v173_apply, hpre, hmean]
    generalize (val_main_v156 (F := Ideal) x0 x1 x2 x3 x4 x5 x6 x7) = A
    generalize (val_main_v143 (F := Ideal) x0 x1 x2 x3 x4 x5 x6 x7) = M
    generalize (val_main_v26 (F := Ideal) x1) = D
    rfl
  -- the squared centred entry
  have hsq : ∀ j : S50000x128.Idx, (val_main_v175 (F := Ideal) x0 x1 x2 x3 x4 x5 x6 x7) j
      = (Cert.Spec.preact (val_main_v156 (F := Ideal) x0 x1 x2 x3 x4 x5 x6 x7) (val_main_v143 (F := Ideal) x0 x1 x2 x3 x4 x5 x6 x7) (Cert.Spec.col (val_main_v26 (F := Ideal) x1)) (Cert.Spec.layerRow x5 2) (j 0) (j 1) - Cert.Spec.mean128 (Cert.Spec.preact (val_main_v156 (F := Ideal) x0 x1 x2 x3 x4 x5 x6 x7) (val_main_v143 (F := Ideal) x0 x1 x2 x3 x4 x5 x6 x7) (Cert.Spec.col (val_main_v26 (F := Ideal) x1)) (Cert.Spec.layerRow x5 2) (j 0)))
          * (Cert.Spec.preact (val_main_v156 (F := Ideal) x0 x1 x2 x3 x4 x5 x6 x7) (val_main_v143 (F := Ideal) x0 x1 x2 x3 x4 x5 x6 x7) (Cert.Spec.col (val_main_v26 (F := Ideal) x1)) (Cert.Spec.layerRow x5 2) (j 0) (j 1) - Cert.Spec.mean128 (Cert.Spec.preact (val_main_v156 (F := Ideal) x0 x1 x2 x3 x4 x5 x6 x7) (val_main_v143 (F := Ideal) x0 x1 x2 x3 x4 x5 x6 x7) (Cert.Spec.col (val_main_v26 (F := Ideal) x1)) (Cert.Spec.layerRow x5 2) (j 0))) := by
    intro j
    rw [val_main_v175_apply, hcen]
    generalize (val_main_v156 (F := Ideal) x0 x1 x2 x3 x4 x5 x6 x7) = A
    generalize (val_main_v143 (F := Ideal) x0 x1 x2 x3 x4 x5 x6 x7) = M
    generalize (val_main_v26 (F := Ideal) x1) = D
    rfl
  -- the variance of the row
  have hvar : ∀ j : S50000x1.Idx, (val_main_v179 (F := Ideal) x0 x1 x2 x3 x4 x5 x6 x7) j
      = Cert.Spec.mean128 (fun k => (Cert.Spec.preact (val_main_v156 (F := Ideal) x0 x1 x2 x3 x4 x5 x6 x7) (val_main_v143 (F := Ideal) x0 x1 x2 x3 x4 x5 x6 x7) (Cert.Spec.col (val_main_v26 (F := Ideal) x1)) (Cert.Spec.layerRow x5 2) (j 0) k - Cert.Spec.mean128 (Cert.Spec.preact (val_main_v156 (F := Ideal) x0 x1 x2 x3 x4 x5 x6 x7) (val_main_v143 (F := Ideal) x0 x1 x2 x3 x4 x5 x6 x7) (Cert.Spec.col (val_main_v26 (F := Ideal) x1)) (Cert.Spec.layerRow x5 2) (j 0)))
          * (Cert.Spec.preact (val_main_v156 (F := Ideal) x0 x1 x2 x3 x4 x5 x6 x7) (val_main_v143 (F := Ideal) x0 x1 x2 x3 x4 x5 x6 x7) (Cert.Spec.col (val_main_v26 (F := Ideal) x1)) (Cert.Spec.layerRow x5 2) (j 0) k - Cert.Spec.mean128 (Cert.Spec.preact (val_main_v156 (F := Ideal) x0 x1 x2 x3 x4 x5 x6 x7) (val_main_v143 (F := Ideal) x0 x1 x2 x3 x4 x5 x6 x7) (Cert.Spec.col (val_main_v26 (F := Ideal) x1)) (Cert.Spec.layerRow x5 2) (j 0)))) := by
    intro j
    rw [val_main_v179_apply, val_main_v177_apply, val_main_v176_apply, val_main_v178_apply, val_main_cst_27_apply, val_main_cst_26_apply]
    simp only [hsq, Ideal.ofBits_def, Ideal.ofBits_zero_f32, zero_add, Ideal.hostDivf_def]
    generalize (val_main_v156 (F := Ideal) x0 x1 x2 x3 x4 x5 x6 x7) = A
    generalize (val_main_v143 (F := Ideal) x0 x1 x2 x3 x4 x5 x6 x7) = M
    generalize (val_main_v26 (F := Ideal) x1) = D
    rfl
  funext i
  rw [val_main_v194_apply, val_main_v193_apply, val_main_v192_apply, val_main_v189_apply, val_main_v186_apply, val_main_v181_apply, val_main_v180_apply, val_main_v185_apply, val_main_v184_apply, val_main_v183_apply, val_main_v182_apply, val_main_cst_28_apply, val_main_v188_apply, val_main_v187_apply, val_main_v166_apply, val_main_v165_apply, val_main_v191_apply, val_main_v190_apply, val_main_v168_apply, val_main_v167_apply,
    val_main_call3_v0_apply, val_main_call3_cst_apply, hpre, hmean, hvar]
  have eg : idx_main_v165 (idx_main_v166 (idx_main_v187 (idx_main_v188 i))) = ix2 (2 : Fin 3) (i 1) :=
    funext fun a => Fin.ext (by
      match a with
      | ⟨0, _⟩ => rfl
      | ⟨1, _⟩ => exact Nat.mod_eq_of_lt (i 1).isLt)
  have eb : idx_main_v167 (idx_main_v168 (idx_main_v190 (idx_main_v191 i))) = ix2 (2 : Fin 3) (i 1) :=
    funext fun a => Fin.ext (by
      match a with
      | ⟨0, _⟩ => rfl
      | ⟨1, _⟩ => exact Nat.mod_eq_of_lt (i 1).isLt)
  rw [eg, eb]
  generalize (val_main_v156 (F := Ideal) x0 x1 x2 x3 x4 x5 x6 x7) = A
  generalize (val_main_v143 (F := Ideal) x0 x1 x2 x3 x4 x5 x6 x7) = M
  generalize (val_main_v26 (F := Ideal) x1) = D
  generalize (val_main_v140 (F := Ideal) x0 x1 x2 x3 x4 x5 x6 x7) = R
  rfl

end Cert.ReferenceIdeal.RefValue

end
-- ==== Proof.Region4.lean ====
/-
  Region 4 of the kernel program: one graph-convolution layer's tail, tiled over the nodes.

  The 50000 nodes are cut into 25 blocks of 2000 consecutive rows. At grid point t the body is handed rows
  2000·t … 2000·t+1999 of the neighbours' aggregate, of the messages and of the residual ([2000,128] blocks at block
  index (t,0)), the same rows of the self-loop coefficient column ([2000,1] block at (t,0)), and the three parameter rows
  whole ([1,128], block index (0,0)). Entry (p,q) of what it writes depends on row p of those blocks only: the
  pre-activation row a[k] = agg[p,k] + m[p,k]·s[p,0] + cb[0,k], its mean over the 128 features, the mean of its squared
  deviations, the normalised, scaled and shifted entry clamped below at 0, plus the residual entry. Row p of block t
  is row 2000·t + p of the whole arrays, so the block written back is the block of ONE function of the whole arrays —
  the specification's `combine` —, and since every row r of the 50000 lies in the block of point r / 2000, the output
  array ends holding that function everywhere.
-/
import proofs.«107958_j12893491822680_1_alg».proof.Proof.Gen.KernelIdeal.Frame
import proofs.«107958_j12893491822680_1_alg».proof.Proof.Spec
import proofs.«107958_j12893491822680_1_alg».proof.Proof.LibAxisSums
import proofs.«107958_j12893491822680_1_alg».proof.Proof.LibColumnCast
import proofs.«107958_j12893491822680_1_alg».proof.Proof.LibColumnBroadcast
import proofs.«107958_j12893491822680_1_alg».proof.Proof.LibRowLayout
import Idealize.ShloMosaic.Lib.ValueIdx
import Idealize.ShloMosaic.Lib.Pipeline.Value
import Idealize.ShloMosaic.PureOps.Ideal
import Idealize.ShloMosaic.PureOps.Ideal.Laws

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)

/-! ## The body on one block -/

/-- A row's sum, laid out as a column entry: the lane reduction over the 128 features followed by the cast of the
    [2000] vector to a [2000,1] column reads, at (p, ·), the finite sum of row p. -/
theorem rowSumCol4_apply (v : FVec Ideal S2000x128 .f32) (h : S2000x128.Reduces [1] S2000) (hφ : FTy.f32 = FTy.f32 ∨ FTy.f32 = FTy.bf16)
    (hacc : (0x00000000#32 : BitVec 32) = 0x00000000#32) (hc : S2000.ShapeCasts S2000x1) (p : Fin 2000) (u : Fin 1) :
    shapeCast S2000x1 (multiReduction (F := Ideal) .add [1] S2000 v 0x00000000#32 h hφ hacc) hc (ix2 p u) = ∑ k : Fin 128, v (ix2 p k) :=
  (Cert.Lib.shapeCast_a_a1_apply _ hc p u).trans (Cert.Lib.rowSum_apply v _ h hφ hacc p)

/-- The reciprocal square root acts entry by entry. -/
theorem rsqrt4_apply (v : FVec Ideal S2000x1 .f32) (i : S2000x1.Idx) : rsqrt v i = Ideal.rsqrt (v i) := rfl

/-- THE BODY ON ONE BLOCK: what the kernel leaves at (p, q) of its 2000-row output block is the layer's tail computed
    from the 2000-row input blocks — row p of the aggregate, message and residual blocks, entry p of the coefficient
    block, and the three parameter rows. The two lane reductions are the two finite sums of the specification (the
    row's mean, then the mean of the squared deviations); everything else acts entry by entry. -/
theorem pay4_apply (x0 x1 : Vec Ideal S2000x128 .f32) (x2 : Vec Ideal S2000x1 .f32) (x3 x4 x5 : Vec Ideal S1x128 .f32)
    (x6 : Vec Ideal S2000x128 .f32) (p : Fin 2000) (q : Fin 128) :
    k4_pay1 (F := Ideal) (k4_pay2 (F := Ideal) x0 x1 x2 x3 x4 x5) x6 (ix2 p q) = Cert.Spec.combine x0 x1 x2 x3 x4 x5 x6 (ix2 p q) := by
  unfold k4_pay1 k4_pay2
  simp only [shapeCast_self]
  simp only [addf_apply, maximumf_apply, mulf_apply, subf_apply, divf_apply, broadcast_apply, rsqrt4_apply,
    Cert.Lib.broadcastTo_a1_ab_apply, Cert.Lib.rowBroadcast_apply]
  rw [rowSumCol4_apply, rowSumCol4_apply]
  simp only [addf_apply, mulf_apply, subf_apply, divf_apply, broadcast_apply,
    Cert.Lib.broadcastTo_a1_ab_apply, Cert.Lib.rowBroadcast_apply]
  rw [rowSumCol4_apply]
  simp only [addf_apply, mulf_apply, Cert.Lib.broadcastTo_a1_ab_apply, Cert.Lib.rowBroadcast_apply]
  rfl

/-! ## A block of rows of the whole arrays -/

/-- The layer's tail at an explicit entry (p, q). -/
theorem combine4_apply {N H : Nat} (agg m : Cert.Spec.Mat N H) (s : Cert.Spec.Mat N 1) (cb g b : Cert.Spec.Mat 1 H)
    (id : Cert.Spec.Mat N H) (p : Fin N) (q : Fin H) :
    Cert.Spec.combine agg m s cb g b id (ix2 p q)
      = max ((Cert.Spec.preact agg m s cb p q - Cert.Spec.mean128 (Cert.Spec.preact agg m s cb p))
            * Ideal.rsqrt (Cert.Spec.mean128 (fun k => (Cert.Spec.preact agg m s cb p k - Cert.Spec.mean128 (Cert.Spec.preact agg m s cb p))
                                            * (Cert.Spec.preact agg m s cb p k - Cert.Spec.mean128 (Cert.Spec.preact agg m s cb p)))
                            + Ideal.ofBits .f32 0x3727C5AC#32)
            * g (ix2 (0 : Fin 1) q) + b (ix2 (0 : Fin 1) q))
          (Ideal.ofBits .f32 0x00000000#32)
        + id (ix2 p q) := rfl

/-- The layer's tail only reads row p of its node-indexed operands: when the n-row operands are the rows r(0), r(1), …
    of N-row ones (and the parameter rows are the same), the tail at (p, q) of the former is the tail at (r p, q) of
    the latter. -/
theorem combine4_rows {N n H : Nat} (A0 A1 : Cert.Spec.Mat N H) (A2 : Cert.Spec.Mat N 1) (A3 A4 A5 : Cert.Spec.Mat 1 H)
    (A6 : Cert.Spec.Mat N H) (x0 x1 : Cert.Spec.Mat n H) (x2 : Cert.Spec.Mat n 1) (x3 x4 x5 : Cert.Spec.Mat 1 H)
    (x6 : Cert.Spec.Mat n H) (r : Fin n → Fin N)
    (h0 : ∀ (p : Fin n) (k : Fin H), x0 (ix2 p k) = A0 (ix2 (r p) k))
    (h1 : ∀ (p : Fin n) (k : Fin H), x1 (ix2 p k) = A1 (ix2 (r p) k))
    (h2 : ∀ (p : Fin n), x2 (ix2 p (0 : Fin 1)) = A2 (ix2 (r p) (0 : Fin 1)))
    (h3 : ∀ (k : Fin H), x3 (ix2 (0 : Fin 1) k) = A3 (ix2 (0 : Fin 1) k))
    (h4 : ∀ (k : Fin H), x4 (ix2 (0 : Fin 1) k) = A4 (ix2 (0 : Fin 1) k))
    (h5 : ∀ (k : Fin H), x5 (ix2 (0 : Fin 1) k) = A5 (ix2 (0 : Fin 1) k))
    (h6 : ∀ (p : Fin n) (k : Fin H), x6 (ix2 p k) = A6 (ix2 (r p) k))
    (p : Fin n) (q : Fin H) :
    Cert.Spec.combine x0 x1 x2 x3 x4 x5 x6 (ix2 p q) = Cert.Spec.combine A0 A1 A2 A3 A4 A5 A6 (ix2 (r p) q) := by
  rw [combine4_apply, combine4_apply]
  unfold Cert.Spec.preact
  simp only [h0, h1, h2, h3, h4, h5, h6]

/-! ## From the blocks to the array -/

theorem hz4 : (![0, 0] : Fin 2 → Nat) = fun _ => 0 := funext fun a => by fin_cases a <;> rfl

/-- The printed index maps, decided over the 25 grid points: the node-indexed windows sit at block (t, 0), the
    parameter rows at block (0, 0). -/
theorem idx_facts4 : ∀ t : Fin cfg4.N,
      win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0
    ∧ win4_7.index t (0 : Fin 2) = t.val ∧ win4_7.index t (1 : Fin 2) = 0 :=
  (by decide +kernel : ∀ t : Fin grid4.N, _)

/-- Row p of block t is row 2000·t + p of the 50000. -/
def row4 (t : Fin cfg4.N) (p : Fin 2000) : Fin 50000 :=
  ⟨t.val * 2000 + p.val, by have ht : t.val < 25 := lt_of_lt_of_eq t.isLt N_4; have := p.isLt; omega⟩

variable (V : (c : Dev nD) → (b : Ref sig .tc) → Buf (Elt Ideal) ((c : Thread nD τ).loc b))

/-- WHAT POINT t WRITES BACK is block t of the layer's tail of the whole arrays as the region finds them. -/
theorem flushed4_eq (c : Dev nD) (t : Fin cfg4.N) :
    (dat4 (F := Ideal) V c).flushed 7 t = ((cfg4.win 7).blk t).view.read (Elt Ideal)
      (Cert.Spec.combine (V c main_v75) (V c main_v62) (V c main_v27) (V c main_v78) (V c main_v81) (V c main_v84) (V c main_v57) : S50000x128.Idx → EReal) := by
  show (cfg4.win 7).cut (grid4.coords t) ((dat4 (F := Ideal) V c).after 7 t) = _
  rw [after4_7]
  unfold out4_7
  rw [View.canon_unit_zero hz4]
  simp only [View.ld_unit_zero (S := S2000x128) hz4, View.ld_unit_zero (S := S2000x1) hz4, View.ld_unit_zero (S := S1x128) hz4]
  obtain ⟨e00, e01, e10, e11, e20, e21, e30, e31, e40, e41, e50, e51, e60, e61, e70, e71⟩ := idx_facts4 t
  funext j
  obtain ⟨p, q, rfl⟩ : ∃ (p : Fin 2000) (q : Fin 128), j = ix2 p q := ⟨j 0, j 1, eq_ix2 j⟩
  show k4_pay1 (F := Ideal) (k4_pay2 (F := Ideal) (iblk4 V c 0 t) (iblk4 V c 1 t) (iblk4 V c 2 t) (iblk4 V c 3 t) (iblk4 V c 4 t) (iblk4 V c 5 t)) (iblk4 V c 6 t) (ix2 p q)
    = (Cert.Spec.combine (V c main_v75) (V c main_v62) (V c main_v27) (V c main_v78) (V c main_v81) (V c main_v84) (V c main_v57) : S50000x128.Idx → EReal)
        (((cfg4.win 7).blk t).view.emb (ix2 p q))
  have hemb : ((cfg4.win 7).blk t).view.emb (ix2 p q) = (ix2 (row4 t p) q : S50000x128.Idx) := by
    funext a; apply Fin.ext
    match a with
    | ⟨0, _⟩ => show win4_7.index t (0 : Fin 2) * 2000 + 1 * p.val = t.val * 2000 + p.val; omega
    | ⟨1, _⟩ => show win4_7.index t (1 : Fin 2) * 128 + 1 * q.val = q.val; omega
  rw [hemb]
  have h0 : ∀ (p : Fin 2000) (k : Fin 128), (iblk4 V c 0 t : S2000x128.Idx → EReal) (ix2 p k) = (V c main_v75 : S50000x128.Idx → EReal) (ix2 (row4 t p) k) := by
    intro p k
    show (V c main_v75 : S50000x128.Idx → EReal) (((cfg4.win 0).blk t).view.emb (ix2 p k)) = _
    refine congrArg (V c main_v75 : S50000x128.Idx → EReal) (funext fun a => Fin.ext ?_)
    match a with
    | ⟨0, _⟩ => show win4_0.index t (0 : Fin 2) * 2000 + 1 * p.val = t.val * 2000 + p.val; omega
    | ⟨1, _⟩ => show win4_0.index t (1 : Fin 2) * 128 + 1 * k.val = k.val; omega
  have h1 : ∀ (p : Fin 2000) (k : Fin 128), (iblk4 V c 1 t : S2000x128.Idx → EReal) (ix2 p k) = (V c main_v62 : S50000x128.Idx → EReal) (ix2 (row4 t p) k) := by
    intro p k
    show (V c main_v62 : S50000x128.Idx → EReal) (((cfg4.win 1).blk t).view.emb (ix2 p k)) = _
    refine congrArg (V c main_v62 : S50000x128.Idx → EReal) (funext fun a => Fin.ext ?_)
    match a with
    | ⟨0, _⟩ => show win4_1.index t (0 : Fin 2) * 2000 + 1 * p.val = t.val * 2000 + p.val; omega
    | ⟨1, _⟩ => show win4_1.index t (1 : Fin 2) * 128 + 1 * k.val = k.val; omega
  have h2 : ∀ (p : Fin 2000), (iblk4 V c 2 t : S2000x1.Idx → EReal) (ix2 p (0 : Fin 1)) = (V c main_v27 : S50000x1.Idx → EReal) (ix2 (row4 t p) (0 : Fin 1)) := by
    intro p
    show (V c main_v27 : S50000x1.Idx → EReal) (((cfg4.win 2).blk t).view.emb (ix2 p (0 : Fin 1))) = _
    refine congrArg (V c main_v27 : S50000x1.Idx → EReal) (funext fun a => Fin.ext ?_)
    match a with
    | ⟨0, _⟩ => show win4_2.index t (0 : Fin 2) * 2000 + 1 * p.val = t.val * 2000 + p.val; omega
    | ⟨1, _⟩ => show win4_2.index t (1 : Fin 2) * 1 + 1 * 0 = 0; omega
  have h3 : ∀ (k : Fin 128), (iblk4 V c 3 t : S1x128.Idx → EReal) (ix2 (0 : Fin 1) k) = (V c main_v78 : S1x128.Idx → EReal) (ix2 (0 : Fin 1) k) := by
    intro k
    show (V c main_v78 : S1x128.Idx → EReal) (((cfg4.win 3).blk t).view.emb (ix2 (0 : Fin 1) k)) = _
    refine congrArg (V c main_v78 : S1x128.Idx → EReal) (funext fun a => Fin.ext ?_)
    match a with
    | ⟨0, _⟩ => show win4_3.index t (0 : Fin 2) * 1 + 1 * 0 = 0; omega
    | ⟨1, _⟩ => show win4_3.index t (1 : Fin 2) * 128 + 1 * k.val = k.val; omega
  have h4 : ∀ (k : Fin 128), (iblk4 V c 4 t : S1x128.Idx → EReal) (ix2 (0 : Fin 1) k) = (V c main_v81 : S1x128.Idx → EReal) (ix2 (0 : Fin 1) k) := by
    intro k
    show (V c main_v81 : S1x128.Idx → EReal) (((cfg4.win 4).blk t).view.emb (ix2 (0 : Fin 1) k)) = _
    refine congrArg (V c main_v81 : S1x128.Idx → EReal) (funext fun a => Fin.ext ?_)
    match a with
    | ⟨0, _⟩ => show win4_4.index t (0 : Fin 2) * 1 + 1 * 0 = 0; omega
    | ⟨1, _⟩ => show win4_4.index t (1 : Fin 2) * 128 + 1 * k.val = k.val; omega
  have h5 : ∀ (k : Fin 128), (iblk4 V c 5 t : S1x128.Idx → EReal) (ix2 (0 : Fin 1) k) = (V c main_v84 : S1x128.Idx → EReal) (ix2 (0 : Fin 1) k) := by
    intro k
    show (V c main_v84 : S1x128.Idx → EReal) (((cfg4.win 5).blk t).view.emb (ix2 (0 : Fin 1) k)) = _
    refine congrArg (V c main_v84 : S1x128.Idx → EReal) (funext fun a => Fin.ext ?_)
    match a with
    | ⟨0, _⟩ => show win4_5.index t (0 : Fin 2) * 1 + 1 * 0 = 0; omega
    | ⟨1, _⟩ => show win4_5.index t (1 : Fin 2) * 128 + 1 * k.val = k.val; omega
  have h6 : ∀ (p : Fin 2000) (k : Fin 128), (iblk4 V c 6 t : S2000x128.Idx → EReal) (ix2 p k) = (V c main_v57 : S50000x128.Idx → EReal) (ix2 (row4 t p) k) := by
    intro p k
    show (V c main_v57 : S50000x128.Idx → EReal) (((cfg4.win 6).blk t).view.emb (ix2 p k)) = _
    refine congrArg (V c main_v57 : S50000x128.Idx → EReal) (funext fun a => Fin.ext ?_)
    match a with
    | ⟨0, _⟩ => show win4_6.index t (0 : Fin 2) * 2000 + 1 * p.val = t.val * 2000 + p.val; omega
    | ⟨1, _⟩ => show win4_6.index t (1 : Fin 2) * 128 + 1 * k.val = k.val; omega
  refine (pay4_apply (iblk4 V c 0 t) (iblk4 V c 1 t) (iblk4 V c 2 t) (iblk4 V c 3 t) (iblk4 V c 4 t) (iblk4 V c 5 t) (iblk4 V c 6 t) p q).trans ?_
  exact combine4_rows (N := 50000) (n := 2000) (H := 128) (V c main_v75) (V c main_v62) (V c main_v27) (V c main_v78) (V c main_v81) (V c main_v84) (V c main_v57)
    (iblk4 V c 0 t) (iblk4 V c 1 t) (iblk4 V c 2 t) (iblk4 V c 3 t) (iblk4 V c 4 t) (iblk4 V c 5 t) (iblk4 V c 6 t)
    (row4 t) h0 h1 h2 h3 h4 h5 h6 p q

/-- An index of the array is in point t's block iff each coordinate is in the block's range on its axis. -/
theorem mem_blk4 (t : Fin cfg4.N) (i : S50000x128.Idx) :
    i ∈ ((cfg4.win 7).blk t).view.set ↔ ∀ a : Fin 2, win4_7.index t a * S2000x128.size a ≤ (i a).val ∧ (i a).val < win4_7.index t a * S2000x128.size a + S2000x128.size a := by
  show i ∈ ((View.whole main_v85).slice (win4_7.rect t)).set ↔ _
  rw [View.set_slice_whole, Rect.mem_set_unit]
  exact Iff.rfl

/-- THE BLOCKS TILE THE ARRAY: row r of the 50000 lies in the block of point r / 2000 (and every column in its one
    column block). -/
theorem cover4 (i : S50000x128.Idx) :
    ∃ t : Fin cfg4.N, (cfg4.win 7).flush t = true ∧ i ∈ ((cfg4.win 7).blk t).view.set := by
  have hi0 : (i 0).val < 50000 := (i 0).isLt
  have hi1 : (i 1).val < 128 := (i 1).isLt
  obtain ⟨t, ht⟩ : ∃ t : Fin cfg4.N, t.val = (i 0).val / 2000 :=
    ⟨⟨(i 0).val / 2000, lt_of_lt_of_eq (show (i 0).val / 2000 < 25 by omega) N_4.symm⟩, rfl⟩
  obtain ⟨-, -, -, -, -, -, -, -, -, -, -, -, -, -, e70, e71⟩ := idx_facts4 t
  refine ⟨t, flush4_7 t, ?_⟩
  rw [mem_blk4]
  intro a
  match a with
  | ⟨0, _⟩ => show win4_7.index t (0 : Fin 2) * 2000 ≤ (i 0).val ∧ (i 0).val < win4_7.index t (0 : Fin 2) * 2000 + 2000; omega
  | ⟨1, _⟩ => show win4_7.index t (1 : Fin 2) * 128 ≤ (i 1).val ∧ (i 1).val < win4_7.index t (1 : Fin 2) * 128 + 128; omega

/-- THE ARRAY AFTER THE REGION: the layer's tail of the arrays the region found, at every node and feature. -/
theorem region4 (c : Dev nD) :
    ((dat4 (F := Ideal) V c).arrAt 7 cfg4.N : S50000x128.Idx → EReal)
      = Cert.Spec.combine (V c main_v75) (V c main_v62) (V c main_v27) (V c main_v78) (V c main_v81) (V c main_v84) (V c main_v57) :=
  (dat4 (F := Ideal) V c).arrAt_eq_of_cover 7 (Cert.Spec.combine (V c main_v75) (V c main_v62) (V c main_v27) (V c main_v78) (V c main_v81) (V c main_v84) (V c main_v57) : S50000x128.Idx → EReal)
    (fun t _ => flushed4_eq V c t) cover4

end Cert.KernelIdeal.RegionValue

end
-- ==== Proof.Region5.lean ====
/-
  The third layer's message product (a dense layer 128 → 128), tiled over the node axis.

  Entry (r, q) of the stage's result depends on row r of the node array x [50000, 128], on column q of the weight matrix
  w [128, 128] and on entry (0, q) of the bias row b [1, 128]: it is (Σ_k x[r,k]·w[k,q]) + b[0,q].

  The stage visits 25 grid points. At point t it is handed rows 2000·t … 2000·t + 1999 of x (all 128 columns), the whole of
  w and the whole of b, and it writes rows 2000·t … 2000·t + 1999 of the result (all 128 columns). Inside a block, entry
  (p, q) is computed from row p of the x block, which is row 2000·t + p of x, so every block is the restriction of the one
  whole-array function to its rows. Since 25 · 2000 = 50000, row r lies in the block of point r / 2000: the blocks tile
  the result array, and the array after the stage is that function everywhere. The sum over k is a finite sum of extended
  reals, the same on both sides term by term; the tiling never splits it.
-/
import proofs.«107958_j12893491822680_1_alg».proof.Proof.Gen.KernelIdeal.Frame
import proofs.«107958_j12893491822680_1_alg».proof.Proof.Spec
import proofs.«107958_j12893491822680_1_alg».proof.Proof.LibPlainDot
import proofs.«107958_j12893491822680_1_alg».proof.Proof.LibRowLayout
import Idealize.ShloMosaic.Lib.ValueIdx
import Idealize.ShloMosaic.Lib.Pipeline.Value

noncomputable section

namespace Cert.KernelIdeal.RegionValue

open Cert.KernelIdeal Cert.KernelIdeal.Gen Idealize.ShloMosaic Idealize.ShloMosaic.TcCoe Idealize.ShloMosaic.ValueIdx Idealize.SL.Sem

/-- The offset (0, 0) of a block read or written whole. -/
theorem hz5 : (![0, 0] : Fin 2 → Nat) = fun _ => 0 := funext fun a => by fin_cases a <;> rfl

/-- One block's arithmetic at the entry (p, q): the product of row p of the row block with column q of the weights,
    summed over the 128 shared positions, plus the bias row's entry q. Changes of float format and re-layouts of a
    shape to itself do nothing over the extended reals. -/
theorem pay5_apply (x0 : Vec Ideal S2000x128 .f32) (x1 : Vec Ideal S128x128 .f32) (x2 : Vec Ideal S1x128 .f32)
    (p : Fin 2000) (q : Fin 128) :
    k5_pay1 (F := Ideal) x0 x1 x2 (ix2 p q)
      = (∑ k : Fin 128, x0 (ix2 p k) * x1 (ix2 k q)) + x2 (ix2 (0 : Fin 1) q) := by
  unfold k5_pay1
  rw [addf_apply, Cert.Lib.rowBroadcast_apply, shapeCast_self, shapeCast_self, shapeCast_self]
  refine congrArg₂ (· + ·) ?_ rfl
  exact Cert.Lib.matmul_zero_apply (M := 2000) (K := 128) (N := 128) dot_S2000x128_S128x128_S2000x128_1_0_0_1_n_n_wf none _ _ p q

/-- Where the blocks sit: at grid point t the row block and the result block are block t along the node axis and block 0
    along the feature axis; the weights and the bias row are block (0, 0), i.e. whole. Decided over the 25 points. -/
theorem blockIndex5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

variable (V : (c : Dev nD) → (b : Ref sig .tc) → Buf (Elt Ideal) ((c : Thread nD τ).loc b))

/-- What grid point t writes back is block t of the dense layer of the whole arrays: entry (p, q) of the block is computed
    from row p of the row block, which is row 2000·t + p of the whole array, and sits at row 2000·t + p of the result. -/
theorem flushed5_eq (c : Dev nD) (t : Fin cfg5.N) :
    (dat5 (F := Ideal) V c).flushed 3 t = ((cfg5.win 3).blk t).view.read (Elt Ideal)
      (Cert.Spec.lin (V c main_v85 : S50000x128.Idx → EReal) (V c main_v87 : S128x128.Idx → EReal) (V c main_v89 : S1x128.Idx → EReal)) := by
  show (cfg5.win 3).cut (grid5.coords t) ((dat5 (F := Ideal) V c).after 3 t) = _
  rw [after5_3]
  unfold out5_3
  rw [View.canon_unit_zero hz5]
  simp only [View.ld_unit_zero (S := S2000x128) hz5, View.ld_unit_zero (S := S128x128) hz5, View.ld_unit_zero (S := S1x128) hz5]
  obtain ⟨e00, e01, e10, e11, e20, e21, e30, e31⟩ := blockIndex5 t
  refine funext fun (j : S2000x128.Idx) => ?_
  obtain ⟨p, q, rfl⟩ : ∃ (p : Fin 2000) (q : Fin 128), j = ix2 p q := ⟨j 0, j 1, eq_ix2 j⟩
  show k5_pay1 (F := Ideal) (iblk5 V c 0 t) (iblk5 V c 1 t) (iblk5 V c 2 t) (ix2 p q)
      = Cert.Spec.lin (V c main_v85 : S50000x128.Idx → EReal) (V c main_v87 : S128x128.Idx → EReal) (V c main_v89 : S1x128.Idx → EReal)
          (((cfg5.win 3).blk t).view.emb (ix2 p q))
  refine (pay5_apply (iblk5 V c 0 t) (iblk5 V c 1 t) (iblk5 V c 2 t) p q).trans ?_
  unfold Cert.Spec.lin
  refine congrArg₂ (· + ·) (Finset.sum_congr rfl fun k _ => congrArg₂ (· * ·) ?_ ?_) ?_
  · show V c main_v85 (((cfg5.win 0).blk t).view.emb (ix2 p k)) = V c main_v85 (ix2 ((((cfg5.win 3).blk t).view.emb (ix2 p q)) 0) k)
    refine congrArg (V c main_v85) (funext fun a => Fin.ext ?_)
    match a with
    | ⟨0, _⟩ => show win5_0.index t (0 : Fin 2) * 2000 + 1 * p.val = win5_3.index t (0 : Fin 2) * 2000 + 1 * p.val; omega
    | ⟨1, _⟩ => show win5_0.index t (1 : Fin 2) * 128 + 1 * k.val = k.val; omega
  · show V c main_v87 (((cfg5.win 1).blk t).view.emb (ix2 k q)) = V c main_v87 (ix2 k ((((cfg5.win 3).blk t).view.emb (ix2 p q)) 1))
    refine congrArg (V c main_v87) (funext fun a => Fin.ext ?_)
    match a with
    | ⟨0, _⟩ => show win5_1.index t (0 : Fin 2) * 128 + 1 * k.val = k.val; omega
    | ⟨1, _⟩ => show win5_1.index t (1 : Fin 2) * 128 + 1 * q.val = win5_3.index t (1 : Fin 2) * 128 + 1 * q.val; omega
  · show V c main_v89 (((cfg5.win 2).blk t).view.emb (ix2 (0 : Fin 1) q)) = V c main_v89 (ix2 (0 : Fin 1) ((((cfg5.win 3).blk t).view.emb (ix2 p q)) 1))
    refine congrArg (V c main_v89) (funext fun a => Fin.ext ?_)
    match a with
    | ⟨0, _⟩ => show win5_2.index t (0 : Fin 2) * 1 + 1 * 0 = 0; omega
    | ⟨1, _⟩ => show win5_2.index t (1 : Fin 2) * 128 + 1 * q.val = win5_3.index t (1 : Fin 2) * 128 + 1 * q.val; omega

/-- An index of the result array lies in point t's block iff each coordinate lies in the block's range on its axis. -/
theorem mem_blk5 (t : Fin cfg5.N) (i : S50000x128.Idx) :
    i ∈ ((cfg5.win 3).blk t).view.set ↔ ∀ a : Fin 2, win5_3.index t a * S2000x128.size a ≤ (i a).val ∧ (i a).val < win5_3.index t a * S2000x128.size a + S2000x128.size a := by
  show i ∈ ((View.whole main_v90).slice (win5_3.rect t)).set ↔ _
  rw [View.set_slice_whole, Rect.mem_set_unit]
  exact Iff.rfl

/-- The blocks tile the result: 25 · 2000 = 50000, so row r lies in the block of point r / 2000, and every block spans all
    128 columns. -/
theorem cover5 (i : S50000x128.Idx) :
    ∃ t : Fin cfg5.N, (cfg5.win 3).flush t = true ∧ i ∈ ((cfg5.win 3).blk t).view.set := by
  have hi0 : (i 0).val < 50000 := (i 0).isLt
  have hi1 : (i 1).val < 128 := (i 1).isLt
  have hN : cfg5.N = 25 := N_5
  let t : Fin cfg5.N := ⟨(i 0).val / 2000, by rw [hN]; omega⟩
  obtain ⟨-, -, -, -, -, -, e30, e31⟩ := blockIndex5 t
  have ht : t.val = (i 0).val / 2000 := rfl
  refine ⟨t, flush5_3 t, ?_⟩
  rw [mem_blk5]
  intro a
  match a with
  | ⟨0, _⟩ => show win5_3.index t (0 : Fin 2) * 2000 ≤ (i 0).val ∧ (i 0).val < win5_3.index t (0 : Fin 2) * 2000 + 2000; omega
  | ⟨1, _⟩ => show win5_3.index t (1 : Fin 2) * 128 ≤ (i 1).val ∧ (i 1).val < win5_3.index t (1 : Fin 2) * 128 + 128; omega

/-- The result array after the stage is the dense layer of the whole arrays as the stage found them. -/
theorem region5 (c : Dev nD) :
    ((dat5 (F := Ideal) V c).arrAt 3 cfg5.N : S50000x128.Idx → EReal)
      = Cert.Spec.lin (V c main_v85 : S50000x128.Idx → EReal) (V c main_v87 : S128x128.Idx → EReal) (V c main_v89 : S1x128.Idx → EReal) :=
  (dat5 (F := Ideal) V c).arrAt_eq_of_cover 3 _ (fun t _ => flushed5_eq V c t) (cover5)

end Cert.KernelIdeal.RegionValue

end
-- ==== Proof.RefStagesH2.lean ====
/-
  The reference program's layer 2 tail (the node's own message weighted by its self-loop coefficient, the bias, the
  normalisation of each node's 128-entry row by its own mean and variance, the scale and shift, the clamp at zero and
  the residual), compared with the shared index-by-index specification `Cert.Spec.combine`.

  Every operation of this tail is pointwise in the node index p, except the two row sums, which run over the 128
  features of the same node; the broadcasts and the slices of the stacked parameters only rename indices. So the value
  at (p,q) is an expression in row p of the aggregate and of the layer's product, entry p of the self-loop coefficients,
  row 1 of each stacked parameter, and entry (p,q) of the residual — the expression `Cert.Spec.combine` names.
-/
import proofs.«107958_j12893491822680_1_alg».proof.Proof.RefReadP
import proofs.«107958_j12893491822680_1_alg».proof.Proof.Spec

noncomputable section

namespace Cert.ReferenceIdeal.RefValue

open Cert.ReferenceIdeal Cert.ReferenceIdeal.Read Idealize.ShloMosaic Idealize.ShloMosaic.ValueIdx

/-- One graph-convolution layer's tail, read index by index: the pre-activation row (aggregate, self-loop term, bias),
    its mean and variance over the 128 features, the normalised, scaled and shifted entry, the clamp at zero and the
    residual. The aggregate, the layer's product, the self-loop coefficients and the residual are opaque arrays: each
    step ends by naming them as variables, so that the two sides are compared as expressions in those variables only. -/
theorem stage_h2 (x0 : (⟨S50000x256, .f32⟩ : BufTy).Contents (Elt Ideal)) (x1 : (⟨S2x800000, .i32⟩ : BufTy).Contents (Elt Ideal)) (x2 : (⟨S256x128, .f32⟩ : BufTy).Contents (Elt Ideal)) (x3 : (⟨S128, .f32⟩ : BufTy).Contents (Elt Ideal)) (x4 : (⟨S3x128x128, .f32⟩ : BufTy).Contents (Elt Ideal)) (x5 : (⟨S3x128, .f32⟩ : BufTy).Contents (Elt Ideal)) (x6 : (⟨S3x128, .f32⟩ : BufTy).Contents (Elt Ideal)) (x7 : (⟨S3x128, .f32⟩ : BufTy).Contents (Elt Ideal)) :
    (val_main_v140 (F := Ideal) x0 x1 x2 x3 x4 x5 x6 x7)
      = Cert.Spec.combine (val_main_v102 (F := Ideal) x0 x1 x2 x3 x4 x5 x6 x7) (val_main_v89 (F := Ideal) x0 x1 x2 x3 x4 x5 x6 x7) (Cert.Spec.col (val_main_v26 (F := Ideal) x1)) (Cert.Spec.layerRow x5 1) (Cert.Spec.layerRow x6 1) (Cert.Spec.layerRow x7 1) (val_main_v86 (F := Ideal) x0 x1 x2 x3 x4 x5 x6 x7) := by
  -- the pre-activation entry
  have hpre : ∀ j : S50000x128.Idx, (val_main_v110 (F := Ideal) x0 x1 x2 x3 x4 x5 x6 x7) j = Cert.Spec.preact (val_main_v102 (F := Ideal) x0 x1 x2 x3 x4 x5 x6 x7) (val_main_v89 (F := Ideal) x0 x1 x2 x3 x4 x5 x6 x7) (Cert.Spec.col (val_main_v26 (F := Ideal) x1)) (Cert.Spec.layerRow x5 1) (j 0) (j 1) := by
    intro j
    obtain ⟨p, q, rfl⟩ : ∃ p q, j = ix2 p q := ⟨j 0, j 1, eq_ix2 j⟩
    rw [val_main_v110_apply, val_main_v105_apply, val_main_v104_apply, val_main_v103_apply, val_main_v27_apply, val_main_v109_apply, val_main_v108_apply, val_main_v107_apply, val_main_v106_apply]
    have e1 : idx_main_v27 (idx_main_v103 (ix2 p q)) = ix1 p :=
      funext fun a => Fin.ext (by match a with | ⟨0, _⟩ => rfl)
    have e2 : idx_main_v106 (idx_main_v107 (idx_main_v108 (idx_main_v109 (ix2 p q)))) = ix2 (1 : Fin 3) q :=
      funext fun a => Fin.ext (by
      match a with
      | ⟨0, _⟩ => rfl
      | ⟨1, _⟩ => exact Nat.mod_eq_of_lt q.isLt)
    rw [e1, e2]
    generalize (val_main_v102 (F := Ideal) x0 x1 x2 x3 x4 x5 x6 x7) = A
    generalize (val_main_v89 (F := Ideal) x0 x1 x2 x3 x4 x5 x6 x7) = M
    generalize (val_main_v26 (F := Ideal) x1) = D
    rfl
  -- the mean of the row
  have hmean : ∀ j : S50000x1.Idx, (val_main_v118 (F := Ideal) x0 x1 x2 x3 x4 x5 x6 x7) j = Cert.Spec.mean128 (Cert.Spec.preact (val_main_v102 (F := Ideal) x0 x1 x2 x3 x4 x5 x6 x7) (val_main_v89 (F := Ideal) x0 x1 x2 x3 x4 x5 x6 x7) (Cert.Spec.col (val_main_v26 (F := Ideal) x1)) (Cert.Spec.layerRow x5 1) (j 0)) := by
    intro j
    rw [val_main_v118_apply, val_main_v116_apply, val_main_v115_apply, val_main_v117_apply, val_main_cst_17_apply, val_main_cst_16_apply]
    simp only [hpre, Ideal.ofBits_def, Ideal.ofBits_zero_f32, zero_add, Ideal.hostDivf_def]
    generalize (val_main_v102 (F := Ideal) x0 x1 x2 x3 x4 x5 x6 x7) = A
    generalize (val_main_v89 (F := Ideal) x0 x1 x2 x3 x4 x5 x6 x7) = M
    generalize (val_main_v26 (F := Ideal) x1) = D
    rfl
  -- the centred entry
  have hcen : ∀ j : S50000x128.Idx, (val_main_v120 (F := Ideal) x0 x1 x2 x3 x4 x5 x6 x7) j = Cert.Spec.preact (val_main_v102 (F := Ideal) x0 x1 x2 x3 x4 x5 x6 x7) (val_main_v89 (F := Ideal) x0 x1 x2 x3 x4 x5 x6 x7) (Cert.Spec.col (val_main_v26 (F := Ideal) x1)) (Cert.Spec.layerRow x5 1) (j 0) (j 1) - Cert.Spec.mean128 (Cert.Spec.preact (val_main_v102 (F := Ideal) x0 x1 x2 x3 x4 x5 x6 x7) (val_main_v89 (F := Ideal) x0 x1 x2 x3 x4 x5 x6 x7) (Cert.Spec.col (val_main_v26 (F := Ideal) x1)) (Cert.Spec.layerRow x5 1) (j 0)) := by
    intro j
    rw [val_main_v120_apply, val_main_v119_apply, hpre, hmean]
    generalize (val_main_v102 (F := Ideal) x0 x1 x2 x3 x4 x5 x6 x7) = A
    generalize (val_main_v89 (F := Ideal) x0 x1 x2 x3 x4 x5 x6 x7) = M
    generalize (val_main_v26 (F := Ideal) x1) = D
    rfl
  -- the squared centred entry
  have hsq : ∀ j : S50000x128.Idx, (val_main_v121 (F := Ideal) x0 x1 x2 x3 x4 x5 x6 x7) j
      = (Cert.Spec.preact (val_main_v102 (F := Ideal) x0 x1 x2 x3 x4 x5 x6 x7) (val_main_v89 (F := Ideal) x0 x1 x2 x3 x4 x5 x6 x7) (Cert.Spec.col (val_main_v26 (F := Ideal) x1)) (Cert.Spec.layerRow x5 1) (j 0) (j 1) - Cert.Spec.mean128 (Cert.Spec.preact (val_main_v102 (F := Ideal) x0 x1 x2 x3 x4 x5 x6 x7) (val_main_v89 (F := Ideal) x0 x1 x2 x3 x4 x5 x6 x7) (Cert.Spec.col (val_main_v26 (F := Ideal) x1)) (Cert.Spec.layerRow x5 1) (j 0)))
          * (Cert.Spec.preact (val_main_v102 (F := Ideal) x0 x1 x2 x3 x4 x5 x6 x7) (val_main_v89 (F := Ideal) x0 x1 x2 x3 x4 x5 x6 x7) (Cert.Spec.col (val_main_v26 (F := Ideal) x1)) (Cert.Spec.layerRow x5 1) (j 0) (j 1) - Cert.Spec.mean128 (Cert.Spec.preact (val_main_v102 (F := Ideal) x0 x1 x2 x3 x4 x5 x6 x7) (val_main_v89 (F := Ideal) x0 x1 x2 x3 x4 x5 x6 x7) (Cert.Spec.col (val_main_v26 (F := Ideal) x1)) (Cert.Spec.layerRow x5 1) (j 0))) := by
    intro j
    rw [val_main_v121_apply, hcen]
    generalize (val_main_v102 (F := Ideal) x0 x1 x2 x3 x4 x5 x6 x7) = A
    generalize (val_main_v89 (F := Ideal) x0 x1 x2 x3 x4 x5 x6 x7) = M
    generalize (val_main_v26 (F := Ideal) x1) = D
    rfl
  -- the variance of the row
  have hvar : ∀ j : S50000x1.Idx, (val_main_v125 (F := Ideal) x0 x1 x2 x3 x4 x5 x6 x7) j
      = Cert.Spec.mean128 (fun k => (Cert.Spec.preact (val_main_v102 (F := Ideal) x0 x1 x2 x3 x4 x5 x6 x7) (val_main_v89 (F := Ideal) x0 x1 x2 x3 x4 x5 x6 x7) (Cert.Spec.col (val_main_v26 (F := Ideal) x1)) (Cert.Spec.layerRow x5 1) (j 0) k - Cert.Spec.mean128 (Cert.Spec.preact (val_main_v102 (F := Ideal) x0 x1 x2 x3 x4 x5 x6 x7) (val_main_v89 (F := Ideal) x0 x1 x2 x3 x4 x5 x6 x7) (Cert.Spec.col (val_main_v26 (F := Ideal) x1)) (Cert.Spec.layerRow x5 1) (j 0)))
          * (Cert.Spec.preact (val_main_v102 (F := Ideal) x0 x1 x2 x3 x4 x5 x6 x7) (val_main_v89 (F := Ideal) x0 x1 x2 x3 x4 x5 x6 x7) (Cert.Spec.col (val_main_v26 (F := Ideal) x1)) (Cert.Spec.layerRow x5 1) (j 0) k - Cert.Spec.mean128 (Cert.Spec.preact (val_main_v102 (F := Ideal) x0 x1 x2 x3 x4 x5 x6 x7) (val_main_v89 (F := Ideal) x0 x1 x2 x3 x4 x5 x6 x7) (Cert.Spec.col (val_main_v26 (F := Ideal) x1)) (Cert.Spec.layerRow x5 1) (j 0)))) := by
    intro j
    rw [val_main_v125_apply, val_main_v123_apply, val_main_v122_apply, val_main_v124_apply, val_main_cst_19_apply, val_main_cst_18_apply]
    simp only [hsq, Ideal.ofBits_def, Ideal.ofBits_zero_f32, zero_add, Ideal.hostDivf_def]
    generalize (val_main_v102 (F := Ideal) x0 x1 x2 x3 x4 x5 x6 x7) = A
    generalize (val_main_v89 (F := Ideal) x0 x1 x2 x3 x4 x5 x6 x7) = M
    generalize (val_main_v26 (F := Ideal) x1) = D
    rfl
  funext i
  rw [val_main_v140_apply, val_main_v139_apply, val_main_v138_apply, val_main_v135_apply, val_main_v132_apply, val_main_v127_apply, val_main_v126_apply, val_main_v131_apply, val_main_v130_apply, val_main_v129_apply, val_main_v128_apply, val_main_cst_20_apply, val_main_v134_apply, val_main_v133_apply, val_main_v112_apply, val_main_v111_apply, val_main_v137_apply, val_main_v136_apply, val_main_v114_apply, val_main_v113_apply,
    val_main_call2_v0_apply, val_main_call2_cst_apply, hpre, hmean, hvar]
  have eg : idx_main_v111 (idx_main_v112 (idx_main_v133 (idx_main_v134 i))) = ix2 (1 : Fin 3) (i 1) :=
    funext fun a => Fin.ext (by
      match a with
      | ⟨0, _⟩ => rfl
      | ⟨1, _⟩ => exact Nat.mod_eq_of_lt (i 1).isLt)
  have eb : idx_main_v113 (idx_main_v114 (idx_main_v136 (idx_main_v137 i))) = ix2 (1 : Fin 3) (i 1) :=
    funext fun a => Fin.ext (by
      match a with
      | ⟨0, _⟩ => rfl
      | ⟨1, _⟩ => exact Nat.mod_eq_of_lt (i 1).isLt)
  rw [eg, eb]
  generalize (val_main_v102 (F := Ideal) x0 x1 x2 x3 x4 x5 x6 x7) = A
  generalize (val_main_v89 (F := Ideal) x0 x1 x2 x3 x4 x5 x6 x7) = M
  generalize (val_main_v26 (F := Ideal) x1) = D
  generalize (val_main_v86 (F := Ideal) x0 x1 x2 x3 x4 x5 x6 x7) = R
  rfl

end Cert.ReferenceIdeal.RefValue

end
-- ==== Proof.Region2.lean ====
/-
  Region 2 of the kernel program: one graph-convolution layer's tail, tiled over the nodes.

  The 50000 nodes are cut into 25 blocks of 2000 consecutive rows. At grid point t the body is handed rows
  2000·t … 2000·t+1999 of the neighbours' aggregate, of the messages and of the residual ([2000,128] blocks at block
  index (t,0)), the same rows of the self-loop coefficient column ([2000,1] block at (t,0)), and the three parameter rows
  whole ([1,128], block index (0,0)). Entry (p,q) of what it writes depends on row p of those blocks only: the
  pre-activation row a[k] = agg[p,k] + m[p,k]·s[p,0] + cb[0,k], its mean over the 128 features, the mean of its squared
  deviations, the normalised, scaled and shifted entry clamped below at 0, plus the residual entry. Row p of block t
  is row 2000·t + p of the whole arrays, so the block written back is the block of ONE function of the whole arrays —
  the specification's `combine` —, and since every row r of the 50000 lies in the block of point r / 2000, the output
  array ends holding that function everywhere.
-/
import proofs.«107958_j12893491822680_1_alg».proof.Proof.Gen.KernelIdeal.Frame
import proofs.«107958_j12893491822680_1_alg».proof.Proof.Spec
import proofs.«107958_j12893491822680_1_alg».proof.Proof.LibAxisSums
import proofs.«107958_j12893491822680_1_alg».proof.Proof.LibColumnCast
import proofs.«107958_j12893491822680_1_alg».proof.Proof.LibColumnBroadcast
import proofs.«107958_j12893491822680_1_alg».proof.Proof.LibRowLayout
import Idealize.ShloMosaic.Lib.ValueIdx
import Idealize.ShloMosaic.Lib.Pipeline.Value
import Idealize.ShloMosaic.PureOps.Ideal
import Idealize.ShloMosaic.PureOps.Ideal.Laws

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)

/-! ## The body on one block -/

/-- A row's sum, laid out as a column entry: the lane reduction over the 128 features followed by the cast of the
    [2000] vector to a [2000,1] column reads, at (p, ·), the finite sum of row p. -/
theorem rowSumCol2_apply (v : FVec Ideal S2000x128 .f32) (h : S2000x128.Reduces [1] S2000) (hφ : FTy.f32 = FTy.f32 ∨ FTy.f32 = FTy.bf16)
    (hacc : (0x00000000#32 : BitVec 32) = 0x00000000#32) (hc : S2000.ShapeCasts S2000x1) (p : Fin 2000) (u : Fin 1) :
    shapeCast S2000x1 (multiReduction (F := Ideal) .add [1] S2000 v 0x00000000#32 h hφ hacc) hc (ix2 p u) = ∑ k : Fin 128, v (ix2 p k) :=
  (Cert.Lib.shapeCast_a_a1_apply _ hc p u).trans (Cert.Lib.rowSum_apply v _ h hφ hacc p)

/-- The reciprocal square root acts entry by entry. -/
theorem rsqrt2_apply (v : FVec Ideal S2000x1 .f32) (i : S2000x1.Idx) : rsqrt v i = Ideal.rsqrt (v i) := rfl

/-- THE BODY ON ONE BLOCK: what the kernel leaves at (p, q) of its 2000-row output block is the layer's tail computed
    from the 2000-row input blocks — row p of the aggregate, message and residual blocks, entry p of the coefficient
    block, and the three parameter rows. The two lane reductions are the two finite sums of the specification (the
    row's mean, then the mean of the squared deviations); everything else acts entry by entry. -/
theorem pay2_apply (x0 x1 : Vec Ideal S2000x128 .f32) (x2 : Vec Ideal S2000x1 .f32) (x3 x4 x5 : Vec Ideal S1x128 .f32)
    (x6 : Vec Ideal S2000x128 .f32) (p : Fin 2000) (q : Fin 128) :
    k2_pay1 (F := Ideal) (k2_pay2 (F := Ideal) x0 x1 x2 x3 x4 x5) x6 (ix2 p q) = Cert.Spec.combine x0 x1 x2 x3 x4 x5 x6 (ix2 p q) := by
  unfold k2_pay1 k2_pay2
  simp only [shapeCast_self]
  simp only [addf_apply, maximumf_apply, mulf_apply, subf_apply, divf_apply, broadcast_apply, rsqrt2_apply,
    Cert.Lib.broadcastTo_a1_ab_apply, Cert.Lib.rowBroadcast_apply]
  rw [rowSumCol2_apply, rowSumCol2_apply]
  simp only [addf_apply, mulf_apply, subf_apply, divf_apply, broadcast_apply,
    Cert.Lib.broadcastTo_a1_ab_apply, Cert.Lib.rowBroadcast_apply]
  rw [rowSumCol2_apply]
  simp only [addf_apply, mulf_apply, Cert.Lib.broadcastTo_a1_ab_apply, Cert.Lib.rowBroadcast_apply]
  rfl

/-! ## A block of rows of the whole arrays -/

/-- The layer's tail at an explicit entry (p, q). -/
theorem combine2_apply {N H : Nat} (agg m : Cert.Spec.Mat N H) (s : Cert.Spec.Mat N 1) (cb g b : Cert.Spec.Mat 1 H)
    (id : Cert.Spec.Mat N H) (p : Fin N) (q : Fin H) :
    Cert.Spec.combine agg m s cb g b id (ix2 p q)
      = max ((Cert.Spec.preact agg m s cb p q - Cert.Spec.mean128 (Cert.Spec.preact agg m s cb p))
            * Ideal.rsqrt (Cert.Spec.mean128 (fun k => (Cert.Spec.preact agg m s cb p k - Cert.Spec.mean128 (Cert.Spec.preact agg m s cb p))
                                            * (Cert.Spec.preact agg m s cb p k - Cert.Spec.mean128 (Cert.Spec.preact agg m s cb p)))
                            + Ideal.ofBits .f32 0x3727C5AC#32)
            * g (ix2 (0 : Fin 1) q) + b (ix2 (0 : Fin 1) q))
          (Ideal.ofBits .f32 0x00000000#32)
        + id (ix2 p q) := rfl

/-- The layer's tail only reads row p of its node-indexed operands: when the n-row operands are the rows r(0), r(1), …
    of N-row ones (and the parameter rows are the same), the tail at (p, q) of the former is the tail at (r p, q) of
    the latter. -/
theorem combine2_rows {N n H : Nat} (A0 A1 : Cert.Spec.Mat N H) (A2 : Cert.Spec.Mat N 1) (A3 A4 A5 : Cert.Spec.Mat 1 H)
    (A6 : Cert.Spec.Mat N H) (x0 x1 : Cert.Spec.Mat n H) (x2 : Cert.Spec.Mat n 1) (x3 x4 x5 : Cert.Spec.Mat 1 H)
    (x6 : Cert.Spec.Mat n H) (r : Fin n → Fin N)
    (h0 : ∀ (p : Fin n) (k : Fin H), x0 (ix2 p k) = A0 (ix2 (r p) k))
    (h1 : ∀ (p : Fin n) (k : Fin H), x1 (ix2 p k) = A1 (ix2 (r p) k))
    (h2 : ∀ (p : Fin n), x2 (ix2 p (0 : Fin 1)) = A2 (ix2 (r p) (0 : Fin 1)))
    (h3 : ∀ (k : Fin H), x3 (ix2 (0 : Fin 1) k) = A3 (ix2 (0 : Fin 1) k))
    (h4 : ∀ (k : Fin H), x4 (ix2 (0 : Fin 1) k) = A4 (ix2 (0 : Fin 1) k))
    (h5 : ∀ (k : Fin H), x5 (ix2 (0 : Fin 1) k) = A5 (ix2 (0 : Fin 1) k))
    (h6 : ∀ (p : Fin n) (k : Fin H), x6 (ix2 p k) = A6 (ix2 (r p) k))
    (p : Fin n) (q : Fin H) :
    Cert.Spec.combine x0 x1 x2 x3 x4 x5 x6 (ix2 p q) = Cert.Spec.combine A0 A1 A2 A3 A4 A5 A6 (ix2 (r p) q) := by
  rw [combine2_apply, combine2_apply]
  unfold Cert.Spec.preact
  simp only [h0, h1, h2, h3, h4, h5, h6]

/-! ## From the blocks to the array -/

theorem hz2 : (![0, 0] : Fin 2 → Nat) = fun _ => 0 := funext fun a => by fin_cases a <;> rfl

/-- The printed index maps, decided over the 25 grid points: the node-indexed windows sit at block (t, 0), the
    parameter rows at block (0, 0). -/
theorem idx_facts2 : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

/-- Row p of block t is row 2000·t + p of the 50000. -/
def row2 (t : Fin cfg2.N) (p : Fin 2000) : Fin 50000 :=
  ⟨t.val * 2000 + p.val, by have ht : t.val < 25 := lt_of_lt_of_eq t.isLt N_2; have := p.isLt; omega⟩

variable (V : (c : Dev nD) → (b : Ref sig .tc) → Buf (Elt Ideal) ((c : Thread nD τ).loc b))

/-- WHAT POINT t WRITES BACK is block t of the layer's tail of the whole arrays as the region finds them. -/
theorem flushed2_eq (c : Dev nD) (t : Fin cfg2.N) :
    (dat2 (F := Ideal) V c).flushed 7 t = ((cfg2.win 7).blk t).view.read (Elt Ideal)
      (Cert.Spec.combine (V c main_v47) (V c main_v34) (V c main_v27) (V c main_v50) (V c main_v53) (V c main_v56) (V c main_v29) : S50000x128.Idx → EReal) := by
  show (cfg2.win 7).cut (grid2.coords t) ((dat2 (F := Ideal) V c).after 7 t) = _
  rw [after2_7]
  unfold out2_7
  rw [View.canon_unit_zero hz2]
  simp only [View.ld_unit_zero (S := S2000x128) hz2, View.ld_unit_zero (S := S2000x1) hz2, View.ld_unit_zero (S := S1x128) hz2]
  obtain ⟨e00, e01, e10, e11, e20, e21, e30, e31, e40, e41, e50, e51, e60, e61, e70, e71⟩ := idx_facts2 t
  funext j
  obtain ⟨p, q, rfl⟩ : ∃ (p : Fin 2000) (q : Fin 128), j = ix2 p q := ⟨j 0, j 1, eq_ix2 j⟩
  show k2_pay1 (F := Ideal) (k2_pay2 (F := Ideal) (iblk2 V c 0 t) (iblk2 V c 1 t) (iblk2 V c 2 t) (iblk2 V c 3 t) (iblk2 V c 4 t) (iblk2 V c 5 t)) (iblk2 V c 6 t) (ix2 p q)
    = (Cert.Spec.combine (V c main_v47) (V c main_v34) (V c main_v27) (V c main_v50) (V c main_v53) (V c main_v56) (V c main_v29) : S50000x128.Idx → EReal)
        (((cfg2.win 7).blk t).view.emb (ix2 p q))
  have hemb : ((cfg2.win 7).blk t).view.emb (ix2 p q) = (ix2 (row2 t p) q : S50000x128.Idx) := by
    funext a; apply Fin.ext
    match a with
    | ⟨0, _⟩ => show win2_7.index t (0 : Fin 2) * 2000 + 1 * p.val = t.val * 2000 + p.val; omega
    | ⟨1, _⟩ => show win2_7.index t (1 : Fin 2) * 128 + 1 * q.val = q.val; omega
  rw [hemb]
  have h0 : ∀ (p : Fin 2000) (k : Fin 128), (iblk2 V c 0 t : S2000x128.Idx → EReal) (ix2 p k) = (V c main_v47 : S50000x128.Idx → EReal) (ix2 (row2 t p) k) := by
    intro p k
    show (V c main_v47 : S50000x128.Idx → EReal) (((cfg2.win 0).blk t).view.emb (ix2 p k)) = _
    refine congrArg (V c main_v47 : S50000x128.Idx → EReal) (funext fun a => Fin.ext ?_)
    match a with
    | ⟨0, _⟩ => show win2_0.index t (0 : Fin 2) * 2000 + 1 * p.val = t.val * 2000 + p.val; omega
    | ⟨1, _⟩ => show win2_0.index t (1 : Fin 2) * 128 + 1 * k.val = k.val; omega
  have h1 : ∀ (p : Fin 2000) (k : Fin 128), (iblk2 V c 1 t : S2000x128.Idx → EReal) (ix2 p k) = (V c main_v34 : S50000x128.Idx → EReal) (ix2 (row2 t p) k) := by
    intro p k
    show (V c main_v34 : S50000x128.Idx → EReal) (((cfg2.win 1).blk t).view.emb (ix2 p k)) = _
    refine congrArg (V c main_v34 : S50000x128.Idx → EReal) (funext fun a => Fin.ext ?_)
    match a with
    | ⟨0, _⟩ => show win2_1.index t (0 : Fin 2) * 2000 + 1 * p.val = t.val * 2000 + p.val; omega
    | ⟨1, _⟩ => show win2_1.index t (1 : Fin 2) * 128 + 1 * k.val = k.val; omega
  have h2 : ∀ (p : Fin 2000), (iblk2 V c 2 t : S2000x1.Idx → EReal) (ix2 p (0 : Fin 1)) = (V c main_v27 : S50000x1.Idx → EReal) (ix2 (row2 t p) (0 : Fin 1)) := by
    intro p
    show (V c main_v27 : S50000x1.Idx → EReal) (((cfg2.win 2).blk t).view.emb (ix2 p (0 : Fin 1))) = _
    refine congrArg (V c main_v27 : S50000x1.Idx → EReal) (funext fun a => Fin.ext ?_)
    match a with
    | ⟨0, _⟩ => show win2_2.index t (0 : Fin 2) * 2000 + 1 * p.val = t.val * 2000 + p.val; omega
    | ⟨1, _⟩ => show win2_2.index t (1 : Fin 2) * 1 + 1 * 0 = 0; omega
  have h3 : ∀ (k : Fin 128), (iblk2 V c 3 t : S1x128.Idx → EReal) (ix2 (0 : Fin 1) k) = (V c main_v50 : S1x128.Idx → EReal) (ix2 (0 : Fin 1) k) := by
    intro k
    show (V c main_v50 : S1x128.Idx → EReal) (((cfg2.win 3).blk t).view.emb (ix2 (0 : Fin 1) k)) = _
    refine congrArg (V c main_v50 : S1x128.Idx → EReal) (funext fun a => Fin.ext ?_)
    match a with
    | ⟨0, _⟩ => show win2_3.index t (0 : Fin 2) * 1 + 1 * 0 = 0; omega
    | ⟨1, _⟩ => show win2_3.index t (1 : Fin 2) * 128 + 1 * k.val = k.val; omega
  have h4 : ∀ (k : Fin 128), (iblk2 V c 4 t : S1x128.Idx → EReal) (ix2 (0 : Fin 1) k) = (V c main_v53 : S1x128.Idx → EReal) (ix2 (0 : Fin 1) k) := by
    intro k
    show (V c main_v53 : S1x128.Idx → EReal) (((cfg2.win 4).blk t).view.emb (ix2 (0 : Fin 1) k)) = _
    refine congrArg (V c main_v53 : S1x128.Idx → EReal) (funext fun a => Fin.ext ?_)
    match a with
    | ⟨0, _⟩ => show win2_4.index t (0 : Fin 2) * 1 + 1 * 0 = 0; omega
    | ⟨1, _⟩ => show win2_4.index t (1 : Fin 2) * 128 + 1 * k.val = k.val; omega
  have h5 : ∀ (k : Fin 128), (iblk2 V c 5 t : S1x128.Idx → EReal) (ix2 (0 : Fin 1) k) = (V c main_v56 : S1x128.Idx → EReal) (ix2 (0 : Fin 1) k) := by
    intro k
    show (V c main_v56 : S1x128.Idx → EReal) (((cfg2.win 5).blk t).view.emb (ix2 (0 : Fin 1) k)) = _
    refine congrArg (V c main_v56 : S1x128.Idx → EReal) (funext fun a => Fin.ext ?_)
    match a with
    | ⟨0, _⟩ => show win2_5.index t (0 : Fin 2) * 1 + 1 * 0 = 0; omega
    | ⟨1, _⟩ => show win2_5.index t (1 : Fin 2) * 128 + 1 * k.val = k.val; omega
  have h6 : ∀ (p : Fin 2000) (k : Fin 128), (iblk2 V c 6 t : S2000x128.Idx → EReal) (ix2 p k) = (V c main_v29 : S50000x128.Idx → EReal) (ix2 (row2 t p) k) := by
    intro p k
    show (V c main_v29 : S50000x128.Idx → EReal) (((cfg2.win 6).blk t).view.emb (ix2 p k)) = _
    refine congrArg (V c main_v29 : S50000x128.Idx → EReal) (funext fun a => Fin.ext ?_)
    match a with
    | ⟨0, _⟩ => show win2_6.index t (0 : Fin 2) * 2000 + 1 * p.val = t.val * 2000 + p.val; omega
    | ⟨1, _⟩ => show win2_6.index t (1 : Fin 2) * 128 + 1 * k.val = k.val; omega
  refine (pay2_apply (iblk2 V c 0 t) (iblk2 V c 1 t) (iblk2 V c 2 t) (iblk2 V c 3 t) (iblk2 V c 4 t) (iblk2 V c 5 t) (iblk2 V c 6 t) p q).trans ?_
  exact combine2_rows (N := 50000) (n := 2000) (H := 128) (V c main_v47) (V c main_v34) (V c main_v27) (V c main_v50) (V c main_v53) (V c main_v56) (V c main_v29)
    (iblk2 V c 0 t) (iblk2 V c 1 t) (iblk2 V c 2 t) (iblk2 V c 3 t) (iblk2 V c 4 t) (iblk2 V c 5 t) (iblk2 V c 6 t)
    (row2 t) h0 h1 h2 h3 h4 h5 h6 p q

/-- An index of the array is in point t's block iff each coordinate is in the block's range on its axis. -/
theorem mem_blk2 (t : Fin cfg2.N) (i : S50000x128.Idx) :
    i ∈ ((cfg2.win 7).blk t).view.set ↔ ∀ a : Fin 2, win2_7.index t a * S2000x128.size a ≤ (i a).val ∧ (i a).val < win2_7.index t a * S2000x128.size a + S2000x128.size a := by
  show i ∈ ((View.whole main_v57).slice (win2_7.rect t)).set ↔ _
  rw [View.set_slice_whole, Rect.mem_set_unit]
  exact Iff.rfl

/-- THE BLOCKS TILE THE ARRAY: row r of the 50000 lies in the block of point r / 2000 (and every column in its one
    column block). -/
theorem cover2 (i : S50000x128.Idx) :
    ∃ t : Fin cfg2.N, (cfg2.win 7).flush t = true ∧ i ∈ ((cfg2.win 7).blk t).view.set := by
  have hi0 : (i 0).val < 50000 := (i 0).isLt
  have hi1 : (i 1).val < 128 := (i 1).isLt
  obtain ⟨t, ht⟩ : ∃ t : Fin cfg2.N, t.val = (i 0).val / 2000 :=
    ⟨⟨(i 0).val / 2000, lt_of_lt_of_eq (show (i 0).val / 2000 < 25 by omega) N_2.symm⟩, rfl⟩
  obtain ⟨-, -, -, -, -, -, -, -, -, -, -, -, -, -, e70, e71⟩ := idx_facts2 t
  refine ⟨t, flush2_7 t, ?_⟩
  rw [mem_blk2]
  intro a
  match a with
  | ⟨0, _⟩ => show win2_7.index t (0 : Fin 2) * 2000 ≤ (i 0).val ∧ (i 0).val < win2_7.index t (0 : Fin 2) * 2000 + 2000; omega
  | ⟨1, _⟩ => show win2_7.index t (1 : Fin 2) * 128 ≤ (i 1).val ∧ (i 1).val < win2_7.index t (1 : Fin 2) * 128 + 128; omega

/-- THE ARRAY AFTER THE REGION: the layer's tail of the arrays the region found, at every node and feature. -/
theorem region2 (c : Dev nD) :
    ((dat2 (F := Ideal) V c).arrAt 7 cfg2.N : S50000x128.Idx → EReal)
      = Cert.Spec.combine (V c main_v47) (V c main_v34) (V c main_v27) (V c main_v50) (V c main_v53) (V c main_v56) (V c main_v29) :=
  (dat2 (F := Ideal) V c).arrAt_eq_of_cover 7 (Cert.Spec.combine (V c main_v47) (V c main_v34) (V c main_v27) (V c main_v50) (V c main_v53) (V c main_v56) (V c main_v29) : S50000x128.Idx → EReal)
    (fun t _ => flushed2_eq V c t) cover2

end Cert.KernelIdeal.RegionValue

end
-- ==== Proof.Region3.lean ====
/-
  The second layer's message product (a dense layer 128 → 128), tiled over the node axis.

  Entry (r, q) of the stage's result depends on row r of the node array x [50000, 128], on column q of the weight matrix
  w [128, 128] and on entry (0, q) of the bias row b [1, 128]: it is (Σ_k x[r,k]·w[k,q]) + b[0,q].

  The stage visits 25 grid points. At point t it is handed rows 2000·t … 2000·t + 1999 of x (all 128 columns), the whole of
  w and the whole of b, and it writes rows 2000·t … 2000·t + 1999 of the result (all 128 columns). Inside a block, entry
  (p, q) is computed from row p of the x block, which is row 2000·t + p of x, so every block is the restriction of the one
  whole-array function to its rows. Since 25 · 2000 = 50000, row r lies in the block of point r / 2000: the blocks tile
  the result array, and the array after the stage is that function everywhere. The sum over k is a finite sum of extended
  reals, the same on both sides term by term; the tiling never splits it.
-/
import proofs.«107958_j12893491822680_1_alg».proof.Proof.Gen.KernelIdeal.Frame
import proofs.«107958_j12893491822680_1_alg».proof.Proof.Spec
import proofs.«107958_j12893491822680_1_alg».proof.Proof.LibPlainDot
import proofs.«107958_j12893491822680_1_alg».proof.Proof.LibRowLayout
import Idealize.ShloMosaic.Lib.ValueIdx
import Idealize.ShloMosaic.Lib.Pipeline.Value

noncomputable section

namespace Cert.KernelIdeal.RegionValue

open Cert.KernelIdeal Cert.KernelIdeal.Gen Idealize.ShloMosaic Idealize.ShloMosaic.TcCoe Idealize.ShloMosaic.ValueIdx Idealize.SL.Sem

/-- The offset (0, 0) of a block read or written whole. -/
theorem hz3 : (![0, 0] : Fin 2 → Nat) = fun _ => 0 := funext fun a => by fin_cases a <;> rfl

/-- One block's arithmetic at the entry (p, q): the product of row p of the row block with column q of the weights,
    summed over the 128 shared positions, plus the bias row's entry q. Changes of float format and re-layouts of a
    shape to itself do nothing over the extended reals. -/
theorem pay3_apply (x0 : Vec Ideal S2000x128 .f32) (x1 : Vec Ideal S128x128 .f32) (x2 : Vec Ideal S1x128 .f32)
    (p : Fin 2000) (q : Fin 128) :
    k3_pay1 (F := Ideal) x0 x1 x2 (ix2 p q)
      = (∑ k : Fin 128, x0 (ix2 p k) * x1 (ix2 k q)) + x2 (ix2 (0 : Fin 1) q) := by
  unfold k3_pay1
  rw [addf_apply, Cert.Lib.rowBroadcast_apply, shapeCast_self, shapeCast_self, shapeCast_self]
  refine congrArg₂ (· + ·) ?_ rfl
  exact Cert.Lib.matmul_zero_apply (M := 2000) (K := 128) (N := 128) dot_S2000x128_S128x128_S2000x128_1_0_0_1_n_n_wf none _ _ p q

/-- Where the blocks sit: at grid point t the row block and the result block are block t along the node axis and block 0
    along the feature axis; the weights and the bias row are block (0, 0), i.e. whole. Decided over the 25 points. -/
theorem blockIndex3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

variable (V : (c : Dev nD) → (b : Ref sig .tc) → Buf (Elt Ideal) ((c : Thread nD τ).loc b))

/-- What grid point t writes back is block t of the dense layer of the whole arrays: entry (p, q) of the block is computed
    from row p of the row block, which is row 2000·t + p of the whole array, and sits at row 2000·t + p of the result. -/
theorem flushed3_eq (c : Dev nD) (t : Fin cfg3.N) :
    (dat3 (F := Ideal) V c).flushed 3 t = ((cfg3.win 3).blk t).view.read (Elt Ideal)
      (Cert.Spec.lin (V c main_v57 : S50000x128.Idx → EReal) (V c main_v59 : S128x128.Idx → EReal) (V c main_v61 : S1x128.Idx → EReal)) := by
  show (cfg3.win 3).cut (grid3.coords t) ((dat3 (F := Ideal) V c).after 3 t) = _
  rw [after3_3]
  unfold out3_3
  rw [View.canon_unit_zero hz3]
  simp only [View.ld_unit_zero (S := S2000x128) hz3, View.ld_unit_zero (S := S128x128) hz3, View.ld_unit_zero (S := S1x128) hz3]
  obtain ⟨e00, e01, e10, e11, e20, e21, e30, e31⟩ := blockIndex3 t
  refine funext fun (j : S2000x128.Idx) => ?_
  obtain ⟨p, q, rfl⟩ : ∃ (p : Fin 2000) (q : Fin 128), j = ix2 p q := ⟨j 0, j 1, eq_ix2 j⟩
  show k3_pay1 (F := Ideal) (iblk3 V c 0 t) (iblk3 V c 1 t) (iblk3 V c 2 t) (ix2 p q)
      = Cert.Spec.lin (V c main_v57 : S50000x128.Idx → EReal) (V c main_v59 : S128x128.Idx → EReal) (V c main_v61 : S1x128.Idx → EReal)
          (((cfg3.win 3).blk t).view.emb (ix2 p q))
  refine (pay3_apply (iblk3 V c 0 t) (iblk3 V c 1 t) (iblk3 V c 2 t) p q).trans ?_
  unfold Cert.Spec.lin
  refine congrArg₂ (· + ·) (Finset.sum_congr rfl fun k _ => congrArg₂ (· * ·) ?_ ?_) ?_
  · show V c main_v57 (((cfg3.win 0).blk t).view.emb (ix2 p k)) = V c main_v57 (ix2 ((((cfg3.win 3).blk t).view.emb (ix2 p q)) 0) k)
    refine congrArg (V c main_v57) (funext fun a => Fin.ext ?_)
    match a with
    | ⟨0, _⟩ => show win3_0.index t (0 : Fin 2) * 2000 + 1 * p.val = win3_3.index t (0 : Fin 2) * 2000 + 1 * p.val; omega
    | ⟨1, _⟩ => show win3_0.index t (1 : Fin 2) * 128 + 1 * k.val = k.val; omega
  · show V c main_v59 (((cfg3.win 1).blk t).view.emb (ix2 k q)) = V c main_v59 (ix2 k ((((cfg3.win 3).blk t).view.emb (ix2 p q)) 1))
    refine congrArg (V c main_v59) (funext fun a => Fin.ext ?_)
    match a with
    | ⟨0, _⟩ => show win3_1.index t (0 : Fin 2) * 128 + 1 * k.val = k.val; omega
    | ⟨1, _⟩ => show win3_1.index t (1 : Fin 2) * 128 + 1 * q.val = win3_3.index t (1 : Fin 2) * 128 + 1 * q.val; omega
  · show V c main_v61 (((cfg3.win 2).blk t).view.emb (ix2 (0 : Fin 1) q)) = V c main_v61 (ix2 (0 : Fin 1) ((((cfg3.win 3).blk t).view.emb (ix2 p q)) 1))
    refine congrArg (V c main_v61) (funext fun a => Fin.ext ?_)
    match a with
    | ⟨0, _⟩ => show win3_2.index t (0 : Fin 2) * 1 + 1 * 0 = 0; omega
    | ⟨1, _⟩ => show win3_2.index t (1 : Fin 2) * 128 + 1 * q.val = win3_3.index t (1 : Fin 2) * 128 + 1 * q.val; omega

/-- An index of the result array lies in point t's block iff each coordinate lies in the block's range on its axis. -/
theorem mem_blk3 (t : Fin cfg3.N) (i : S50000x128.Idx) :
    i ∈ ((cfg3.win 3).blk t).view.set ↔ ∀ a : Fin 2, win3_3.index t a * S2000x128.size a ≤ (i a).val ∧ (i a).val < win3_3.index t a * S2000x128.size a + S2000x128.size a := by
  show i ∈ ((View.whole main_v62).slice (win3_3.rect t)).set ↔ _
  rw [View.set_slice_whole, Rect.mem_set_unit]
  exact Iff.rfl

/-- The blocks tile the result: 25 · 2000 = 50000, so row r lies in the block of point r / 2000, and every block spans all
    128 columns. -/
theorem cover3 (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 25 := N_3
  let t : Fin cfg3.N := ⟨(i 0).val / 2000, by rw [hN]; omega⟩
  obtain ⟨-, -, -, -, -, -, e30, e31⟩ := blockIndex3 t
  have ht : t.val = (i 0).val / 2000 := rfl
  refine ⟨t, flush3_3 t, ?_⟩
  rw [mem_blk3]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 128 ≤ (i 1).val ∧ (i 1).val < win3_3.index t (1 : Fin 2) * 128 + 128; omega

/-- The result array after the stage is the dense layer of the whole arrays as the stage found them. -/
theorem region3 (c : Dev nD) :
    ((dat3 (F := Ideal) V c).arrAt 3 cfg3.N : S50000x128.Idx → EReal)
      = Cert.Spec.lin (V c main_v57 : S50000x128.Idx → EReal) (V c main_v59 : S128x128.Idx → EReal) (V c main_v61 : S1x128.Idx → EReal) :=
  (dat3 (F := Ideal) V c).arrAt_eq_of_cover 3 _ (fun t _ => flushed3_eq V c t) (cover3)

end Cert.KernelIdeal.RegionValue

end
-- ==== Proof.RefStagesH1.lean ====
/-
  The reference program's layer 1 tail (the node's own message weighted by its self-loop coefficient, the bias, the
  normalisation of each node's 128-entry row by its own mean and variance, the scale and shift, the clamp at zero and
  the residual), compared with the shared index-by-index specification `Cert.Spec.combine`.

  Every operation of this tail is pointwise in the node index p, except the two row sums, which run over the 128
  features of the same node; the broadcasts and the slices of the stacked parameters only rename indices. So the value
  at (p,q) is an expression in row p of the aggregate and of the layer's product, entry p of the self-loop coefficients,
  row 0 of each stacked parameter, and entry (p,q) of the residual — the expression `Cert.Spec.combine` names.
-/
import proofs.«107958_j12893491822680_1_alg».proof.Proof.RefReadP
import proofs.«107958_j12893491822680_1_alg».proof.Proof.Spec

noncomputable section

namespace Cert.ReferenceIdeal.RefValue

open Cert.ReferenceIdeal Cert.ReferenceIdeal.Read Idealize.ShloMosaic Idealize.ShloMosaic.ValueIdx

/-- One graph-convolution layer's tail, read index by index: the pre-activation row (aggregate, self-loop term, bias),
    its mean and variance over the 128 features, the normalised, scaled and shifted entry, the clamp at zero and the
    residual. The aggregate, the layer's product, the self-loop coefficients and the residual are opaque arrays: each
    step ends by naming them as variables, so that the two sides are compared as expressions in those variables only. -/
theorem stage_h1 (x0 : (⟨S50000x256, .f32⟩ : BufTy).Contents (Elt Ideal)) (x1 : (⟨S2x800000, .i32⟩ : BufTy).Contents (Elt Ideal)) (x2 : (⟨S256x128, .f32⟩ : BufTy).Contents (Elt Ideal)) (x3 : (⟨S128, .f32⟩ : BufTy).Contents (Elt Ideal)) (x4 : (⟨S3x128x128, .f32⟩ : BufTy).Contents (Elt Ideal)) (x5 : (⟨S3x128, .f32⟩ : BufTy).Contents (Elt Ideal)) (x6 : (⟨S3x128, .f32⟩ : BufTy).Contents (Elt Ideal)) (x7 : (⟨S3x128, .f32⟩ : BufTy).Contents (Elt Ideal)) :
    (val_main_v86 (F := Ideal) x0 x1 x2 x3 x4 x5 x6 x7)
      = Cert.Spec.combine (val_main_v48 (F := Ideal) x0 x1 x2 x3 x4) (val_main_v35 (F := Ideal) x0 x2 x3 x4) (Cert.Spec.col (val_main_v26 (F := Ideal) x1)) (Cert.Spec.layerRow x5 0) (Cert.Spec.layerRow x6 0) (Cert.Spec.layerRow x7 0) (val_main_v32 (F := Ideal) x0 x2 x3) := by
  -- the pre-activation entry
  have hpre : ∀ j : S50000x128.Idx, (val_main_v56 (F := Ideal) x0 x1 x2 x3 x4 x5) j = Cert.Spec.preact (val_main_v48 (F := Ideal) x0 x1 x2 x3 x4) (val_main_v35 (F := Ideal) x0 x2 x3 x4) (Cert.Spec.col (val_main_v26 (F := Ideal) x1)) (Cert.Spec.layerRow x5 0) (j 0) (j 1) := by
    intro j
    obtain ⟨p, q, rfl⟩ : ∃ p q, j = ix2 p q := ⟨j 0, j 1, eq_ix2 j⟩
    rw [val_main_v56_apply, val_main_v51_apply, val_main_v50_apply, val_main_v49_apply, val_main_v27_apply, val_main_v55_apply, val_main_v54_apply, val_main_v53_apply, val_main_v52_apply]
    have e1 : idx_main_v27 (idx_main_v49 (ix2 p q)) = ix1 p :=
      funext fun a => Fin.ext (by match a with | ⟨0, _⟩ => rfl)
    have e2 : idx_main_v52 (idx_main_v53 (idx_main_v54 (idx_main_v55 (ix2 p q)))) = ix2 (0 : Fin 3) q :=
      funext fun a => Fin.ext (by
      match a with
      | ⟨0, _⟩ => rfl
      | ⟨1, _⟩ => exact Nat.mod_eq_of_lt q.isLt)
    rw [e1, e2]
    generalize (val_main_v48 (F := Ideal) x0 x1 x2 x3 x4) = A
    generalize (val_main_v35 (F := Ideal) x0 x2 x3 x4) = M
    generalize (val_main_v26 (F := Ideal) x1) = D
    rfl
  -- the mean of the row
  have hmean : ∀ j : S50000x1.Idx, (val_main_v64 (F := Ideal) x0 x1 x2 x3 x4 x5) j = Cert.Spec.mean128 (Cert.Spec.preact (val_main_v48 (F := Ideal) x0 x1 x2 x3 x4) (val_main_v35 (F := Ideal) x0 x2 x3 x4) (Cert.Spec.col (val_main_v26 (F := Ideal) x1)) (Cert.Spec.layerRow x5 0) (j 0)) := by
    intro j
    rw [val_main_v64_apply, val_main_v62_apply, val_main_v61_apply, val_main_v63_apply, val_main_cst_9_apply, val_main_cst_8_apply]
    simp only [hpre, Ideal.ofBits_def, Ideal.ofBits_zero_f32, zero_add, Ideal.hostDivf_def]
    generalize (val_main_v48 (F := Ideal) x0 x1 x2 x3 x4) = A
    generalize (val_main_v35 (F := Ideal) x0 x2 x3 x4) = M
    generalize (val_main_v26 (F := Ideal) x1) = D
    rfl
  -- the centred entry
  have hcen : ∀ j : S50000x128.Idx, (val_main_v66 (F := Ideal) x0 x1 x2 x3 x4 x5) j = Cert.Spec.preact (val_main_v48 (F := Ideal) x0 x1 x2 x3 x4) (val_main_v35 (F := Ideal) x0 x2 x3 x4) (Cert.Spec.col (val_main_v26 (F := Ideal) x1)) (Cert.Spec.layerRow x5 0) (j 0) (j 1) - Cert.Spec.mean128 (Cert.Spec.preact (val_main_v48 (F := Ideal) x0 x1 x2 x3 x4) (val_main_v35 (F := Ideal) x0 x2 x3 x4) (Cert.Spec.col (val_main_v26 (F := Ideal) x1)) (Cert.Spec.layerRow x5 0) (j 0)) := by
    intro j
    rw [val_main_v66_apply, val_main_v65_apply, hpre, hmean]
    generalize (val_main_v48 (F := Ideal) x0 x1 x2 x3 x4) = A
    generalize (val_main_v35 (F := Ideal) x0 x2 x3 x4) = M
    generalize (val_main_v26 (F := Ideal) x1) = D
    rfl
  -- the squared centred entry
  have hsq : ∀ j : S50000x128.Idx, (val_main_v67 (F := Ideal) x0 x1 x2 x3 x4 x5) j
      = (Cert.Spec.preact (val_main_v48 (F := Ideal) x0 x1 x2 x3 x4) (val_main_v35 (F := Ideal) x0 x2 x3 x4) (Cert.Spec.col (val_main_v26 (F := Ideal) x1)) (Cert.Spec.layerRow x5 0) (j 0) (j 1) - Cert.Spec.mean128 (Cert.Spec.preact (val_main_v48 (F := Ideal) x0 x1 x2 x3 x4) (val_main_v35 (F := Ideal) x0 x2 x3 x4) (Cert.Spec.col (val_main_v26 (F := Ideal) x1)) (Cert.Spec.layerRow x5 0) (j 0)))
          * (Cert.Spec.preact (val_main_v48 (F := Ideal) x0 x1 x2 x3 x4) (val_main_v35 (F := Ideal) x0 x2 x3 x4) (Cert.Spec.col (val_main_v26 (F := Ideal) x1)) (Cert.Spec.layerRow x5 0) (j 0) (j 1) - Cert.Spec.mean128 (Cert.Spec.preact (val_main_v48 (F := Ideal) x0 x1 x2 x3 x4) (val_main_v35 (F := Ideal) x0 x2 x3 x4) (Cert.Spec.col (val_main_v26 (F := Ideal) x1)) (Cert.Spec.layerRow x5 0) (j 0))) := by
    intro j
    rw [val_main_v67_apply, hcen]
    generalize (val_main_v48 (F := Ideal) x0 x1 x2 x3 x4) = A
    generalize (val_main_v35 (F := Ideal) x0 x2 x3 x4) = M
    generalize (val_main_v26 (F := Ideal) x1) = D
    rfl
  -- the variance of the row
  have hvar : ∀ j : S50000x1.Idx, (val_main_v71 (F := Ideal) x0 x1 x2 x3 x4 x5) j
      = Cert.Spec.mean128 (fun k => (Cert.Spec.preact (val_main_v48 (F := Ideal) x0 x1 x2 x3 x4) (val_main_v35 (F := Ideal) x0 x2 x3 x4) (Cert.Spec.col (val_main_v26 (F := Ideal) x1)) (Cert.Spec.layerRow x5 0) (j 0) k - Cert.Spec.mean128 (Cert.Spec.preact (val_main_v48 (F := Ideal) x0 x1 x2 x3 x4) (val_main_v35 (F := Ideal) x0 x2 x3 x4) (Cert.Spec.col (val_main_v26 (F := Ideal) x1)) (Cert.Spec.layerRow x5 0) (j 0)))
          * (Cert.Spec.preact (val_main_v48 (F := Ideal) x0 x1 x2 x3 x4) (val_main_v35 (F := Ideal) x0 x2 x3 x4) (Cert.Spec.col (val_main_v26 (F := Ideal) x1)) (Cert.Spec.layerRow x5 0) (j 0) k - Cert.Spec.mean128 (Cert.Spec.preact (val_main_v48 (F := Ideal) x0 x1 x2 x3 x4) (val_main_v35 (F := Ideal) x0 x2 x3 x4) (Cert.Spec.col (val_main_v26 (F := Ideal) x1)) (Cert.Spec.layerRow x5 0) (j 0)))) := by
    intro j
    rw [val_main_v71_apply, val_main_v69_apply, val_main_v68_apply, val_main_v70_apply, val_main_cst_11_apply, val_main_cst_10_apply]
    simp only [hsq, Ideal.ofBits_def, Ideal.ofBits_zero_f32, zero_add, Ideal.hostDivf_def]
    generalize (val_main_v48 (F := Ideal) x0 x1 x2 x3 x4) = A
    generalize (val_main_v35 (F := Ideal) x0 x2 x3 x4) = M
    generalize (val_main_v26 (F := Ideal) x1) = D
    rfl
  funext i
  rw [val_main_v86_apply, val_main_v85_apply, val_main_v84_apply, val_main_v81_apply, val_main_v78_apply, val_main_v73_apply, val_main_v72_apply, val_main_v77_apply, val_main_v76_apply, val_main_v75_apply, val_main_v74_apply, val_main_cst_12_apply, val_main_v80_apply, val_main_v79_apply, val_main_v58_apply, val_main_v57_apply, val_main_v83_apply, val_main_v82_apply, val_main_v60_apply, val_main_v59_apply,
    val_main_call1_v0_apply, val_main_call1_cst_apply, hpre, hmean, hvar]
  have eg : idx_main_v57 (idx_main_v58 (idx_main_v79 (idx_main_v80 i))) = ix2 (0 : Fin 3) (i 1) :=
    funext fun a => Fin.ext (by
      match a with
      | ⟨0, _⟩ => rfl
      | ⟨1, _⟩ => exact Nat.mod_eq_of_lt (i 1).isLt)
  have eb : idx_main_v59 (idx_main_v60 (idx_main_v82 (idx_main_v83 i))) = ix2 (0 : Fin 3) (i 1) :=
    funext fun a => Fin.ext (by
      match a with
      | ⟨0, _⟩ => rfl
      | ⟨1, _⟩ => exact Nat.mod_eq_of_lt (i 1).isLt)
  rw [eg, eb]
  generalize (val_main_v48 (F := Ideal) x0 x1 x2 x3 x4) = A
  generalize (val_main_v35 (F := Ideal) x0 x2 x3 x4) = M
  generalize (val_main_v26 (F := Ideal) x1) = D
  generalize (val_main_v32 (F := Ideal) x0 x2 x3) = R
  rfl

end Cert.ReferenceIdeal.RefValue

end
-- ==== Proof.Region0.lean ====
/-
  The input dense layer with its clamp at zero, tiled over the node axis.

  Entry (r, q) of the stage's result depends on row r of the node array x [50000, 256], on column q of the weight matrix
  w [256, 128] and on entry (0, q) of the bias row b [1, 128]: it is max ((Σ_k x[r,k]·w[k,q]) + b[0,q]) 0.

  The stage visits 25 grid points. At point t it is handed rows 2000·t … 2000·t + 1999 of x (all 256 columns), the whole of
  w and the whole of b, and it writes rows 2000·t … 2000·t + 1999 of the result (all 128 columns). Inside a block, entry
  (p, q) is computed from row p of the x block, which is row 2000·t + p of x, so every block is the restriction of the one
  whole-array function to its rows. Since 25 · 2000 = 50000, row r lies in the block of point r / 2000: the blocks tile
  the result array, and the array after the stage is that function everywhere. The sum over k is a finite sum of extended
  reals, the same on both sides term by term; the tiling never splits it.
-/
import proofs.«107958_j12893491822680_1_alg».proof.Proof.Gen.KernelIdeal.Frame
import proofs.«107958_j12893491822680_1_alg».proof.Proof.Spec
import proofs.«107958_j12893491822680_1_alg».proof.Proof.LibPlainDot
import proofs.«107958_j12893491822680_1_alg».proof.Proof.LibRowLayout
import Idealize.ShloMosaic.Lib.ValueIdx
import Idealize.ShloMosaic.Lib.Pipeline.Value

noncomputable section

namespace Cert.KernelIdeal.RegionValue

open Cert.KernelIdeal Cert.KernelIdeal.Gen Idealize.ShloMosaic Idealize.ShloMosaic.TcCoe Idealize.ShloMosaic.ValueIdx Idealize.SL.Sem

/-- The offset (0, 0) of a block read or written whole. -/
theorem hz0 : (![0, 0] : Fin 2 → Nat) = fun _ => 0 := funext fun a => by fin_cases a <;> rfl

/-- One block's arithmetic at the entry (p, q): the product of row p of the row block with column q of the weights,
    summed over the 256 shared positions, plus the bias row's entry q, clamped below at zero. Changes of float format and re-layouts of a
    shape to itself do nothing over the extended reals. -/
theorem pay0_apply (x0 : Vec Ideal S2000x256 .f32) (x1 : Vec Ideal S256x128 .f32) (x2 : Vec Ideal S1x128 .f32)
    (p : Fin 2000) (q : Fin 128) :
    k0_pay1 (F := Ideal) x0 x1 x2 (ix2 p q)
      = max ((∑ k : Fin 256, x0 (ix2 p k) * x1 (ix2 k q)) + x2 (ix2 (0 : Fin 1) q)) (Ideal.ofBits .f32 0x00000000#32) := by
  unfold k0_pay1
  rw [maximumf_apply, addf_apply, broadcast_apply, Cert.Lib.rowBroadcast_apply, shapeCast_self]
  refine congrArg₂ max (congrArg₂ (· + ·) ?_ rfl) rfl
  exact Cert.Lib.matmul_zero_apply (M := 2000) (K := 256) (N := 128) dot_S2000x256_S256x128_S2000x128_1_0_0_1_n_n_wf none _ _ p q

/-- Where the blocks sit: at grid point t the row block and the result block are block t along the node axis and block 0
    along the feature axis; the weights and the bias row are block (0, 0), i.e. whole. Decided over the 25 points. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- What grid point t writes back is block t of the dense layer of the whole arrays: entry (p, q) of the block is computed
    from row p of the row block, which is row 2000·t + p of the whole array, and sits at row 2000·t + p of the result. -/
theorem flushed0_eq (c : Dev nD) (t : Fin cfg0.N) :
    (dat0 (F := Ideal) V c).flushed 3 t = ((cfg0.win 3).blk t).view.read (Elt Ideal)
      (Cert.Spec.linRelu (V c main_arg0 : S50000x256.Idx → EReal) (V c main_arg2 : S256x128.Idx → EReal) (V c main_v28 : S1x128.Idx → EReal)) := by
  show (cfg0.win 3).cut (grid0.coords t) ((dat0 (F := Ideal) V c).after 3 t) = _
  rw [after0_3]
  unfold out0_3
  rw [View.canon_unit_zero hz0]
  simp only [View.ld_unit_zero (S := S2000x256) hz0, View.ld_unit_zero (S := S256x128) hz0, View.ld_unit_zero (S := S1x128) hz0]
  obtain ⟨e00, e01, e10, e11, e20, e21, e30, e31⟩ := blockIndex0 t
  refine funext fun (j : S2000x128.Idx) => ?_
  obtain ⟨p, q, rfl⟩ : ∃ (p : Fin 2000) (q : Fin 128), j = ix2 p q := ⟨j 0, j 1, eq_ix2 j⟩
  show k0_pay1 (F := Ideal) (iblk0 V c 0 t) (iblk0 V c 1 t) (iblk0 V c 2 t) (ix2 p q)
      = Cert.Spec.linRelu (V c main_arg0 : S50000x256.Idx → EReal) (V c main_arg2 : S256x128.Idx → EReal) (V c main_v28 : S1x128.Idx → EReal)
          (((cfg0.win 3).blk t).view.emb (ix2 p q))
  refine (pay0_apply (iblk0 V c 0 t) (iblk0 V c 1 t) (iblk0 V c 2 t) p q).trans ?_
  unfold Cert.Spec.linRelu Cert.Spec.lin
  refine congrArg₂ max (congrArg₂ (· + ·) (Finset.sum_congr rfl fun k _ => congrArg₂ (· * ·) ?_ ?_) ?_) rfl
  · show V c main_arg0 (((cfg0.win 0).blk t).view.emb (ix2 p k)) = V c main_arg0 (ix2 ((((cfg0.win 3).blk t).view.emb (ix2 p q)) 0) k)
    refine congrArg (V c main_arg0) (funext fun a => Fin.ext ?_)
    match a with
    | ⟨0, _⟩ => show win0_0.index t (0 : Fin 2) * 2000 + 1 * p.val = win0_3.index t (0 : Fin 2) * 2000 + 1 * p.val; omega
    | ⟨1, _⟩ => show win0_0.index t (1 : Fin 2) * 256 + 1 * k.val = k.val; omega
  · show V c main_arg2 (((cfg0.win 1).blk t).view.emb (ix2 k q)) = V c main_arg2 (ix2 k ((((cfg0.win 3).blk t).view.emb (ix2 p q)) 1))
    refine congrArg (V c main_arg2) (funext fun a => Fin.ext ?_)
    match a with
    | ⟨0, _⟩ => show win0_1.index t (0 : Fin 2) * 256 + 1 * k.val = k.val; omega
    | ⟨1, _⟩ => show win0_1.index t (1 : Fin 2) * 128 + 1 * q.val = win0_3.index t (1 : Fin 2) * 128 + 1 * q.val; omega
  · show V c main_v28 (((cfg0.win 2).blk t).view.emb (ix2 (0 : Fin 1) q)) = V c main_v28 (ix2 (0 : Fin 1) ((((cfg0.win 3).blk t).view.emb (ix2 p q)) 1))
    refine congrArg (V c main_v28) (funext fun a => Fin.ext ?_)
    match a with
    | ⟨0, _⟩ => show win0_2.index t (0 : Fin 2) * 1 + 1 * 0 = 0; omega
    | ⟨1, _⟩ => show win0_2.index t (1 : Fin 2) * 128 + 1 * q.val = win0_3.index t (1 : Fin 2) * 128 + 1 * q.val; omega

/-- An index of the result array lies in point t's block iff each coordinate lies in the block's range on its axis. -/
theorem mem_blk0 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v29).slice (win0_3.rect t)).set ↔ _
  rw [View.set_slice_whole, Rect.mem_set_unit]
  exact Iff.rfl

/-- The blocks tile the result: 25 · 2000 = 50000, so row r lies in the block of point r / 2000, and every block spans all
    128 columns. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  obtain ⟨-, -, -, -, -, -, e30, e31⟩ := blockIndex0 t
  have ht : t.val = (i 0).val / 2000 := rfl
  refine ⟨t, flush0_3 t, ?_⟩
  rw [mem_blk0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- The result array after the stage is the dense layer of the whole arrays as the stage found them. -/
theorem region0 (c : Dev nD) :
    ((dat0 (F := Ideal) V c).arrAt 3 cfg0.N : S50000x128.Idx → EReal)
      = Cert.Spec.linRelu (V c main_arg0 : S50000x256.Idx → EReal) (V c main_arg2 : S256x128.Idx → EReal) (V c main_v28 : S1x128.Idx → EReal) :=
  (dat0 (F := Ideal) V c).arrAt_eq_of_cover 3 _ (fun t _ => flushed0_eq V c t) (cover0)

end Cert.KernelIdeal.RegionValue

end
-- ==== Proof.Region1.lean ====
/-
  The first layer's message product (a dense layer 128 → 128), tiled over the node axis.

  Entry (r, q) of the stage's result depends on row r of the node array x [50000, 128], on column q of the weight matrix
  w [128, 128] and on entry (0, q) of the bias row b [1, 128]: it is (Σ_k x[r,k]·w[k,q]) + b[0,q].

  The stage visits 25 grid points. At point t it is handed rows 2000·t … 2000·t + 1999 of x (all 128 columns), the whole of
  w and the whole of b, and it writes rows 2000·t … 2000·t + 1999 of the result (all 128 columns). Inside a block, entry
  (p, q) is computed from row p of the x block, which is row 2000·t + p of x, so every block is the restriction of the one
  whole-array function to its rows. Since 25 · 2000 = 50000, row r lies in the block of point r / 2000: the blocks tile
  the result array, and the array after the stage is that function everywhere. The sum over k is a finite sum of extended
  reals, the same on both sides term by term; the tiling never splits it.
-/
import proofs.«107958_j12893491822680_1_alg».proof.Proof.Gen.KernelIdeal.Frame
import proofs.«107958_j12893491822680_1_alg».proof.Proof.Spec
import proofs.«107958_j12893491822680_1_alg».proof.Proof.LibPlainDot
import proofs.«107958_j12893491822680_1_alg».proof.Proof.LibRowLayout
import Idealize.ShloMosaic.Lib.ValueIdx
import Idealize.ShloMosaic.Lib.Pipeline.Value

noncomputable section

namespace Cert.KernelIdeal.RegionValue

open Cert.KernelIdeal Cert.KernelIdeal.Gen Idealize.ShloMosaic Idealize.ShloMosaic.TcCoe Idealize.ShloMosaic.ValueIdx Idealize.SL.Sem

/-- The offset (0, 0) of a block read or written whole. -/
theorem hz1 : (![0, 0] : Fin 2 → Nat) = fun _ => 0 := funext fun a => by fin_cases a <;> rfl

/-- One block's arithmetic at the entry (p, q): the product of row p of the row block with column q of the weights,
    summed over the 128 shared positions, plus the bias row's entry q. Changes of float format and re-layouts of a
    shape to itself do nothing over the extended reals. -/
theorem pay1_apply (x0 : Vec Ideal S2000x128 .f32) (x1 : Vec Ideal S128x128 .f32) (x2 : Vec Ideal S1x128 .f32)
    (p : Fin 2000) (q : Fin 128) :
    k1_pay1 (F := Ideal) x0 x1 x2 (ix2 p q)
      = (∑ k : Fin 128, x0 (ix2 p k) * x1 (ix2 k q)) + x2 (ix2 (0 : Fin 1) q) := by
  unfold k1_pay1
  rw [addf_apply, Cert.Lib.rowBroadcast_apply, shapeCast_self, shapeCast_self, shapeCast_self]
  refine congrArg₂ (· + ·) ?_ rfl
  exact Cert.Lib.matmul_zero_apply (M := 2000) (K := 128) (N := 128) dot_S2000x128_S128x128_S2000x128_1_0_0_1_n_n_wf none _ _ p q

/-- Where the blocks sit: at grid point t the row block and the result block are block t along the node axis and block 0
    along the feature axis; the weights and the bias row are block (0, 0), i.e. whole. Decided over the 25 points. -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- What grid point t writes back is block t of the dense layer of the whole arrays: entry (p, q) of the block is computed
    from row p of the row block, which is row 2000·t + p of the whole array, and sits at row 2000·t + p of the result. -/
theorem flushed1_eq (c : Dev nD) (t : Fin cfg1.N) :
    (dat1 (F := Ideal) V c).flushed 3 t = ((cfg1.win 3).blk t).view.read (Elt Ideal)
      (Cert.Spec.lin (V c main_v29 : S50000x128.Idx → EReal) (V c main_v31 : S128x128.Idx → EReal) (V c main_v33 : S1x128.Idx → EReal)) := by
  show (cfg1.win 3).cut (grid1.coords t) ((dat1 (F := Ideal) V c).after 3 t) = _
  rw [after1_3]
  unfold out1_3
  rw [View.canon_unit_zero hz1]
  simp only [View.ld_unit_zero (S := S2000x128) hz1, View.ld_unit_zero (S := S128x128) hz1, View.ld_unit_zero (S := S1x128) hz1]
  obtain ⟨e00, e01, e10, e11, e20, e21, e30, e31⟩ := blockIndex1 t
  refine funext fun (j : S2000x128.Idx) => ?_
  obtain ⟨p, q, rfl⟩ : ∃ (p : Fin 2000) (q : Fin 128), j = ix2 p q := ⟨j 0, j 1, eq_ix2 j⟩
  show k1_pay1 (F := Ideal) (iblk1 V c 0 t) (iblk1 V c 1 t) (iblk1 V c 2 t) (ix2 p q)
      = Cert.Spec.lin (V c main_v29 : S50000x128.Idx → EReal) (V c main_v31 : S128x128.Idx → EReal) (V c main_v33 : S1x128.Idx → EReal)
          (((cfg1.win 3).blk t).view.emb (ix2 p q))
  refine (pay1_apply (iblk1 V c 0 t) (iblk1 V c 1 t) (iblk1 V c 2 t) p q).trans ?_
  unfold Cert.Spec.lin
  refine congrArg₂ (· + ·) (Finset.sum_congr rfl fun k _ => congrArg₂ (· * ·) ?_ ?_) ?_
  · show V c main_v29 (((cfg1.win 0).blk t).view.emb (ix2 p k)) = V c main_v29 (ix2 ((((cfg1.win 3).blk t).view.emb (ix2 p q)) 0) k)
    refine congrArg (V c main_v29) (funext fun a => Fin.ext ?_)
    match a with
    | ⟨0, _⟩ => show win1_0.index t (0 : Fin 2) * 2000 + 1 * p.val = win1_3.index t (0 : Fin 2) * 2000 + 1 * p.val; omega
    | ⟨1, _⟩ => show win1_0.index t (1 : Fin 2) * 128 + 1 * k.val = k.val; omega
  · show V c main_v31 (((cfg1.win 1).blk t).view.emb (ix2 k q)) = V c main_v31 (ix2 k ((((cfg1.win 3).blk t).view.emb (ix2 p q)) 1))
    refine congrArg (V c main_v31) (funext fun a => Fin.ext ?_)
    match a with
    | ⟨0, _⟩ => show win1_1.index t (0 : Fin 2) * 128 + 1 * k.val = k.val; omega
    | ⟨1, _⟩ => show win1_1.index t (1 : Fin 2) * 128 + 1 * q.val = win1_3.index t (1 : Fin 2) * 128 + 1 * q.val; omega
  · show V c main_v33 (((cfg1.win 2).blk t).view.emb (ix2 (0 : Fin 1) q)) = V c main_v33 (ix2 (0 : Fin 1) ((((cfg1.win 3).blk t).view.emb (ix2 p q)) 1))
    refine congrArg (V c main_v33) (funext fun a => Fin.ext ?_)
    match a with
    | ⟨0, _⟩ => show win1_2.index t (0 : Fin 2) * 1 + 1 * 0 = 0; omega
    | ⟨1, _⟩ => show win1_2.index t (1 : Fin 2) * 128 + 1 * q.val = win1_3.index t (1 : Fin 2) * 128 + 1 * q.val; omega

/-- An index of the result array lies in point t's block iff each coordinate lies in the block's range on its axis. -/
theorem mem_blk1 (t : Fin cfg1.N) (i : S50000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v34).slice (win1_3.rect t)).set ↔ _
  rw [View.set_slice_whole, Rect.mem_set_unit]
  exact Iff.rfl

/-- The blocks tile the result: 25 · 2000 = 50000, so row r lies in the block of point r / 2000, and every block spans all
    128 columns. -/
theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  obtain ⟨-, -, -, -, -, -, e30, e31⟩ := blockIndex1 t
  have ht : t.val = (i 0).val / 2000 := rfl
  refine ⟨t, flush1_3 t, ?_⟩
  rw [mem_blk1]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 128 ≤ (i 1).val ∧ (i 1).val < win1_3.index t (1 : Fin 2) * 128 + 128; omega

/-- The result array after the stage is the dense layer of the whole arrays as the stage found them. -/
theorem region1 (c : Dev nD) :
    ((dat1 (F := Ideal) V c).arrAt 3 cfg1.N : S50000x128.Idx → EReal)
      = Cert.Spec.lin (V c main_v29 : S50000x128.Idx → EReal) (V c main_v31 : S128x128.Idx → EReal) (V c main_v33 : S1x128.Idx → EReal) :=
  (dat1 (F := Ideal) V c).arrAt_eq_of_cover 3 _ (fun t _ => flushed1_eq V c t) (cover1)

end Cert.KernelIdeal.RegionValue

end
-- ==== Proof.Chain1.lean ====
/-
  The idealized kernel's buffers, boundary by boundary (part 1 of 4). @main is a stretch of host operations, then a
  pallas_call, eight times over; at each of the sixteen boundaries the buffers still to be read hold the REFERENCE's
  values of the same launch arguments: the edge endpoints, the edge normalisation and the self-loop coefficient after the
  first stretch; after each dense pallas_call the dense stage of the network it tiles (a block of 2000 rows at a time,
  every row's entry the same finite sum whatever the tiling); after each layer's host stretch the neighbours' aggregate —
  the same gather, product and scatter-add applied to arrays already known to agree —; and a buffer that a stretch or a
  pallas_call does not write is carried across it unchanged. The last boundary's fact is the result array.
-/
import proofs.«107958_j12893491822680_1_alg».proof.Proof.Gen.KernelIdeal.Frame
import proofs.«107958_j12893491822680_1_alg».proof.Proof.RefReadP
import proofs.«107958_j12893491822680_1_alg».proof.Proof.Spec
import proofs.«107958_j12893491822680_1_alg».proof.Proof.Glue
import proofs.«107958_j12893491822680_1_alg».proof.Proof.LibHostLine
import proofs.«107958_j12893491822680_1_alg».proof.Proof.Region0
import proofs.«107958_j12893491822680_1_alg».proof.Proof.Region1
import proofs.«107958_j12893491822680_1_alg».proof.Proof.RefStages
import Idealize.ShloMosaic.Lib.StableHlo.Run
import Idealize.ShloMosaic.Lib.Pipeline.Value

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- A line of operations is its first `n` followed by the rest. -/
theorem after_take_drop {τ : Topo} {sig : RefSig} {Val : EltTy → Type} (n : Nat) (l : List (HloOp τ sig Val)) (V : Valuation τ sig Val) :
    StableHlo.after l V = StableHlo.after (l.drop n) (StableHlo.after (l.take n) V) := by
  rw [← Cert.Lib.after_append, List.take_append_drop]

/-- A buffer none of a stretch's operations writes holds after the stretch what it held before. -/
macro "keep_host " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))

/-- The same for the operations of a stretch that come after a given one. -/
macro "keep_drop " ops:ident : tactic => `(tactic|
  exact StableHlo.after_of_forall_not_mem _ _ (List.forall_iff_forall_mem.mp (by
    simp only [$ops:ident, List.drop, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))

/-! ## The launch arguments, and the reference's stages of them -/

abbrev a0 : S50000x256.Idx → EReal := m ((c : Thread nD τ).loc main_arg0)
abbrev a1 : S2x800000.Idx → Elt Ideal .i32 := m ((c : Thread nD τ).loc main_arg1)
abbrev a2 : S256x128.Idx → EReal := m ((c : Thread nD τ).loc main_arg2)
abbrev a3 : S128.Idx → EReal := m ((c : Thread nD τ).loc main_arg3)
abbrev a4 : S3x128x128.Idx → EReal := m ((c : Thread nD τ).loc main_arg4)
abbrev a5 : S3x128.Idx → EReal := m ((c : Thread nD τ).loc main_arg5)
abbrev a6 : S3x128.Idx → EReal := m ((c : Thread nD τ).loc main_arg6)
abbrev a7 : S3x128.Idx → EReal := m ((c : Thread nD τ).loc main_arg7)
abbrev a8 : S128x32.Idx → EReal := m ((c : Thread nD τ).loc main_arg8)
abbrev a9 : S32.Idx → EReal := m ((c : Thread nD τ).loc main_arg9)

/-- the source endpoint of every edge -/
abbrev rSrc := Cert.ReferenceIdeal.Read.val_main_v1 (F := Ideal) (a1 m c)
/-- the destination endpoint of every edge -/
abbrev rDst := Cert.ReferenceIdeal.Read.val_main_v3 (F := Ideal) (a1 m c)
/-- the symmetric normalisation of every edge -/
abbrev rNrm := Cert.ReferenceIdeal.Read.val_main_v25 (F := Ideal) (a1 m c)
/-- the self-loop coefficient of every node -/
abbrev rDD := Cert.ReferenceIdeal.Read.val_main_v26 (F := Ideal) (a1 m c)
/-- the input projection -/
abbrev rH0 := Cert.ReferenceIdeal.Read.val_main_v32 (F := Ideal) (a0 m c) (a2 m c) (a3 m c)
/-- layer 1: weights, messages, aggregate, output -/
abbrev rW1 := Cert.ReferenceIdeal.Read.val_main_v34 (F := Ideal) (a4 m c)
abbrev rM1 := Cert.ReferenceIdeal.Read.val_main_v35 (F := Ideal) (a0 m c) (a2 m c) (a3 m c) (a4 m c)
abbrev rAgg1 := Cert.ReferenceIdeal.Read.val_main_v48 (F := Ideal) (a0 m c) (a1 m c) (a2 m c) (a3 m c) (a4 m c)
abbrev rH1 := Cert.ReferenceIdeal.Read.val_main_v86 (F := Ideal) (a0 m c) (a1 m c) (a2 m c) (a3 m c) (a4 m c) (a5 m c) (a6 m c) (a7 m c)
/-- layer 2 -/
abbrev rW2 := Cert.ReferenceIdeal.Read.val_main_v88 (F := Ideal) (a4 m c)
abbrev rM2 := Cert.ReferenceIdeal.Read.val_main_v89 (F := Ideal) (a0 m c) (a1 m c) (a2 m c) (a3 m c) (a4 m c) (a5 m c) (a6 m c) (a7 m c)
abbrev rAgg2 := Cert.ReferenceIdeal.Read.val_main_v102 (F := Ideal) (a0 m c) (a1 m c) (a2 m c) (a3 m c) (a4 m c) (a5 m c) (a6 m c) (a7 m c)
abbrev rH2 := Cert.ReferenceIdeal.Read.val_main_v140 (F := Ideal) (a0 m c) (a1 m c) (a2 m c) (a3 m c) (a4 m c) (a5 m c) (a6 m c) (a7 m c)
/-- layer 3 -/
abbrev rW3 := Cert.ReferenceIdeal.Read.val_main_v142 (F := Ideal) (a4 m c)
abbrev rM3 := Cert.ReferenceIdeal.Read.val_main_v143 (F := Ideal) (a0 m c) (a1 m c) (a2 m c) (a3 m c) (a4 m c) (a5 m c) (a6 m c) (a7 m c)
abbrev rAgg3 := Cert.ReferenceIdeal.Read.val_main_v156 (F := Ideal) (a0 m c) (a1 m c) (a2 m c) (a3 m c) (a4 m c) (a5 m c) (a6 m c) (a7 m c)
abbrev rH3 := Cert.ReferenceIdeal.Read.val_main_v194 (F := Ideal) (a0 m c) (a1 m c) (a2 m c) (a3 m c) (a4 m c) (a5 m c) (a6 m c) (a7 m c)
/-- the output projection -/
abbrev rOut := Cert.ReferenceIdeal.Read.val_main_v198 (F := Ideal) (a0 m c) (a1 m c) (a2 m c) (a3 m c) (a4 m c) (a5 m c) (a6 m c) (a7 m c) (a8 m c) (a9 m c)

/-! ## The boundaries -/

/-! ### Boundary 0: the launch memory -/

theorem F0_arg0 : (W0 m ρ c (Proc.devRef .tc main_arg0) : S50000x256.Idx → EReal) = a0 m c := rfl
theorem F0_arg1 : (W0 m ρ c (Proc.devRef .tc main_arg1) : S2x800000.Idx → Elt Ideal .i32) = a1 m c := rfl
theorem F0_arg2 : (W0 m ρ c (Proc.devRef .tc main_arg2) : S256x128.Idx → EReal) = a2 m c := rfl
theorem F0_arg3 : (W0 m ρ c (Proc.devRef .tc main_arg3) : S128.Idx → EReal) = a3 m c := rfl
theorem F0_arg4 : (W0 m ρ c (Proc.devRef .tc main_arg4) : S3x128x128.Idx → EReal) = a4 m c := rfl
theorem F0_arg5 : (W0 m ρ c (Proc.devRef .tc main_arg5) : S3x128.Idx → EReal) = a5 m c := rfl
theorem F0_arg6 : (W0 m ρ c (Proc.devRef .tc main_arg6) : S3x128.Idx → EReal) = a6 m c := rfl
theorem F0_arg7 : (W0 m ρ c (Proc.devRef .tc main_arg7) : S3x128.Idx → EReal) = a7 m c := rfl
theorem F0_arg8 : (W0 m ρ c (Proc.devRef .tc main_arg8) : S128x32.Idx → EReal) = a8 m c := rfl
theorem F0_arg9 : (W0 m ρ c (Proc.devRef .tc main_arg9) : S32.Idx → EReal) = a9 m c := rfl

/-! ### Boundary 1: after host stretch 0 -/

set_option maxHeartbeats 1600000 in
theorem F1_v1 : (W1 m ρ c (Proc.devRef .tc main_v1) : S800000.Idx → Elt Ideal .i32) = rSrc m c := by
  show StableHlo.after hostOps0 (W0 m ρ c) (Proc.devRef .tc main_v1) = _
  rw [after_take_drop 2]
  refine (by keep_drop hostOps0 : _ = _).trans ?_
  simp only [hostOps0, List.take]
  after_results
  rfl
set_option maxHeartbeats 1600000 in
theorem F1_v3 : (W1 m ρ c (Proc.devRef .tc main_v3) : S800000.Idx → Elt Ideal .i32) = rDst m c := by
  show StableHlo.after hostOps0 (W0 m ρ c) (Proc.devRef .tc main_v3) = _
  rw [after_take_drop 4]
  refine (by keep_drop hostOps0 : _ = _).trans ?_
  simp only [hostOps0, List.take]
  after_results
  rfl
set_option maxHeartbeats 1600000 in
theorem F1_v25 : (W1 m ρ c (Proc.devRef .tc main_v25) : S800000.Idx → EReal) = rNrm m c := by
  show StableHlo.after hostOps0 (W0 m ρ c) (Proc.devRef .tc main_v25) = _
  after_results
  rfl
set_option maxHeartbeats 1600000 in
theorem F1_v27 : (W1 m ρ c (Proc.devRef .tc main_v27) : S50000x1.Idx → EReal) = Cert.Spec.col (rDD m c) := by
  show StableHlo.after hostOps0 (W0 m ρ c) (Proc.devRef .tc main_v27) = _
  after_results
  exact Cert.Glue.vecCol (rDD m c) _
set_option maxHeartbeats 1600000 in
theorem F1_v28 : (W1 m ρ c (Proc.devRef .tc main_v28) : S1x128.Idx → EReal) = Cert.Spec.row (a3 m c) := by
  show StableHlo.after hostOps0 (W0 m ρ c) (Proc.devRef .tc main_v28) = _
  after_results
  exact Cert.Glue.vecRow (a3 m c) _
theorem F1_arg0 : (W1 m ρ c (Proc.devRef .tc main_arg0) : S50000x256.Idx → EReal) = a0 m c :=
  (by keep_host hostOps0 : W1 m ρ c (Proc.devRef .tc main_arg0) = W0 m ρ c (Proc.devRef .tc main_arg0)).trans (F0_arg0 m ρ c)
theorem F1_arg2 : (W1 m ρ c (Proc.devRef .tc main_arg2) : S256x128.Idx → EReal) = a2 m c :=
  (by keep_host hostOps0 : W1 m ρ c (Proc.devRef .tc main_arg2) = W0 m ρ c (Proc.devRef .tc main_arg2)).trans (F0_arg2 m ρ c)
theorem F1_arg4 : (W1 m ρ c (Proc.devRef .tc main_arg4) : S3x128x128.Idx → EReal) = a4 m c :=
  (by keep_host hostOps0 : W1 m ρ c (Proc.devRef .tc main_arg4) = W0 m ρ c (Proc.devRef .tc main_arg4)).trans (F0_arg4 m ρ c)
theorem F1_arg5 : (W1 m ρ c (Proc.devRef .tc main_arg5) : S3x128.Idx → EReal) = a5 m c :=
  (by keep_host hostOps0 : W1 m ρ c (Proc.devRef .tc main_arg5) = W0 m ρ c (Proc.devRef .tc main_arg5)).trans (F0_arg5 m ρ c)
theorem F1_arg6 : (W1 m ρ c (Proc.devRef .tc main_arg6) : S3x128.Idx → EReal) = a6 m c :=
  (by keep_host hostOps0 : W1 m ρ c (Proc.devRef .tc main_arg6) = W0 m ρ c (Proc.devRef .tc main_arg6)).trans (F0_arg6 m ρ c)
theorem F1_arg7 : (W1 m ρ c (Proc.devRef .tc main_arg7) : S3x128.Idx → EReal) = a7 m c :=
  (by keep_host hostOps0 : W1 m ρ c (Proc.devRef .tc main_arg7) = W0 m ρ c (Proc.devRef .tc main_arg7)).trans (F0_arg7 m ρ c)
theorem F1_arg8 : (W1 m ρ c (Proc.devRef .tc main_arg8) : S128x32.Idx → EReal) = a8 m c :=
  (by keep_host hostOps0 : W1 m ρ c (Proc.devRef .tc main_arg8) = W0 m ρ c (Proc.devRef .tc main_arg8)).trans (F0_arg8 m ρ c)
theorem F1_arg9 : (W1 m ρ c (Proc.devRef .tc main_arg9) : S32.Idx → EReal) = a9 m c :=
  (by keep_host hostOps0 : W1 m ρ c (Proc.devRef .tc main_arg9) = W0 m ρ c (Proc.devRef .tc main_arg9)).trans (F0_arg9 m ρ c)

/-! ### Boundary 2: after the pallas_call of region 0 -/

theorem F2_v1 : (W2 m ρ c (Proc.devRef .tc main_v1) : S800000.Idx → Elt Ideal .i32) = rSrc m c :=
  (W2_of_ne m ρ c main_v1 (by decide) : W2 m ρ c (Proc.devRef .tc main_v1) = W1 m ρ c (Proc.devRef .tc main_v1)).trans (F1_v1 m ρ c)
theorem F2_v3 : (W2 m ρ c (Proc.devRef .tc main_v3) : S800000.Idx → Elt Ideal .i32) = rDst m c :=
  (W2_of_ne m ρ c main_v3 (by decide) : W2 m ρ c (Proc.devRef .tc main_v3) = W1 m ρ c (Proc.devRef .tc main_v3)).trans (F1_v3 m ρ c)
theorem F2_v25 : (W2 m ρ c (Proc.devRef .tc main_v25) : S800000.Idx → EReal) = rNrm m c :=
  (W2_of_ne m ρ c main_v25 (by decide) : W2 m ρ c (Proc.devRef .tc main_v25) = W1 m ρ c (Proc.devRef .tc main_v25)).trans (F1_v25 m ρ c)
theorem F2_v27 : (W2 m ρ c (Proc.devRef .tc main_v27) : S50000x1.Idx → EReal) = Cert.Spec.col (rDD m c) :=
  (W2_of_ne m ρ c main_v27 (by decide) : W2 m ρ c (Proc.devRef .tc main_v27) = W1 m ρ c (Proc.devRef .tc main_v27)).trans (F1_v27 m ρ c)
theorem F2_v29 : (W2 m ρ c (Proc.devRef .tc main_v29) : S50000x128.Idx → EReal) = rH0 m c := by
  refine (W2_arr m ρ c 3).trans ?_
  refine (Cert.KernelIdeal.RegionValue.region0 (V1 m ρ) c).trans ?_
  show Cert.Spec.linRelu (W1 m ρ c (Proc.devRef .tc main_arg0)) (W1 m ρ c (Proc.devRef .tc main_arg2)) (W1 m ρ c (Proc.devRef .tc main_v28)) = _
  rw [F1_arg0 m ρ c, F1_arg2 m ρ c, F1_v28 m ρ c]
  exact (Cert.ReferenceIdeal.RefValue.stage_h0 _ _ _).symm
theorem F2_arg4 : (W2 m ρ c (Proc.devRef .tc main_arg4) : S3x128x128.Idx → EReal) = a4 m c :=
  (W2_of_ne m ρ c main_arg4 (by decide) : W2 m ρ c (Proc.devRef .tc main_arg4) = W1 m ρ c (Proc.devRef .tc main_arg4)).trans (F1_arg4 m ρ c)
theorem F2_arg5 : (W2 m ρ c (Proc.devRef .tc main_arg5) : S3x128.Idx → EReal) = a5 m c :=
  (W2_of_ne m ρ c main_arg5 (by decide) : W2 m ρ c (Proc.devRef .tc main_arg5) = W1 m ρ c (Proc.devRef .tc main_arg5)).trans (F1_arg5 m ρ c)
theorem F2_arg6 : (W2 m ρ c (Proc.devRef .tc main_arg6) : S3x128.Idx → EReal) = a6 m c :=
  (W2_of_ne m ρ c main_arg6 (by decide) : W2 m ρ c (Proc.devRef .tc main_arg6) = W1 m ρ c (Proc.devRef .tc main_arg6)).trans (F1_arg6 m ρ c)
theorem F2_arg7 : (W2 m ρ c (Proc.devRef .tc main_arg7) : S3x128.Idx → EReal) = a7 m c :=
  (W2_of_ne m ρ c main_arg7 (by decide) : W2 m ρ c (Proc.devRef .tc main_arg7) = W1 m ρ c (Proc.devRef .tc main_arg7)).trans (F1_arg7 m ρ c)
theorem F2_arg8 : (W2 m ρ c (Proc.devRef .tc main_arg8) : S128x32.Idx → EReal) = a8 m c :=
  (W2_of_ne m ρ c main_arg8 (by decide) : W2 m ρ c (Proc.devRef .tc main_arg8) = W1 m ρ c (Proc.devRef .tc main_arg8)).trans (F1_arg8 m ρ c)
theorem F2_arg9 : (W2 m ρ c (Proc.devRef .tc main_arg9) : S32.Idx → EReal) = a9 m c :=
  (W2_of_ne m ρ c main_arg9 (by decide) : W2 m ρ c (Proc.devRef .tc main_arg9) = W1 m ρ c (Proc.devRef .tc main_arg9)).trans (F1_arg9 m ρ c)

/-! ### Boundary 3: after host stretch 1 -/

theorem F3_v1 : (W3 m ρ c (Proc.devRef .tc main_v1) : S800000.Idx → Elt Ideal .i32) = rSrc m c :=
  (by keep_host hostOps1 : W3 m ρ c (Proc.devRef .tc main_v1) = W2 m ρ c (Proc.devRef .tc main_v1)).trans (F2_v1 m ρ c)
theorem F3_v3 : (W3 m ρ c (Proc.devRef .tc main_v3) : S800000.Idx → Elt Ideal .i32) = rDst m c :=
  (by keep_host hostOps1 : W3 m ρ c (Proc.devRef .tc main_v3) = W2 m ρ c (Proc.devRef .tc main_v3)).trans (F2_v3 m ρ c)
theorem F3_v25 : (W3 m ρ c (Proc.devRef .tc main_v25) : S800000.Idx → EReal) = rNrm m c :=
  (by keep_host hostOps1 : W3 m ρ c (Proc.devRef .tc main_v25) = W2 m ρ c (Proc.devRef .tc main_v25)).trans (F2_v25 m ρ c)
theorem F3_v27 : (W3 m ρ c (Proc.devRef .tc main_v27) : S50000x1.Idx → EReal) = Cert.Spec.col (rDD m c) :=
  (by keep_host hostOps1 : W3 m ρ c (Proc.devRef .tc main_v27) = W2 m ρ c (Proc.devRef .tc main_v27)).trans (F2_v27 m ρ c)
theorem F3_v29 : (W3 m ρ c (Proc.devRef .tc main_v29) : S50000x128.Idx → EReal) = rH0 m c :=
  (by keep_host hostOps1 : W3 m ρ c (Proc.devRef .tc main_v29) = W2 m ρ c (Proc.devRef .tc main_v29)).trans (F2_v29 m ρ c)
set_option maxHeartbeats 1600000 in
theorem F3_v31 : (W3 m ρ c (Proc.devRef .tc main_v31) : S128x128.Idx → EReal) = rW1 m c := by
  show StableHlo.after hostOps1 (W2 m ρ c) (Proc.devRef .tc main_v31) = _
  after_results
  rw [F2_arg4 m ρ c]
  rfl
set_option maxHeartbeats 1600000 in
theorem F3_v33 : (W3 m ρ c (Proc.devRef .tc main_v33) : S1x128.Idx → EReal) = Cert.Spec.zeroRow := by
  show StableHlo.after hostOps1 (W2 m ρ c) (Proc.devRef .tc main_v33) = _
  after_results
  exact Cert.Glue.zeroRow_eq _ _
theorem F3_arg4 : (W3 m ρ c (Proc.devRef .tc main_arg4) : S3x128x128.Idx → EReal) = a4 m c :=
  (by keep_host hostOps1 : W3 m ρ c (Proc.devRef .tc main_arg4) = W2 m ρ c (Proc.devRef .tc main_arg4)).trans (F2_arg4 m ρ c)
theorem F3_arg5 : (W3 m ρ c (Proc.devRef .tc main_arg5) : S3x128.Idx → EReal) = a5 m c :=
  (by keep_host hostOps1 : W3 m ρ c (Proc.devRef .tc main_arg5) = W2 m ρ c (Proc.devRef .tc main_arg5)).trans (F2_arg5 m ρ c)
theorem F3_arg6 : (W3 m ρ c (Proc.devRef .tc main_arg6) : S3x128.Idx → EReal) = a6 m c :=
  (by keep_host hostOps1 : W3 m ρ c (Proc.devRef .tc main_arg6) = W2 m ρ c (Proc.devRef .tc main_arg6)).trans (F2_arg6 m ρ c)
theorem F3_arg7 : (W3 m ρ c (Proc.devRef .tc main_arg7) : S3x128.Idx → EReal) = a7 m c :=
  (by keep_host hostOps1 : W3 m ρ c (Proc.devRef .tc main_arg7) = W2 m ρ c (Proc.devRef .tc main_arg7)).trans (F2_arg7 m ρ c)
theorem F3_arg8 : (W3 m ρ c (Proc.devRef .tc main_arg8) : S128x32.Idx → EReal) = a8 m c :=
  (by keep_host hostOps1 : W3 m ρ c (Proc.devRef .tc main_arg8) = W2 m ρ c (Proc.devRef .tc main_arg8)).trans (F2_arg8 m ρ c)
theorem F3_arg9 : (W3 m ρ c (Proc.devRef .tc main_arg9) : S32.Idx → EReal) = a9 m c :=
  (by keep_host hostOps1 : W3 m ρ c (Proc.devRef .tc main_arg9) = W2 m ρ c (Proc.devRef .tc main_arg9)).trans (F2_arg9 m ρ c)

/-! ### Boundary 4: after the pallas_call of region 1 -/

theorem F4_v1 : (W4 m ρ c (Proc.devRef .tc main_v1) : S800000.Idx → Elt Ideal .i32) = rSrc m c :=
  (W4_of_ne m ρ c main_v1 (by decide) : W4 m ρ c (Proc.devRef .tc main_v1) = W3 m ρ c (Proc.devRef .tc main_v1)).trans (F3_v1 m ρ c)
theorem F4_v3 : (W4 m ρ c (Proc.devRef .tc main_v3) : S800000.Idx → Elt Ideal .i32) = rDst m c :=
  (W4_of_ne m ρ c main_v3 (by decide) : W4 m ρ c (Proc.devRef .tc main_v3) = W3 m ρ c (Proc.devRef .tc main_v3)).trans (F3_v3 m ρ c)
theorem F4_v25 : (W4 m ρ c (Proc.devRef .tc main_v25) : S800000.Idx → EReal) = rNrm m c :=
  (W4_of_ne m ρ c main_v25 (by decide) : W4 m ρ c (Proc.devRef .tc main_v25) = W3 m ρ c (Proc.devRef .tc main_v25)).trans (F3_v25 m ρ c)
theorem F4_v27 : (W4 m ρ c (Proc.devRef .tc main_v27) : S50000x1.Idx → EReal) = Cert.Spec.col (rDD m c) :=
  (W4_of_ne m ρ c main_v27 (by decide) : W4 m ρ c (Proc.devRef .tc main_v27) = W3 m ρ c (Proc.devRef .tc main_v27)).trans (F3_v27 m ρ c)
theorem F4_v29 : (W4 m ρ c (Proc.devRef .tc main_v29) : S50000x128.Idx → EReal) = rH0 m c :=
  ((W4_arr m ρ c 0).trans (((dat1 (V3 m ρ) c).arrAt_in 0 rfl _).trans (A_eq1 (V3 m ρ) c 0)) : W4 m ρ c (Proc.devRef .tc main_v29) = W3 m ρ c (Proc.devRef .tc main_v29)).trans (F3_v29 m ρ c)
theorem F4_v34 : (W4 m ρ c (Proc.devRef .tc main_v34) : S50000x128.Idx → EReal) = rM1 m c := by
  refine (W4_arr m ρ c 3).trans ?_
  refine (Cert.KernelIdeal.RegionValue.region1 (V3 m ρ) c).trans ?_
  show Cert.Spec.lin (W3 m ρ c (Proc.devRef .tc main_v29)) (W3 m ρ c (Proc.devRef .tc main_v31)) (W3 m ρ c (Proc.devRef .tc main_v33)) = _
  rw [F3_v29 m ρ c, F3_v31 m ρ c, F3_v33 m ρ c]
  exact (Cert.ReferenceIdeal.RefValue.stage_m1 _ _ _ _).symm
theorem F4_arg4 : (W4 m ρ c (Proc.devRef .tc main_arg4) : S3x128x128.Idx → EReal) = a4 m c :=
  (W4_of_ne m ρ c main_arg4 (by decide) : W4 m ρ c (Proc.devRef .tc main_arg4) = W3 m ρ c (Proc.devRef .tc main_arg4)).trans (F3_arg4 m ρ c)
theorem F4_arg5 : (W4 m ρ c (Proc.devRef .tc main_arg5) : S3x128.Idx → EReal) = a5 m c :=
  (W4_of_ne m ρ c main_arg5 (by decide) : W4 m ρ c (Proc.devRef .tc main_arg5) = W3 m ρ c (Proc.devRef .tc main_arg5)).trans (F3_arg5 m ρ c)
theorem F4_arg6 : (W4 m ρ c (Proc.devRef .tc main_arg6) : S3x128.Idx → EReal) = a6 m c :=
  (W4_of_ne m ρ c main_arg6 (by decide) : W4 m ρ c (Proc.devRef .tc main_arg6) = W3 m ρ c (Proc.devRef .tc main_arg6)).trans (F3_arg6 m ρ c)
theorem F4_arg7 : (W4 m ρ c (Proc.devRef .tc main_arg7) : S3x128.Idx → EReal) = a7 m c :=
  (W4_of_ne m ρ c main_arg7 (by decide) : W4 m ρ c (Proc.devRef .tc main_arg7) = W3 m ρ c (Proc.devRef .tc main_arg7)).trans (F3_arg7 m ρ c)
theorem F4_arg8 : (W4 m ρ c (Proc.devRef .tc main_arg8) : S128x32.Idx → EReal) = a8 m c :=
  (W4_of_ne m ρ c main_arg8 (by decide) : W4 m ρ c (Proc.devRef .tc main_arg8) = W3 m ρ c (Proc.devRef .tc main_arg8)).trans (F3_arg8 m ρ c)
theorem F4_arg9 : (W4 m ρ c (Proc.devRef .tc main_arg9) : S32.Idx → EReal) = a9 m c :=
  (W4_of_ne m ρ c main_arg9 (by decide) : W4 m ρ c (Proc.devRef .tc main_arg9) = W3 m ρ c (Proc.devRef .tc main_arg9)).trans (F3_arg9 m ρ c)

end Cert.KernelIdeal.Chain

end
-- ==== Proof.Chain2.lean ====
/-
  The idealized kernel's buffers, boundary by boundary (part 2 of 4). @main is a stretch of host operations, then a
  pallas_call, eight times over; at each of the sixteen boundaries the buffers still to be read hold the REFERENCE's
  values of the same launch arguments: the edge endpoints, the edge normalisation and the self-loop coefficient after the
  first stretch; after each dense pallas_call the dense stage of the network it tiles (a block of 2000 rows at a time,
  every row's entry the same finite sum whatever the tiling); after each layer's host stretch the neighbours' aggregate —
  the same gather, product and scatter-add applied to arrays already known to agree —; and a buffer that a stretch or a
  pallas_call does not write is carried across it unchanged. The last boundary's fact is the result array.
-/
import proofs.«107958_j12893491822680_1_alg».proof.Proof.Gen.KernelIdeal.Frame
import proofs.«107958_j12893491822680_1_alg».proof.Proof.RefReadP
import proofs.«107958_j12893491822680_1_alg».proof.Proof.Spec
import proofs.«107958_j12893491822680_1_alg».proof.Proof.Glue
import proofs.«107958_j12893491822680_1_alg».proof.Proof.LibHostLine
import proofs.«107958_j12893491822680_1_alg».proof.Proof.Region2
import proofs.«107958_j12893491822680_1_alg».proof.Proof.Region3
import proofs.«107958_j12893491822680_1_alg».proof.Proof.RefStages
import proofs.«107958_j12893491822680_1_alg».proof.Proof.RefStagesH1
import proofs.«107958_j12893491822680_1_alg».proof.Proof.Chain1
import Idealize.ShloMosaic.Lib.StableHlo.Run
import Idealize.ShloMosaic.Lib.Pipeline.Value

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The boundaries -/

/-! ### Boundary 5: after host stretch 2 -/

theorem F5_v1 : (W5 m ρ c (Proc.devRef .tc main_v1) : S800000.Idx → Elt Ideal .i32) = rSrc m c :=
  (by keep_host hostOps2 : W5 m ρ c (Proc.devRef .tc main_v1) = W4 m ρ c (Proc.devRef .tc main_v1)).trans (F4_v1 m ρ c)
theorem F5_v3 : (W5 m ρ c (Proc.devRef .tc main_v3) : S800000.Idx → Elt Ideal .i32) = rDst m c :=
  (by keep_host hostOps2 : W5 m ρ c (Proc.devRef .tc main_v3) = W4 m ρ c (Proc.devRef .tc main_v3)).trans (F4_v3 m ρ c)
theorem F5_v25 : (W5 m ρ c (Proc.devRef .tc main_v25) : S800000.Idx → EReal) = rNrm m c :=
  (by keep_host hostOps2 : W5 m ρ c (Proc.devRef .tc main_v25) = W4 m ρ c (Proc.devRef .tc main_v25)).trans (F4_v25 m ρ c)
theorem F5_v27 : (W5 m ρ c (Proc.devRef .tc main_v27) : S50000x1.Idx → EReal) = Cert.Spec.col (rDD m c) :=
  (by keep_host hostOps2 : W5 m ρ c (Proc.devRef .tc main_v27) = W4 m ρ c (Proc.devRef .tc main_v27)).trans (F4_v27 m ρ c)
theorem F5_v29 : (W5 m ρ c (Proc.devRef .tc main_v29) : S50000x128.Idx → EReal) = rH0 m c :=
  (by keep_host hostOps2 : W5 m ρ c (Proc.devRef .tc main_v29) = W4 m ρ c (Proc.devRef .tc main_v29)).trans (F4_v29 m ρ c)
theorem F5_v34 : (W5 m ρ c (Proc.devRef .tc main_v34) : S50000x128.Idx → EReal) = rM1 m c :=
  (by keep_host hostOps2 : W5 m ρ c (Proc.devRef .tc main_v34) = W4 m ρ c (Proc.devRef .tc main_v34)).trans (F4_v34 m ρ c)
set_option maxHeartbeats 1600000 in
theorem F5_v47 : (W5 m ρ c (Proc.devRef .tc main_v47) : S50000x128.Idx → EReal) = rAgg1 m c := by
  show StableHlo.after hostOps2 (W4 m ρ c) (Proc.devRef .tc main_v47) = _
  rw [after_take_drop 16]
  refine (by keep_drop hostOps2 : _ = _).trans ?_
  simp only [hostOps2, List.take]
  after_results
  rw [F4_v1 m ρ c, F4_v34 m ρ c, F4_v25 m ρ c, F4_v3 m ρ c]
  rfl
set_option maxHeartbeats 1600000 in
theorem F5_v50 : (W5 m ρ c (Proc.devRef .tc main_v50) : S1x128.Idx → EReal) = Cert.Spec.layerRow (a5 m c) (0 : Fin 3) := by
  show StableHlo.after hostOps2 (W4 m ρ c) (Proc.devRef .tc main_v50) = _
  after_results
  rw [F4_arg5 m ρ c]
  exact (shapeCast_shapeCast _ _ _).trans (Cert.Glue.sliceRow (a5 m c) (0 : Fin 3) _)
set_option maxHeartbeats 1600000 in
theorem F5_v53 : (W5 m ρ c (Proc.devRef .tc main_v53) : S1x128.Idx → EReal) = Cert.Spec.layerRow (a6 m c) (0 : Fin 3) := by
  show StableHlo.after hostOps2 (W4 m ρ c) (Proc.devRef .tc main_v53) = _
  after_results
  rw [F4_arg6 m ρ c]
  exact (shapeCast_shapeCast _ _ _).trans (Cert.Glue.sliceRow (a6 m c) (0 : Fin 3) _)
set_option maxHeartbeats 1600000 in
theorem F5_v56 : (W5 m ρ c (Proc.devRef .tc main_v56) : S1x128.Idx → EReal) = Cert.Spec.layerRow (a7 m c) (0 : Fin 3) := by
  show StableHlo.after hostOps2 (W4 m ρ c) (Proc.devRef .tc main_v56) = _
  after_results
  rw [F4_arg7 m ρ c]
  exact (shapeCast_shapeCast _ _ _).trans (Cert.Glue.sliceRow (a7 m c) (0 : Fin 3) _)
theorem F5_arg4 : (W5 m ρ c (Proc.devRef .tc main_arg4) : S3x128x128.Idx → EReal) = a4 m c :=
  (by keep_host hostOps2 : W5 m ρ c (Proc.devRef .tc main_arg4) = W4 m ρ c (Proc.devRef .tc main_arg4)).trans (F4_arg4 m ρ c)
theorem F5_arg5 : (W5 m ρ c (Proc.devRef .tc main_arg5) : S3x128.Idx → EReal) = a5 m c :=
  (by keep_host hostOps2 : W5 m ρ c (Proc.devRef .tc main_arg5) = W4 m ρ c (Proc.devRef .tc main_arg5)).trans (F4_arg5 m ρ c)
theorem F5_arg6 : (W5 m ρ c (Proc.devRef .tc main_arg6) : S3x128.Idx → EReal) = a6 m c :=
  (by keep_host hostOps2 : W5 m ρ c (Proc.devRef .tc main_arg6) = W4 m ρ c (Proc.devRef .tc main_arg6)).trans (F4_arg6 m ρ c)
theorem F5_arg7 : (W5 m ρ c (Proc.devRef .tc main_arg7) : S3x128.Idx → EReal) = a7 m c :=
  (by keep_host hostOps2 : W5 m ρ c (Proc.devRef .tc main_arg7) = W4 m ρ c (Proc.devRef .tc main_arg7)).trans (F4_arg7 m ρ c)
theorem F5_arg8 : (W5 m ρ c (Proc.devRef .tc main_arg8) : S128x32.Idx → EReal) = a8 m c :=
  (by keep_host hostOps2 : W5 m ρ c (Proc.devRef .tc main_arg8) = W4 m ρ c (Proc.devRef .tc main_arg8)).trans (F4_arg8 m ρ c)
theorem F5_arg9 : (W5 m ρ c (Proc.devRef .tc main_arg9) : S32.Idx → EReal) = a9 m c :=
  (by keep_host hostOps2 : W5 m ρ c (Proc.devRef .tc main_arg9) = W4 m ρ c (Proc.devRef .tc main_arg9)).trans (F4_arg9 m ρ c)

/-! ### Boundary 6: after the pallas_call of region 2 -/

theorem F6_v1 : (W6 m ρ c (Proc.devRef .tc main_v1) : S800000.Idx → Elt Ideal .i32) = rSrc m c :=
  (W6_of_ne m ρ c main_v1 (by decide) : W6 m ρ c (Proc.devRef .tc main_v1) = W5 m ρ c (Proc.devRef .tc main_v1)).trans (F5_v1 m ρ c)
theorem F6_v3 : (W6 m ρ c (Proc.devRef .tc main_v3) : S800000.Idx → Elt Ideal .i32) = rDst m c :=
  (W6_of_ne m ρ c main_v3 (by decide) : W6 m ρ c (Proc.devRef .tc main_v3) = W5 m ρ c (Proc.devRef .tc main_v3)).trans (F5_v3 m ρ c)
theorem F6_v25 : (W6 m ρ c (Proc.devRef .tc main_v25) : S800000.Idx → EReal) = rNrm m c :=
  (W6_of_ne m ρ c main_v25 (by decide) : W6 m ρ c (Proc.devRef .tc main_v25) = W5 m ρ c (Proc.devRef .tc main_v25)).trans (F5_v25 m ρ c)
theorem F6_v27 : (W6 m ρ c (Proc.devRef .tc main_v27) : S50000x1.Idx → EReal) = Cert.Spec.col (rDD m c) :=
  ((W6_arr m ρ c 2).trans (((dat2 (V5 m ρ) c).arrAt_in 2 rfl _).trans (A_eq2 (V5 m ρ) c 2)) : W6 m ρ c (Proc.devRef .tc main_v27) = W5 m ρ c (Proc.devRef .tc main_v27)).trans (F5_v27 m ρ c)
theorem F6_v57 : (W6 m ρ c (Proc.devRef .tc main_v57) : S50000x128.Idx → EReal) = rH1 m c := by
  refine (W6_arr m ρ c 7).trans ?_
  refine (Cert.KernelIdeal.RegionValue.region2 (V5 m ρ) c).trans ?_
  show Cert.Spec.combine (W5 m ρ c (Proc.devRef .tc main_v47)) (W5 m ρ c (Proc.devRef .tc main_v34)) (W5 m ρ c (Proc.devRef .tc main_v27)) (W5 m ρ c (Proc.devRef .tc main_v50)) (W5 m ρ c (Proc.devRef .tc main_v53)) (W5 m ρ c (Proc.devRef .tc main_v56)) (W5 m ρ c (Proc.devRef .tc main_v29)) = _
  rw [F5_v47 m ρ c, F5_v34 m ρ c, F5_v27 m ρ c, F5_v50 m ρ c, F5_v53 m ρ c, F5_v56 m ρ c, F5_v29 m ρ c]
  exact (Cert.ReferenceIdeal.RefValue.stage_h1 _ _ _ _ _ _ _ _).symm
theorem F6_arg4 : (W6 m ρ c (Proc.devRef .tc main_arg4) : S3x128x128.Idx → EReal) = a4 m c :=
  (W6_of_ne m ρ c main_arg4 (by decide) : W6 m ρ c (Proc.devRef .tc main_arg4) = W5 m ρ c (Proc.devRef .tc main_arg4)).trans (F5_arg4 m ρ c)
theorem F6_arg5 : (W6 m ρ c (Proc.devRef .tc main_arg5) : S3x128.Idx → EReal) = a5 m c :=
  (W6_of_ne m ρ c main_arg5 (by decide) : W6 m ρ c (Proc.devRef .tc main_arg5) = W5 m ρ c (Proc.devRef .tc main_arg5)).trans (F5_arg5 m ρ c)
theorem F6_arg6 : (W6 m ρ c (Proc.devRef .tc main_arg6) : S3x128.Idx → EReal) = a6 m c :=
  (W6_of_ne m ρ c main_arg6 (by decide) : W6 m ρ c (Proc.devRef .tc main_arg6) = W5 m ρ c (Proc.devRef .tc main_arg6)).trans (F5_arg6 m ρ c)
theorem F6_arg7 : (W6 m ρ c (Proc.devRef .tc main_arg7) : S3x128.Idx → EReal) = a7 m c :=
  (W6_of_ne m ρ c main_arg7 (by decide) : W6 m ρ c (Proc.devRef .tc main_arg7) = W5 m ρ c (Proc.devRef .tc main_arg7)).trans (F5_arg7 m ρ c)
theorem F6_arg8 : (W6 m ρ c (Proc.devRef .tc main_arg8) : S128x32.Idx → EReal) = a8 m c :=
  (W6_of_ne m ρ c main_arg8 (by decide) : W6 m ρ c (Proc.devRef .tc main_arg8) = W5 m ρ c (Proc.devRef .tc main_arg8)).trans (F5_arg8 m ρ c)
theorem F6_arg9 : (W6 m ρ c (Proc.devRef .tc main_arg9) : S32.Idx → EReal) = a9 m c :=
  (W6_of_ne m ρ c main_arg9 (by decide) : W6 m ρ c (Proc.devRef .tc main_arg9) = W5 m ρ c (Proc.devRef .tc main_arg9)).trans (F5_arg9 m ρ c)

/-! ### Boundary 7: after host stretch 3 -/

theorem F7_v1 : (W7 m ρ c (Proc.devRef .tc main_v1) : S800000.Idx → Elt Ideal .i32) = rSrc m c :=
  (by keep_host hostOps3 : W7 m ρ c (Proc.devRef .tc main_v1) = W6 m ρ c (Proc.devRef .tc main_v1)).trans (F6_v1 m ρ c)
theorem F7_v3 : (W7 m ρ c (Proc.devRef .tc main_v3) : S800000.Idx → Elt Ideal .i32) = rDst m c :=
  (by keep_host hostOps3 : W7 m ρ c (Proc.devRef .tc main_v3) = W6 m ρ c (Proc.devRef .tc main_v3)).trans (F6_v3 m ρ c)
theorem F7_v25 : (W7 m ρ c (Proc.devRef .tc main_v25) : S800000.Idx → EReal) = rNrm m c :=
  (by keep_host hostOps3 : W7 m ρ c (Proc.devRef .tc main_v25) = W6 m ρ c (Proc.devRef .tc main_v25)).trans (F6_v25 m ρ c)
theorem F7_v27 : (W7 m ρ c (Proc.devRef .tc main_v27) : S50000x1.Idx → EReal) = Cert.Spec.col (rDD m c) :=
  (by keep_host hostOps3 : W7 m ρ c (Proc.devRef .tc main_v27) = W6 m ρ c (Proc.devRef .tc main_v27)).trans (F6_v27 m ρ c)
theorem F7_v57 : (W7 m ρ c (Proc.devRef .tc main_v57) : S50000x128.Idx → EReal) = rH1 m c :=
  (by keep_host hostOps3 : W7 m ρ c (Proc.devRef .tc main_v57) = W6 m ρ c (Proc.devRef .tc main_v57)).trans (F6_v57 m ρ c)
set_option maxHeartbeats 1600000 in
theorem F7_v59 : (W7 m ρ c (Proc.devRef .tc main_v59) : S128x128.Idx → EReal) = rW2 m c := by
  show StableHlo.after hostOps3 (W6 m ρ c) (Proc.devRef .tc main_v59) = _
  after_results
  rw [F6_arg4 m ρ c]
  rfl
set_option maxHeartbeats 1600000 in
theorem F7_v61 : (W7 m ρ c (Proc.devRef .tc main_v61) : S1x128.Idx → EReal) = Cert.Spec.zeroRow := by
  show StableHlo.after hostOps3 (W6 m ρ c) (Proc.devRef .tc main_v61) = _
  after_results
  exact Cert.Glue.zeroRow_eq _ _
theorem F7_arg4 : (W7 m ρ c (Proc.devRef .tc main_arg4) : S3x128x128.Idx → EReal) = a4 m c :=
  (by keep_host hostOps3 : W7 m ρ c (Proc.devRef .tc main_arg4) = W6 m ρ c (Proc.devRef .tc main_arg4)).trans (F6_arg4 m ρ c)
theorem F7_arg5 : (W7 m ρ c (Proc.devRef .tc main_arg5) : S3x128.Idx → EReal) = a5 m c :=
  (by keep_host hostOps3 : W7 m ρ c (Proc.devRef .tc main_arg5) = W6 m ρ c (Proc.devRef .tc main_arg5)).trans (F6_arg5 m ρ c)
theorem F7_arg6 : (W7 m ρ c (Proc.devRef .tc main_arg6) : S3x128.Idx → EReal) = a6 m c :=
  (by keep_host hostOps3 : W7 m ρ c (Proc.devRef .tc main_arg6) = W6 m ρ c (Proc.devRef .tc main_arg6)).trans (F6_arg6 m ρ c)
theorem F7_arg7 : (W7 m ρ c (Proc.devRef .tc main_arg7) : S3x128.Idx → EReal) = a7 m c :=
  (by keep_host hostOps3 : W7 m ρ c (Proc.devRef .tc main_arg7) = W6 m ρ c (Proc.devRef .tc main_arg7)).trans (F6_arg7 m ρ c)
theorem F7_arg8 : (W7 m ρ c (Proc.devRef .tc main_arg8) : S128x32.Idx → EReal) = a8 m c :=
  (by keep_host hostOps3 : W7 m ρ c (Proc.devRef .tc main_arg8) = W6 m ρ c (Proc.devRef .tc main_arg8)).trans (F6_arg8 m ρ c)
theorem F7_arg9 : (W7 m ρ c (Proc.devRef .tc main_arg9) : S32.Idx → EReal) = a9 m c :=
  (by keep_host hostOps3 : W7 m ρ c (Proc.devRef .tc main_arg9) = W6 m ρ c (Proc.devRef .tc main_arg9)).trans (F6_arg9 m ρ c)

/-! ### Boundary 8: after the pallas_call of region 3 -/

theorem F8_v1 : (W8 m ρ c (Proc.devRef .tc main_v1) : S800000.Idx → Elt Ideal .i32) = rSrc m c :=
  (W8_of_ne m ρ c main_v1 (by decide) : W8 m ρ c (Proc.devRef .tc main_v1) = W7 m ρ c (Proc.devRef .tc main_v1)).trans (F7_v1 m ρ c)
theorem F8_v3 : (W8 m ρ c (Proc.devRef .tc main_v3) : S800000.Idx → Elt Ideal .i32) = rDst m c :=
  (W8_of_ne m ρ c main_v3 (by decide) : W8 m ρ c (Proc.devRef .tc main_v3) = W7 m ρ c (Proc.devRef .tc main_v3)).trans (F7_v3 m ρ c)
theorem F8_v25 : (W8 m ρ c (Proc.devRef .tc main_v25) : S800000.Idx → EReal) = rNrm m c :=
  (W8_of_ne m ρ c main_v25 (by decide) : W8 m ρ c (Proc.devRef .tc main_v25) = W7 m ρ c (Proc.devRef .tc main_v25)).trans (F7_v25 m ρ c)
theorem F8_v27 : (W8 m ρ c (Proc.devRef .tc main_v27) : S50000x1.Idx → EReal) = Cert.Spec.col (rDD m c) :=
  (W8_of_ne m ρ c main_v27 (by decide) : W8 m ρ c (Proc.devRef .tc main_v27) = W7 m ρ c (Proc.devRef .tc main_v27)).trans (F7_v27 m ρ c)
theorem F8_v57 : (W8 m ρ c (Proc.devRef .tc main_v57) : S50000x128.Idx → EReal) = rH1 m c :=
  ((W8_arr m ρ c 0).trans (((dat3 (V7 m ρ) c).arrAt_in 0 rfl _).trans (A_eq3 (V7 m ρ) c 0)) : W8 m ρ c (Proc.devRef .tc main_v57) = W7 m ρ c (Proc.devRef .tc main_v57)).trans (F7_v57 m ρ c)
theorem F8_v62 : (W8 m ρ c (Proc.devRef .tc main_v62) : S50000x128.Idx → EReal) = rM2 m c := by
  refine (W8_arr m ρ c 3).trans ?_
  refine (Cert.KernelIdeal.RegionValue.region3 (V7 m ρ) c).trans ?_
  show Cert.Spec.lin (W7 m ρ c (Proc.devRef .tc main_v57)) (W7 m ρ c (Proc.devRef .tc main_v59)) (W7 m ρ c (Proc.devRef .tc main_v61)) = _
  rw [F7_v57 m ρ c, F7_v59 m ρ c, F7_v61 m ρ c]
  exact (Cert.ReferenceIdeal.RefValue.stage_m2 _ _ _ _ _ _ _ _).symm
theorem F8_arg4 : (W8 m ρ c (Proc.devRef .tc main_arg4) : S3x128x128.Idx → EReal) = a4 m c :=
  (W8_of_ne m ρ c main_arg4 (by decide) : W8 m ρ c (Proc.devRef .tc main_arg4) = W7 m ρ c (Proc.devRef .tc main_arg4)).trans (F7_arg4 m ρ c)
theorem F8_arg5 : (W8 m ρ c (Proc.devRef .tc main_arg5) : S3x128.Idx → EReal) = a5 m c :=
  (W8_of_ne m ρ c main_arg5 (by decide) : W8 m ρ c (Proc.devRef .tc main_arg5) = W7 m ρ c (Proc.devRef .tc main_arg5)).trans (F7_arg5 m ρ c)
theorem F8_arg6 : (W8 m ρ c (Proc.devRef .tc main_arg6) : S3x128.Idx → EReal) = a6 m c :=
  (W8_of_ne m ρ c main_arg6 (by decide) : W8 m ρ c (Proc.devRef .tc main_arg6) = W7 m ρ c (Proc.devRef .tc main_arg6)).trans (F7_arg6 m ρ c)
theorem F8_arg7 : (W8 m ρ c (Proc.devRef .tc main_arg7) : S3x128.Idx → EReal) = a7 m c :=
  (W8_of_ne m ρ c main_arg7 (by decide) : W8 m ρ c (Proc.devRef .tc main_arg7) = W7 m ρ c (Proc.devRef .tc main_arg7)).trans (F7_arg7 m ρ c)
theorem F8_arg8 : (W8 m ρ c (Proc.devRef .tc main_arg8) : S128x32.Idx → EReal) = a8 m c :=
  (W8_of_ne m ρ c main_arg8 (by decide) : W8 m ρ c (Proc.devRef .tc main_arg8) = W7 m ρ c (Proc.devRef .tc main_arg8)).trans (F7_arg8 m ρ c)
theorem F8_arg9 : (W8 m ρ c (Proc.devRef .tc main_arg9) : S32.Idx → EReal) = a9 m c :=
  (W8_of_ne m ρ c main_arg9 (by decide) : W8 m ρ c (Proc.devRef .tc main_arg9) = W7 m ρ c (Proc.devRef .tc main_arg9)).trans (F7_arg9 m ρ c)

end Cert.KernelIdeal.Chain

end
-- ==== Proof.Chain3.lean ====
/-
  The idealized kernel's buffers, boundary by boundary (part 3 of 4). @main is a stretch of host operations, then a
  pallas_call, eight times over; at each of the sixteen boundaries the buffers still to be read hold the REFERENCE's
  values of the same launch arguments: the edge endpoints, the edge normalisation and the self-loop coefficient after the
  first stretch; after each dense pallas_call the dense stage of the network it tiles (a block of 2000 rows at a time,
  every row's entry the same finite sum whatever the tiling); after each layer's host stretch the neighbours' aggregate —
  the same gather, product and scatter-add applied to arrays already known to agree —; and a buffer that a stretch or a
  pallas_call does not write is carried across it unchanged. The last boundary's fact is the result array.
-/
import proofs.«107958_j12893491822680_1_alg».proof.Proof.Gen.KernelIdeal.Frame
import proofs.«107958_j12893491822680_1_alg».proof.Proof.RefReadP
import proofs.«107958_j12893491822680_1_alg».proof.Proof.Spec
import proofs.«107958_j12893491822680_1_alg».proof.Proof.Glue
import proofs.«107958_j12893491822680_1_alg».proof.Proof.LibHostLine
import proofs.«107958_j12893491822680_1_alg».proof.Proof.Region4
import proofs.«107958_j12893491822680_1_alg».proof.Proof.Region5
import proofs.«107958_j12893491822680_1_alg».proof.Proof.RefStages
import proofs.«107958_j12893491822680_1_alg».proof.Proof.RefStagesH2
import proofs.«107958_j12893491822680_1_alg».proof.Proof.Chain2
import Idealize.ShloMosaic.Lib.StableHlo.Run
import Idealize.ShloMosaic.Lib.Pipeline.Value

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The boundaries -/

/-! ### Boundary 9: after host stretch 4 -/

theorem F9_v1 : (W9 m ρ c (Proc.devRef .tc main_v1) : S800000.Idx → Elt Ideal .i32) = rSrc m c :=
  (by keep_host hostOps4 : W9 m ρ c (Proc.devRef .tc main_v1) = W8 m ρ c (Proc.devRef .tc main_v1)).trans (F8_v1 m ρ c)
theorem F9_v3 : (W9 m ρ c (Proc.devRef .tc main_v3) : S800000.Idx → Elt Ideal .i32) = rDst m c :=
  (by keep_host hostOps4 : W9 m ρ c (Proc.devRef .tc main_v3) = W8 m ρ c (Proc.devRef .tc main_v3)).trans (F8_v3 m ρ c)
theorem F9_v25 : (W9 m ρ c (Proc.devRef .tc main_v25) : S800000.Idx → EReal) = rNrm m c :=
  (by keep_host hostOps4 : W9 m ρ c (Proc.devRef .tc main_v25) = W8 m ρ c (Proc.devRef .tc main_v25)).trans (F8_v25 m ρ c)
theorem F9_v27 : (W9 m ρ c (Proc.devRef .tc main_v27) : S50000x1.Idx → EReal) = Cert.Spec.col (rDD m c) :=
  (by keep_host hostOps4 : W9 m ρ c (Proc.devRef .tc main_v27) = W8 m ρ c (Proc.devRef .tc main_v27)).trans (F8_v27 m ρ c)
theorem F9_v57 : (W9 m ρ c (Proc.devRef .tc main_v57) : S50000x128.Idx → EReal) = rH1 m c :=
  (by keep_host hostOps4 : W9 m ρ c (Proc.devRef .tc main_v57) = W8 m ρ c (Proc.devRef .tc main_v57)).trans (F8_v57 m ρ c)
theorem F9_v62 : (W9 m ρ c (Proc.devRef .tc main_v62) : S50000x128.Idx → EReal) = rM2 m c :=
  (by keep_host hostOps4 : W9 m ρ c (Proc.devRef .tc main_v62) = W8 m ρ c (Proc.devRef .tc main_v62)).trans (F8_v62 m ρ c)
set_option maxHeartbeats 1600000 in
theorem F9_v75 : (W9 m ρ c (Proc.devRef .tc main_v75) : S50000x128.Idx → EReal) = rAgg2 m c := by
  show StableHlo.after hostOps4 (W8 m ρ c) (Proc.devRef .tc main_v75) = _
  rw [after_take_drop 16]
  refine (by keep_drop hostOps4 : _ = _).trans ?_
  simp only [hostOps4, List.take]
  after_results
  rw [F8_v1 m ρ c, F8_v62 m ρ c, F8_v25 m ρ c, F8_v3 m ρ c]
  rfl
set_option maxHeartbeats 1600000 in
theorem F9_v78 : (W9 m ρ c (Proc.devRef .tc main_v78) : S1x128.Idx → EReal) = Cert.Spec.layerRow (a5 m c) (1 : Fin 3) := by
  show StableHlo.after hostOps4 (W8 m ρ c) (Proc.devRef .tc main_v78) = _
  after_results
  rw [F8_arg5 m ρ c]
  exact (shapeCast_shapeCast _ _ _).trans (Cert.Glue.sliceRow (a5 m c) (1 : Fin 3) _)
set_option maxHeartbeats 1600000 in
theorem F9_v81 : (W9 m ρ c (Proc.devRef .tc main_v81) : S1x128.Idx → EReal) = Cert.Spec.layerRow (a6 m c) (1 : Fin 3) := by
  show StableHlo.after hostOps4 (W8 m ρ c) (Proc.devRef .tc main_v81) = _
  after_results
  rw [F8_arg6 m ρ c]
  exact (shapeCast_shapeCast _ _ _).trans (Cert.Glue.sliceRow (a6 m c) (1 : Fin 3) _)
set_option maxHeartbeats 1600000 in
theorem F9_v84 : (W9 m ρ c (Proc.devRef .tc main_v84) : S1x128.Idx → EReal) = Cert.Spec.layerRow (a7 m c) (1 : Fin 3) := by
  show StableHlo.after hostOps4 (W8 m ρ c) (Proc.devRef .tc main_v84) = _
  after_results
  rw [F8_arg7 m ρ c]
  exact (shapeCast_shapeCast _ _ _).trans (Cert.Glue.sliceRow (a7 m c) (1 : Fin 3) _)
theorem F9_arg4 : (W9 m ρ c (Proc.devRef .tc main_arg4) : S3x128x128.Idx → EReal) = a4 m c :=
  (by keep_host hostOps4 : W9 m ρ c (Proc.devRef .tc main_arg4) = W8 m ρ c (Proc.devRef .tc main_arg4)).trans (F8_arg4 m ρ c)
theorem F9_arg5 : (W9 m ρ c (Proc.devRef .tc main_arg5) : S3x128.Idx → EReal) = a5 m c :=
  (by keep_host hostOps4 : W9 m ρ c (Proc.devRef .tc main_arg5) = W8 m ρ c (Proc.devRef .tc main_arg5)).trans (F8_arg5 m ρ c)
theorem F9_arg6 : (W9 m ρ c (Proc.devRef .tc main_arg6) : S3x128.Idx → EReal) = a6 m c :=
  (by keep_host hostOps4 : W9 m ρ c (Proc.devRef .tc main_arg6) = W8 m ρ c (Proc.devRef .tc main_arg6)).trans (F8_arg6 m ρ c)
theorem F9_arg7 : (W9 m ρ c (Proc.devRef .tc main_arg7) : S3x128.Idx → EReal) = a7 m c :=
  (by keep_host hostOps4 : W9 m ρ c (Proc.devRef .tc main_arg7) = W8 m ρ c (Proc.devRef .tc main_arg7)).trans (F8_arg7 m ρ c)
theorem F9_arg8 : (W9 m ρ c (Proc.devRef .tc main_arg8) : S128x32.Idx → EReal) = a8 m c :=
  (by keep_host hostOps4 : W9 m ρ c (Proc.devRef .tc main_arg8) = W8 m ρ c (Proc.devRef .tc main_arg8)).trans (F8_arg8 m ρ c)
theorem F9_arg9 : (W9 m ρ c (Proc.devRef .tc main_arg9) : S32.Idx → EReal) = a9 m c :=
  (by keep_host hostOps4 : W9 m ρ c (Proc.devRef .tc main_arg9) = W8 m ρ c (Proc.devRef .tc main_arg9)).trans (F8_arg9 m ρ c)

/-! ### Boundary 10: after the pallas_call of region 4 -/

theorem F10_v1 : (W10 m ρ c (Proc.devRef .tc main_v1) : S800000.Idx → Elt Ideal .i32) = rSrc m c :=
  (W10_of_ne m ρ c main_v1 (by decide) : W10 m ρ c (Proc.devRef .tc main_v1) = W9 m ρ c (Proc.devRef .tc main_v1)).trans (F9_v1 m ρ c)
theorem F10_v3 : (W10 m ρ c (Proc.devRef .tc main_v3) : S800000.Idx → Elt Ideal .i32) = rDst m c :=
  (W10_of_ne m ρ c main_v3 (by decide) : W10 m ρ c (Proc.devRef .tc main_v3) = W9 m ρ c (Proc.devRef .tc main_v3)).trans (F9_v3 m ρ c)
theorem F10_v25 : (W10 m ρ c (Proc.devRef .tc main_v25) : S800000.Idx → EReal) = rNrm m c :=
  (W10_of_ne m ρ c main_v25 (by decide) : W10 m ρ c (Proc.devRef .tc main_v25) = W9 m ρ c (Proc.devRef .tc main_v25)).trans (F9_v25 m ρ c)
theorem F10_v27 : (W10 m ρ c (Proc.devRef .tc main_v27) : S50000x1.Idx → EReal) = Cert.Spec.col (rDD m c) :=
  ((W10_arr m ρ c 2).trans (((dat4 (V9 m ρ) c).arrAt_in 2 rfl _).trans (A_eq4 (V9 m ρ) c 2)) : W10 m ρ c (Proc.devRef .tc main_v27) = W9 m ρ c (Proc.devRef .tc main_v27)).trans (F9_v27 m ρ c)
theorem F10_v85 : (W10 m ρ c (Proc.devRef .tc main_v85) : S50000x128.Idx → EReal) = rH2 m c := by
  refine (W10_arr m ρ c 7).trans ?_
  refine (Cert.KernelIdeal.RegionValue.region4 (V9 m ρ) c).trans ?_
  show Cert.Spec.combine (W9 m ρ c (Proc.devRef .tc main_v75)) (W9 m ρ c (Proc.devRef .tc main_v62)) (W9 m ρ c (Proc.devRef .tc main_v27)) (W9 m ρ c (Proc.devRef .tc main_v78)) (W9 m ρ c (Proc.devRef .tc main_v81)) (W9 m ρ c (Proc.devRef .tc main_v84)) (W9 m ρ c (Proc.devRef .tc main_v57)) = _
  rw [F9_v75 m ρ c, F9_v62 m ρ c, F9_v27 m ρ c, F9_v78 m ρ c, F9_v81 m ρ c, F9_v84 m ρ c, F9_v57 m ρ c]
  exact (Cert.ReferenceIdeal.RefValue.stage_h2 _ _ _ _ _ _ _ _).symm
theorem F10_arg4 : (W10 m ρ c (Proc.devRef .tc main_arg4) : S3x128x128.Idx → EReal) = a4 m c :=
  (W10_of_ne m ρ c main_arg4 (by decide) : W10 m ρ c (Proc.devRef .tc main_arg4) = W9 m ρ c (Proc.devRef .tc main_arg4)).trans (F9_arg4 m ρ c)
theorem F10_arg5 : (W10 m ρ c (Proc.devRef .tc main_arg5) : S3x128.Idx → EReal) = a5 m c :=
  (W10_of_ne m ρ c main_arg5 (by decide) : W10 m ρ c (Proc.devRef .tc main_arg5) = W9 m ρ c (Proc.devRef .tc main_arg5)).trans (F9_arg5 m ρ c)
theorem F10_arg6 : (W10 m ρ c (Proc.devRef .tc main_arg6) : S3x128.Idx → EReal) = a6 m c :=
  (W10_of_ne m ρ c main_arg6 (by decide) : W10 m ρ c (Proc.devRef .tc main_arg6) = W9 m ρ c (Proc.devRef .tc main_arg6)).trans (F9_arg6 m ρ c)
theorem F10_arg7 : (W10 m ρ c (Proc.devRef .tc main_arg7) : S3x128.Idx → EReal) = a7 m c :=
  (W10_of_ne m ρ c main_arg7 (by decide) : W10 m ρ c (Proc.devRef .tc main_arg7) = W9 m ρ c (Proc.devRef .tc main_arg7)).trans (F9_arg7 m ρ c)
theorem F10_arg8 : (W10 m ρ c (Proc.devRef .tc main_arg8) : S128x32.Idx → EReal) = a8 m c :=
  (W10_of_ne m ρ c main_arg8 (by decide) : W10 m ρ c (Proc.devRef .tc main_arg8) = W9 m ρ c (Proc.devRef .tc main_arg8)).trans (F9_arg8 m ρ c)
theorem F10_arg9 : (W10 m ρ c (Proc.devRef .tc main_arg9) : S32.Idx → EReal) = a9 m c :=
  (W10_of_ne m ρ c main_arg9 (by decide) : W10 m ρ c (Proc.devRef .tc main_arg9) = W9 m ρ c (Proc.devRef .tc main_arg9)).trans (F9_arg9 m ρ c)

/-! ### Boundary 11: after host stretch 5 -/

theorem F11_v1 : (W11 m ρ c (Proc.devRef .tc main_v1) : S800000.Idx → Elt Ideal .i32) = rSrc m c :=
  (by keep_host hostOps5 : W11 m ρ c (Proc.devRef .tc main_v1) = W10 m ρ c (Proc.devRef .tc main_v1)).trans (F10_v1 m ρ c)
theorem F11_v3 : (W11 m ρ c (Proc.devRef .tc main_v3) : S800000.Idx → Elt Ideal .i32) = rDst m c :=
  (by keep_host hostOps5 : W11 m ρ c (Proc.devRef .tc main_v3) = W10 m ρ c (Proc.devRef .tc main_v3)).trans (F10_v3 m ρ c)
theorem F11_v25 : (W11 m ρ c (Proc.devRef .tc main_v25) : S800000.Idx → EReal) = rNrm m c :=
  (by keep_host hostOps5 : W11 m ρ c (Proc.devRef .tc main_v25) = W10 m ρ c (Proc.devRef .tc main_v25)).trans (F10_v25 m ρ c)
theorem F11_v27 : (W11 m ρ c (Proc.devRef .tc main_v27) : S50000x1.Idx → EReal) = Cert.Spec.col (rDD m c) :=
  (by keep_host hostOps5 : W11 m ρ c (Proc.devRef .tc main_v27) = W10 m ρ c (Proc.devRef .tc main_v27)).trans (F10_v27 m ρ c)
theorem F11_v85 : (W11 m ρ c (Proc.devRef .tc main_v85) : S50000x128.Idx → EReal) = rH2 m c :=
  (by keep_host hostOps5 : W11 m ρ c (Proc.devRef .tc main_v85) = W10 m ρ c (Proc.devRef .tc main_v85)).trans (F10_v85 m ρ c)
set_option maxHeartbeats 1600000 in
theorem F11_v87 : (W11 m ρ c (Proc.devRef .tc main_v87) : S128x128.Idx → EReal) = rW3 m c := by
  show StableHlo.after hostOps5 (W10 m ρ c) (Proc.devRef .tc main_v87) = _
  after_results
  rw [F10_arg4 m ρ c]
  rfl
set_option maxHeartbeats 1600000 in
theorem F11_v89 : (W11 m ρ c (Proc.devRef .tc main_v89) : S1x128.Idx → EReal) = Cert.Spec.zeroRow := by
  show StableHlo.after hostOps5 (W10 m ρ c) (Proc.devRef .tc main_v89) = _
  after_results
  exact Cert.Glue.zeroRow_eq _ _
theorem F11_arg5 : (W11 m ρ c (Proc.devRef .tc main_arg5) : S3x128.Idx → EReal) = a5 m c :=
  (by keep_host hostOps5 : W11 m ρ c (Proc.devRef .tc main_arg5) = W10 m ρ c (Proc.devRef .tc main_arg5)).trans (F10_arg5 m ρ c)
theorem F11_arg6 : (W11 m ρ c (Proc.devRef .tc main_arg6) : S3x128.Idx → EReal) = a6 m c :=
  (by keep_host hostOps5 : W11 m ρ c (Proc.devRef .tc main_arg6) = W10 m ρ c (Proc.devRef .tc main_arg6)).trans (F10_arg6 m ρ c)
theorem F11_arg7 : (W11 m ρ c (Proc.devRef .tc main_arg7) : S3x128.Idx → EReal) = a7 m c :=
  (by keep_host hostOps5 : W11 m ρ c (Proc.devRef .tc main_arg7) = W10 m ρ c (Proc.devRef .tc main_arg7)).trans (F10_arg7 m ρ c)
theorem F11_arg8 : (W11 m ρ c (Proc.devRef .tc main_arg8) : S128x32.Idx → EReal) = a8 m c :=
  (by keep_host hostOps5 : W11 m ρ c (Proc.devRef .tc main_arg8) = W10 m ρ c (Proc.devRef .tc main_arg8)).trans (F10_arg8 m ρ c)
theorem F11_arg9 : (W11 m ρ c (Proc.devRef .tc main_arg9) : S32.Idx → EReal) = a9 m c :=
  (by keep_host hostOps5 : W11 m ρ c (Proc.devRef .tc main_arg9) = W10 m ρ c (Proc.devRef .tc main_arg9)).trans (F10_arg9 m ρ c)

/-! ### Boundary 12: after the pallas_call of region 5 -/

theorem F12_v1 : (W12 m ρ c (Proc.devRef .tc main_v1) : S800000.Idx → Elt Ideal .i32) = rSrc m c :=
  (W12_of_ne m ρ c main_v1 (by decide) : W12 m ρ c (Proc.devRef .tc main_v1) = W11 m ρ c (Proc.devRef .tc main_v1)).trans (F11_v1 m ρ c)
theorem F12_v3 : (W12 m ρ c (Proc.devRef .tc main_v3) : S800000.Idx → Elt Ideal .i32) = rDst m c :=
  (W12_of_ne m ρ c main_v3 (by decide) : W12 m ρ c (Proc.devRef .tc main_v3) = W11 m ρ c (Proc.devRef .tc main_v3)).trans (F11_v3 m ρ c)
theorem F12_v25 : (W12 m ρ c (Proc.devRef .tc main_v25) : S800000.Idx → EReal) = rNrm m c :=
  (W12_of_ne m ρ c main_v25 (by decide) : W12 m ρ c (Proc.devRef .tc main_v25) = W11 m ρ c (Proc.devRef .tc main_v25)).trans (F11_v25 m ρ c)
theorem F12_v27 : (W12 m ρ c (Proc.devRef .tc main_v27) : S50000x1.Idx → EReal) = Cert.Spec.col (rDD m c) :=
  (W12_of_ne m ρ c main_v27 (by decide) : W12 m ρ c (Proc.devRef .tc main_v27) = W11 m ρ c (Proc.devRef .tc main_v27)).trans (F11_v27 m ρ c)
theorem F12_v85 : (W12 m ρ c (Proc.devRef .tc main_v85) : S50000x128.Idx → EReal) = rH2 m c :=
  ((W12_arr m ρ c 0).trans (((dat5 (V11 m ρ) c).arrAt_in 0 rfl _).trans (A_eq5 (V11 m ρ) c 0)) : W12 m ρ c (Proc.devRef .tc main_v85) = W11 m ρ c (Proc.devRef .tc main_v85)).trans (F11_v85 m ρ c)
theorem F12_v90 : (W12 m ρ c (Proc.devRef .tc main_v90) : S50000x128.Idx → EReal) = rM3 m c := by
  refine (W12_arr m ρ c 3).trans ?_
  refine (Cert.KernelIdeal.RegionValue.region5 (V11 m ρ) c).trans ?_
  show Cert.Spec.lin (W11 m ρ c (Proc.devRef .tc main_v85)) (W11 m ρ c (Proc.devRef .tc main_v87)) (W11 m ρ c (Proc.devRef .tc main_v89)) = _
  rw [F11_v85 m ρ c, F11_v87 m ρ c, F11_v89 m ρ c]
  exact (Cert.ReferenceIdeal.RefValue.stage_m3 _ _ _ _ _ _ _ _).symm
theorem F12_arg5 : (W12 m ρ c (Proc.devRef .tc main_arg5) : S3x128.Idx → EReal) = a5 m c :=
  (W12_of_ne m ρ c main_arg5 (by decide) : W12 m ρ c (Proc.devRef .tc main_arg5) = W11 m ρ c (Proc.devRef .tc main_arg5)).trans (F11_arg5 m ρ c)
theorem F12_arg6 : (W12 m ρ c (Proc.devRef .tc main_arg6) : S3x128.Idx → EReal) = a6 m c :=
  (W12_of_ne m ρ c main_arg6 (by decide) : W12 m ρ c (Proc.devRef .tc main_arg6) = W11 m ρ c (Proc.devRef .tc main_arg6)).trans (F11_arg6 m ρ c)
theorem F12_arg7 : (W12 m ρ c (Proc.devRef .tc main_arg7) : S3x128.Idx → EReal) = a7 m c :=
  (W12_of_ne m ρ c main_arg7 (by decide) : W12 m ρ c (Proc.devRef .tc main_arg7) = W11 m ρ c (Proc.devRef .tc main_arg7)).trans (F11_arg7 m ρ c)
theorem F12_arg8 : (W12 m ρ c (Proc.devRef .tc main_arg8) : S128x32.Idx → EReal) = a8 m c :=
  (W12_of_ne m ρ c main_arg8 (by decide) : W12 m ρ c (Proc.devRef .tc main_arg8) = W11 m ρ c (Proc.devRef .tc main_arg8)).trans (F11_arg8 m ρ c)
theorem F12_arg9 : (W12 m ρ c (Proc.devRef .tc main_arg9) : S32.Idx → EReal) = a9 m c :=
  (W12_of_ne m ρ c main_arg9 (by decide) : W12 m ρ c (Proc.devRef .tc main_arg9) = W11 m ρ c (Proc.devRef .tc main_arg9)).trans (F11_arg9 m ρ c)

end Cert.KernelIdeal.Chain

end
-- ==== Proof.Chain4.lean ====
/-
  The idealized kernel's buffers, boundary by boundary (part 4 of 4). @main is a stretch of host operations, then a
  pallas_call, eight times over; at each of the sixteen boundaries the buffers still to be read hold the REFERENCE's
  values of the same launch arguments: the edge endpoints, the edge normalisation and the self-loop coefficient after the
  first stretch; after each dense pallas_call the dense stage of the network it tiles (a block of 2000 rows at a time,
  every row's entry the same finite sum whatever the tiling); after each layer's host stretch the neighbours' aggregate —
  the same gather, product and scatter-add applied to arrays already known to agree —; and a buffer that a stretch or a
  pallas_call does not write is carried across it unchanged. The last boundary's fact is the result array.
-/
import proofs.«107958_j12893491822680_1_alg».proof.Proof.Gen.KernelIdeal.Frame
import proofs.«107958_j12893491822680_1_alg».proof.Proof.RefReadP
import proofs.«107958_j12893491822680_1_alg».proof.Proof.Spec
import proofs.«107958_j12893491822680_1_alg».proof.Proof.Glue
import proofs.«107958_j12893491822680_1_alg».proof.Proof.LibHostLine
import proofs.«107958_j12893491822680_1_alg».proof.Proof.Region6
import proofs.«107958_j12893491822680_1_alg».proof.Proof.Region7
import proofs.«107958_j12893491822680_1_alg».proof.Proof.RefStages
import proofs.«107958_j12893491822680_1_alg».proof.Proof.RefStagesH3
import proofs.«107958_j12893491822680_1_alg».proof.Proof.Chain3
import Idealize.ShloMosaic.Lib.StableHlo.Run
import Idealize.ShloMosaic.Lib.Pipeline.Value

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The boundaries -/

/-! ### Boundary 13: after host stretch 6 -/

theorem F13_v27 : (W13 m ρ c (Proc.devRef .tc main_v27) : S50000x1.Idx → EReal) = Cert.Spec.col (rDD m c) :=
  (by keep_host hostOps6 : W13 m ρ c (Proc.devRef .tc main_v27) = W12 m ρ c (Proc.devRef .tc main_v27)).trans (F12_v27 m ρ c)
theorem F13_v85 : (W13 m ρ c (Proc.devRef .tc main_v85) : S50000x128.Idx → EReal) = rH2 m c :=
  (by keep_host hostOps6 : W13 m ρ c (Proc.devRef .tc main_v85) = W12 m ρ c (Proc.devRef .tc main_v85)).trans (F12_v85 m ρ c)
theorem F13_v90 : (W13 m ρ c (Proc.devRef .tc main_v90) : S50000x128.Idx → EReal) = rM3 m c :=
  (by keep_host hostOps6 : W13 m ρ c (Proc.devRef .tc main_v90) = W12 m ρ c (Proc.devRef .tc main_v90)).trans (F12_v90 m ρ c)
set_option maxHeartbeats 1600000 in
theorem F13_v103 : (W13 m ρ c (Proc.devRef .tc main_v103) : S50000x128.Idx → EReal) = rAgg3 m c := by
  show StableHlo.after hostOps6 (W12 m ρ c) (Proc.devRef .tc main_v103) = _
  rw [after_take_drop 16]
  refine (by keep_drop hostOps6 : _ = _).trans ?_
  simp only [hostOps6, List.take]
  after_results
  rw [F12_v1 m ρ c, F12_v90 m ρ c, F12_v25 m ρ c, F12_v3 m ρ c]
  rfl
set_option maxHeartbeats 1600000 in
theorem F13_v106 : (W13 m ρ c (Proc.devRef .tc main_v106) : S1x128.Idx → EReal) = Cert.Spec.layerRow (a5 m c) (2 : Fin 3) := by
  show StableHlo.after hostOps6 (W12 m ρ c) (Proc.devRef .tc main_v106) = _
  after_results
  rw [F12_arg5 m ρ c]
  exact (shapeCast_shapeCast _ _ _).trans (Cert.Glue.sliceRow (a5 m c) (2 : Fin 3) _)
set_option maxHeartbeats 1600000 in
theorem F13_v109 : (W13 m ρ c (Proc.devRef .tc main_v109) : S1x128.Idx → EReal) = Cert.Spec.layerRow (a6 m c) (2 : Fin 3) := by
  show StableHlo.after hostOps6 (W12 m ρ c) (Proc.devRef .tc main_v109) = _
  after_results
  rw [F12_arg6 m ρ c]
  exact (shapeCast_shapeCast _ _ _).trans (Cert.Glue.sliceRow (a6 m c) (2 : Fin 3) _)
set_option maxHeartbeats 1600000 in
theorem F13_v112 : (W13 m ρ c (Proc.devRef .tc main_v112) : S1x128.Idx → EReal) = Cert.Spec.layerRow (a7 m c) (2 : Fin 3) := by
  show StableHlo.after hostOps6 (W12 m ρ c) (Proc.devRef .tc main_v112) = _
  after_results
  rw [F12_arg7 m ρ c]
  exact (shapeCast_shapeCast _ _ _).trans (Cert.Glue.sliceRow (a7 m c) (2 : Fin 3) _)
theorem F13_arg8 : (W13 m ρ c (Proc.devRef .tc main_arg8) : S128x32.Idx → EReal) = a8 m c :=
  (by keep_host hostOps6 : W13 m ρ c (Proc.devRef .tc main_arg8) = W12 m ρ c (Proc.devRef .tc main_arg8)).trans (F12_arg8 m ρ c)
theorem F13_arg9 : (W13 m ρ c (Proc.devRef .tc main_arg9) : S32.Idx → EReal) = a9 m c :=
  (by keep_host hostOps6 : W13 m ρ c (Proc.devRef .tc main_arg9) = W12 m ρ c (Proc.devRef .tc main_arg9)).trans (F12_arg9 m ρ c)

/-! ### Boundary 14: after the pallas_call of region 6 -/

theorem F14_v113 : (W14 m ρ c (Proc.devRef .tc main_v113) : S50000x128.Idx → EReal) = rH3 m c := by
  refine (W14_arr m ρ c 7).trans ?_
  refine (Cert.KernelIdeal.RegionValue.region6 (V13 m ρ) c).trans ?_
  show Cert.Spec.combine (W13 m ρ c (Proc.devRef .tc main_v103)) (W13 m ρ c (Proc.devRef .tc main_v90)) (W13 m ρ c (Proc.devRef .tc main_v27)) (W13 m ρ c (Proc.devRef .tc main_v106)) (W13 m ρ c (Proc.devRef .tc main_v109)) (W13 m ρ c (Proc.devRef .tc main_v112)) (W13 m ρ c (Proc.devRef .tc main_v85)) = _
  rw [F13_v103 m ρ c, F13_v90 m ρ c, F13_v27 m ρ c, F13_v106 m ρ c, F13_v109 m ρ c, F13_v112 m ρ c, F13_v85 m ρ c]
  exact (Cert.ReferenceIdeal.RefValue.stage_h3 _ _ _ _ _ _ _ _).symm
theorem F14_arg8 : (W14 m ρ c (Proc.devRef .tc main_arg8) : S128x32.Idx → EReal) = a8 m c :=
  (W14_of_ne m ρ c main_arg8 (by decide) : W14 m ρ c (Proc.devRef .tc main_arg8) = W13 m ρ c (Proc.devRef .tc main_arg8)).trans (F13_arg8 m ρ c)
theorem F14_arg9 : (W14 m ρ c (Proc.devRef .tc main_arg9) : S32.Idx → EReal) = a9 m c :=
  (W14_of_ne m ρ c main_arg9 (by decide) : W14 m ρ c (Proc.devRef .tc main_arg9) = W13 m ρ c (Proc.devRef .tc main_arg9)).trans (F13_arg9 m ρ c)

/-! ### Boundary 15: after host stretch 7 -/

theorem F15_v113 : (W15 m ρ c (Proc.devRef .tc main_v113) : S50000x128.Idx → EReal) = rH3 m c :=
  (by keep_host hostOps7 : W15 m ρ c (Proc.devRef .tc main_v113) = W14 m ρ c (Proc.devRef .tc main_v113)).trans (F14_v113 m ρ c)
set_option maxHeartbeats 1600000 in
theorem F15_v114 : (W15 m ρ c (Proc.devRef .tc main_v114) : S1x32.Idx → EReal) = Cert.Spec.row (a9 m c) := by
  show StableHlo.after hostOps7 (W14 m ρ c) (Proc.devRef .tc main_v114) = _
  after_results
  rw [F14_arg9 m ρ c]
  exact Cert.Glue.vecRow (a9 m c) _
theorem F15_arg8 : (W15 m ρ c (Proc.devRef .tc main_arg8) : S128x32.Idx → EReal) = a8 m c :=
  (by keep_host hostOps7 : W15 m ρ c (Proc.devRef .tc main_arg8) = W14 m ρ c (Proc.devRef .tc main_arg8)).trans (F14_arg8 m ρ c)

/-! ### Boundary 16: after the pallas_call of region 7 -/

theorem F16_v115 : (W16 m ρ c (Proc.devRef .tc main_v115) : S50000x32.Idx → EReal) = rOut m c := by
  refine (W16_arr m ρ c 3).trans ?_
  refine (Cert.KernelIdeal.RegionValue.region7 (V15 m ρ) c).trans ?_
  show Cert.Spec.lin (W15 m ρ c (Proc.devRef .tc main_v113)) (W15 m ρ c (Proc.devRef .tc main_arg8)) (W15 m ρ c (Proc.devRef .tc main_v114)) = _
  rw [F15_v113 m ρ c, F15_arg8 m ρ c, F15_v114 m ρ c]
  exact (Cert.ReferenceIdeal.RefValue.stage_out _ _ _ _ _ _ _ _ _ _).symm

end Cert.KernelIdeal.Chain

end
-- ==== Proof.RefRun.lean ====
/-
  The reference program's run, read one stage of the network at a time.

  The program is a straight line of host operations. What an array holds after the line is a fold over it, and a line
  cut in five stretches — the input layer (with the graph's edge lists and normalisation coefficients), the three
  graph-convolution layers, the output layer — is run by running the stretches one after the other. Each stretch reads
  only the previous stretch's output, four arrays of the graph's structure and the argument arrays, and writes none of
  them; so each boundary is described by a handful of facts "this array holds this stage's value", every value being
  the one-operation-at-a-time definition of the reading module applied to the ARGUMENTS, never a composed term.
-/
import proofs.«107958_j12893491822680_1_alg».proof.Proof.Gen.ReferenceIdeal
import proofs.«107958_j12893491822680_1_alg».proof.Proof.RefReadP
import proofs.«107958_j12893491822680_1_alg».proof.Proof.LibHostLine
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.Read

variable {F : FTy → Type} [FloatOps F]

/-! ## The five stretches of the line -/

/-- The first dense layer and its clamp, together with the edge lists, the per-edge weights and the self-loop coefficients every layer reads. -/
abbrev ops0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x3F800000#32),
    unary main_cst main_v4 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v3 main_v6 (broadcastInDim S800000x1 ![0] bcast_S800000_S800000x1_0 : (⟨S800000, .i32⟩ : BufTy).Contents (Elt F) → (⟨S800000x1, .i32⟩ : BufTy).Contents (Elt F)),
    ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x3F800000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (addf : (⟨S50000, .f32⟩ : BufTy).Contents (Elt F) → (⟨S50000, .f32⟩ : BufTy).Contents (Elt F) → (⟨S50000, .f32⟩ : BufTy).Contents (Elt F)),
    unary main_v9 main_v10 (Host.rsqrt : (⟨S50000, .f32⟩ : BufTy).Contents (Elt F) → (⟨S50000, .f32⟩ : BufTy).Contents (Elt F)),
    nullary main_c (constantI S_ 32 0#32),
    unary main_c main_v11 (broadcastInDim S800000 ![] bcast_S_S800000 : (⟨S_, .i32⟩ : BufTy).Contents (Elt F) → (⟨S800000, .i32⟩ : BufTy).Contents (Elt F)),
    binary main_v1 main_v11 main_v12 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v13 (broadcastInDim S800000 ![] bcast_S_S800000 : (⟨S_, .i32⟩ : BufTy).Contents (Elt F) → (⟨S800000, .i32⟩ : BufTy).Contents (Elt F)),
    binary main_v1 main_v13 main_v14 (addi : (⟨S800000, .i32⟩ : BufTy).Contents (Elt F) → (⟨S800000, .i32⟩ : BufTy).Contents (Elt F) → (⟨S800000, .i32⟩ : BufTy).Contents (Elt F)),
    ternary main_v12 main_v14 main_v1 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v15 main_v16 (broadcastInDim S800000x1 ![0] bcast_S800000_S800000x1_0 : (⟨S800000, .i32⟩ : BufTy).Contents (Elt F) → (⟨S800000x1, .i32⟩ : BufTy).Contents (Elt F)),
    binary main_v10 main_v16 main_v17 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_3 (constantI S_ 32 0#32),
    unary main_c_3 main_v18 (broadcastInDim S800000 ![] bcast_S_S800000 : (⟨S_, .i32⟩ : BufTy).Contents (Elt F) → (⟨S800000, .i32⟩ : BufTy).Contents (Elt F)),
    binary main_v3 main_v18 main_v19 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v20 (broadcastInDim S800000 ![] bcast_S_S800000 : (⟨S_, .i32⟩ : BufTy).Contents (Elt F) → (⟨S800000, .i32⟩ : BufTy).Contents (Elt F)),
    binary main_v3 main_v20 main_v21 (addi : (⟨S800000, .i32⟩ : BufTy).Contents (Elt F) → (⟨S800000, .i32⟩ : BufTy).Contents (Elt F) → (⟨S800000, .i32⟩ : BufTy).Contents (Elt F)),
    ternary main_v19 main_v21 main_v3 main_v22 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v22 main_v23 (broadcastInDim S800000x1 ![0] bcast_S800000_S800000x1_0 : (⟨S800000, .i32⟩ : BufTy).Contents (Elt F) → (⟨S800000x1, .i32⟩ : BufTy).Contents (Elt F)),
    binary main_v10 main_v23 main_v24 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v17 main_v24 main_v25 (mulf : (⟨S800000, .f32⟩ : BufTy).Contents (Elt F) → (⟨S800000, .f32⟩ : BufTy).Contents (Elt F) → (⟨S800000, .f32⟩ : BufTy).Contents (Elt F)),
    binary main_v10 main_v10 main_v26 (mulf : (⟨S50000, .f32⟩ : BufTy).Contents (Elt F) → (⟨S50000, .f32⟩ : BufTy).Contents (Elt F) → (⟨S50000, .f32⟩ : BufTy).Contents (Elt F)),
    unary main_v26 main_v27 (broadcastInDim S50000x1 ![0] bcast_S50000_S50000x1_0 : (⟨S50000, .f32⟩ : BufTy).Contents (Elt F) → (⟨S50000x1, .f32⟩ : BufTy).Contents (Elt F)),
    binary main_arg0 main_arg2 main_v28 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg3 main_v29 (broadcastInDim S1x128 ![1] bcast_S128_S1x128_1 : (⟨S128, .f32⟩ : BufTy).Contents (Elt F) → (⟨S1x128, .f32⟩ : BufTy).Contents (Elt F)),
    unary main_v29 main_v30 (broadcastInDim S50000x128 ![0, 1] bcast_S1x128_S50000x128_0_1 : (⟨S1x128, .f32⟩ : BufTy).Contents (Elt F) → (⟨S50000x128, .f32⟩ : BufTy).Contents (Elt F)),
    binary main_v28 main_v30 main_v31 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v31) (TRef.of (T := ⟨S50000x128, .f32⟩) main_call0_v0) (TRef.of (T := ⟨S50000x128, .f32⟩) main_v32) maximumf ]

/-- The first graph-convolution layer. -/
abbrev ops1 : List (HloOp τ sig (Elt F)) :=
  [ unary main_arg4 main_v33 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v33 main_v34 rfl shapeCasts_S1x128x128_S128x128,
    binary main_v32 main_v34 main_v35 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_5 (constantI S_ 32 0#32),
    unary main_c_5 main_v36 (broadcastInDim S800000 ![] bcast_S_S800000 : (⟨S_, .i32⟩ : BufTy).Contents (Elt F) → (⟨S800000, .i32⟩ : BufTy).Contents (Elt F)),
    binary main_v1 main_v36 main_v37 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v38 (broadcastInDim S800000 ![] bcast_S_S800000 : (⟨S_, .i32⟩ : BufTy).Contents (Elt F) → (⟨S800000, .i32⟩ : BufTy).Contents (Elt F)),
    binary main_v1 main_v38 main_v39 (addi : (⟨S800000, .i32⟩ : BufTy).Contents (Elt F) → (⟨S800000, .i32⟩ : BufTy).Contents (Elt F) → (⟨S800000, .i32⟩ : BufTy).Contents (Elt F)),
    ternary main_v37 main_v39 main_v1 main_v40 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v40 main_v41 (broadcastInDim S800000x1 ![0] bcast_S800000_S800000x1_0 : (⟨S800000, .i32⟩ : BufTy).Contents (Elt F) → (⟨S800000x1, .i32⟩ : BufTy).Contents (Elt F)),
    binary main_v35 main_v41 main_v42 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v25 main_v43 (broadcastInDim S800000x1 ![0] bcast_S800000_S800000x1_0 : (⟨S800000, .f32⟩ : BufTy).Contents (Elt F) → (⟨S800000x1, .f32⟩ : BufTy).Contents (Elt F)),
    unary main_v43 main_v44 (broadcastInDim S800000x128 ![0, 1] bcast_S800000x1_S800000x128_0_1 : (⟨S800000x1, .f32⟩ : BufTy).Contents (Elt F) → (⟨S800000x128, .f32⟩ : BufTy).Contents (Elt F)),
    binary main_v42 main_v44 main_v45 (mulf : (⟨S800000x128, .f32⟩ : BufTy).Contents (Elt F) → (⟨S800000x128, .f32⟩ : BufTy).Contents (Elt F) → (⟨S800000x128, .f32⟩ : BufTy).Contents (Elt F)),
    nullary main_cst_7 (constant S_ .f32 0x00000000#32),
    unary main_cst_7 main_v46 (broadcastInDim S50000x128 ![] bcast_S_S50000x128 : (⟨S_, .f32⟩ : BufTy).Contents (Elt F) → (⟨S50000x128, .f32⟩ : BufTy).Contents (Elt F)),
    unary main_v3 main_v47 (broadcastInDim S800000x1 ![0] bcast_S800000_S800000x1_0 : (⟨S800000, .i32⟩ : BufTy).Contents (Elt F) → (⟨S800000x1, .i32⟩ : BufTy).Contents (Elt F)),
    ternary main_v46 main_v47 main_v45 main_v48 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v27 main_v49 (broadcastInDim S50000x128 ![0, 1] bcast_S50000x1_S50000x128_0_1 : (⟨S50000x1, .f32⟩ : BufTy).Contents (Elt F) → (⟨S50000x128, .f32⟩ : BufTy).Contents (Elt F)),
    binary main_v35 main_v49 main_v50 (mulf : (⟨S50000x128, .f32⟩ : BufTy).Contents (Elt F) → (⟨S50000x128, .f32⟩ : BufTy).Contents (Elt F) → (⟨S50000x128, .f32⟩ : BufTy).Contents (Elt F)),
    binary main_v48 main_v50 main_v51 (addf : (⟨S50000x128, .f32⟩ : BufTy).Contents (Elt F) → (⟨S50000x128, .f32⟩ : BufTy).Contents (Elt F) → (⟨S50000x128, .f32⟩ : BufTy).Contents (Elt F)),
    unary main_arg5 main_v52 ((extractStridedSlice S1x128 ![0, 0] · slices_S3x128_S1x128_0_0) : (⟨S3x128, .f32⟩ : BufTy).Contents (Elt F) → (⟨S1x128, .f32⟩ : BufTy).Contents (Elt F)),
    reshape main_v52 main_v53 rfl shapeCasts_S1x128_S128,
    unary main_v53 main_v54 (broadcastInDim S1x128 ![1] bcast_S128_S1x128_1 : (⟨S128, .f32⟩ : BufTy).Contents (Elt F) → (⟨S1x128, .f32⟩ : BufTy).Contents (Elt F)),
    unary main_v54 main_v55 (broadcastInDim S50000x128 ![0, 1] bcast_S1x128_S50000x128_0_1 : (⟨S1x128, .f32⟩ : BufTy).Contents (Elt F) → (⟨S50000x128, .f32⟩ : BufTy).Contents (Elt F)),
    binary main_v51 main_v55 main_v56 (addf : (⟨S50000x128, .f32⟩ : BufTy).Contents (Elt F) → (⟨S50000x128, .f32⟩ : BufTy).Contents (Elt F) → (⟨S50000x128, .f32⟩ : BufTy).Contents (Elt F)),
    unary main_arg6 main_v57 ((extractStridedSlice S1x128 ![0, 0] · slices_S3x128_S1x128_0_0) : (⟨S3x128, .f32⟩ : BufTy).Contents (Elt F) → (⟨S1x128, .f32⟩ : BufTy).Contents (Elt F)),
    reshape main_v57 main_v58 rfl shapeCasts_S1x128_S128,
    unary main_arg7 main_v59 ((extractStridedSlice S1x128 ![0, 0] · slices_S3x128_S1x128_0_0) : (⟨S3x128, .f32⟩ : BufTy).Contents (Elt F) → (⟨S1x128, .f32⟩ : BufTy).Contents (Elt F)),
    reshape main_v59 main_v60 rfl shapeCasts_S1x128_S128,
    nullary main_cst_8 (constant S_ .f32 0x00000000#32),
    binary main_v56 main_cst_8 main_v61 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v61 main_v62 (broadcastInDim S50000x1 ![0] bcast_S50000_S50000x1_0 : (⟨S50000, .f32⟩ : BufTy).Contents (Elt F) → (⟨S50000x1, .f32⟩ : BufTy).Contents (Elt F)),
    nullary main_cst_9 (constant S_ .f32 0x43000000#32),
    unary main_cst_9 main_v63 (broadcastInDim S50000x1 ![] bcast_S_S50000x1 : (⟨S_, .f32⟩ : BufTy).Contents (Elt F) → (⟨S50000x1, .f32⟩ : BufTy).Contents (Elt F)),
    binary main_v62 main_v63 main_v64 (Host.divf : (⟨S50000x1, .f32⟩ : BufTy).Contents (Elt F) → (⟨S50000x1, .f32⟩ : BufTy).Contents (Elt F) → (⟨S50000x1, .f32⟩ : BufTy).Contents (Elt F)),
    unary main_v64 main_v65 (broadcastInDim S50000x128 ![0, 1] bcast_S50000x1_S50000x128_0_1 : (⟨S50000x1, .f32⟩ : BufTy).Contents (Elt F) → (⟨S50000x128, .f32⟩ : BufTy).Contents (Elt F)),
    binary main_v56 main_v65 main_v66 (subf : (⟨S50000x128, .f32⟩ : BufTy).Contents (Elt F) → (⟨S50000x128, .f32⟩ : BufTy).Contents (Elt F) → (⟨S50000x128, .f32⟩ : BufTy).Contents (Elt F)),
    binary main_v66 main_v66 main_v67 (mulf : (⟨S50000x128, .f32⟩ : BufTy).Contents (Elt F) → (⟨S50000x128, .f32⟩ : BufTy).Contents (Elt F) → (⟨S50000x128, .f32⟩ : BufTy).Contents (Elt F)),
    nullary main_cst_10 (constant S_ .f32 0x00000000#32),
    binary main_v67 main_cst_10 main_v68 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v68 main_v69 (broadcastInDim S50000x1 ![0] bcast_S50000_S50000x1_0 : (⟨S50000, .f32⟩ : BufTy).Contents (Elt F) → (⟨S50000x1, .f32⟩ : BufTy).Contents (Elt F)),
    nullary main_cst_11 (constant S_ .f32 0x43000000#32),
    unary main_cst_11 main_v70 (broadcastInDim S50000x1 ![] bcast_S_S50000x1 : (⟨S_, .f32⟩ : BufTy).Contents (Elt F) → (⟨S50000x1, .f32⟩ : BufTy).Contents (Elt F)),
    binary main_v69 main_v70 main_v71 (Host.divf : (⟨S50000x1, .f32⟩ : BufTy).Contents (Elt F) → (⟨S50000x1, .f32⟩ : BufTy).Contents (Elt F) → (⟨S50000x1, .f32⟩ : BufTy).Contents (Elt F)),
    unary main_v64 main_v72 (broadcastInDim S50000x128 ![0, 1] bcast_S50000x1_S50000x128_0_1 : (⟨S50000x1, .f32⟩ : BufTy).Contents (Elt F) → (⟨S50000x128, .f32⟩ : BufTy).Contents (Elt F)),
    binary main_v56 main_v72 main_v73 (subf : (⟨S50000x128, .f32⟩ : BufTy).Contents (Elt F) → (⟨S50000x128, .f32⟩ : BufTy).Contents (Elt F) → (⟨S50000x128, .f32⟩ : BufTy).Contents (Elt F)),
    nullary main_cst_12 (constant S_ .f32 0x3727C5AC#32),
    unary main_cst_12 main_v74 (broadcastInDim S50000x1 ![] bcast_S_S50000x1 : (⟨S_, .f32⟩ : BufTy).Contents (Elt F) → (⟨S50000x1, .f32⟩ : BufTy).Contents (Elt F)),
    binary main_v71 main_v74 main_v75 (addf : (⟨S50000x1, .f32⟩ : BufTy).Contents (Elt F) → (⟨S50000x1, .f32⟩ : BufTy).Contents (Elt F) → (⟨S50000x1, .f32⟩ : BufTy).Contents (Elt F)),
    unary main_v75 main_v76 (Host.rsqrt : (⟨S50000x1, .f32⟩ : BufTy).Contents (Elt F) → (⟨S50000x1, .f32⟩ : BufTy).Contents (Elt F)),
    unary main_v76 main_v77 (broadcastInDim S50000x128 ![0, 1] bcast_S50000x1_S50000x128_0_1 : (⟨S50000x1, .f32⟩ : BufTy).Contents (Elt F) → (⟨S50000x128, .f32⟩ : BufTy).Contents (Elt F)),
    binary main_v73 main_v77 main_v78 (mulf : (⟨S50000x128, .f32⟩ : BufTy).Contents (Elt F) → (⟨S50000x128, .f32⟩ : BufTy).Contents (Elt F) → (⟨S50000x128, .f32⟩ : BufTy).Contents (Elt F)),
    unary main_v58 main_v79 (broadcastInDim S1x128 ![1] bcast_S128_S1x128_1 : (⟨S128, .f32⟩ : BufTy).Contents (Elt F) → (⟨S1x128, .f32⟩ : BufTy).Contents (Elt F)),
    unary main_v79 main_v80 (broadcastInDim S50000x128 ![0, 1] bcast_S1x128_S50000x128_0_1 : (⟨S1x128, .f32⟩ : BufTy).Contents (Elt F) → (⟨S50000x128, .f32⟩ : BufTy).Contents (Elt F)),
    binary main_v78 main_v80 main_v81 (mulf : (⟨S50000x128, .f32⟩ : BufTy).Contents (Elt F) → (⟨S50000x128, .f32⟩ : BufTy).Contents (Elt F) → (⟨S50000x128, .f32⟩ : BufTy).Contents (Elt F)),
    unary main_v60 main_v82 (broadcastInDim S1x128 ![1] bcast_S128_S1x128_1 : (⟨S128, .f32⟩ : BufTy).Contents (Elt F) → (⟨S1x128, .f32⟩ : BufTy).Contents (Elt F)),
    unary main_v82 main_v83 (broadcastInDim S50000x128 ![0, 1] bcast_S1x128_S50000x128_0_1 : (⟨S1x128, .f32⟩ : BufTy).Contents (Elt F) → (⟨S50000x128, .f32⟩ : BufTy).Contents (Elt F)),
    binary main_v81 main_v83 main_v84 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v84) (TRef.of (T := ⟨S50000x128, .f32⟩) main_call1_v0) (TRef.of (T := ⟨S50000x128, .f32⟩) main_v85) maximumf,
    binary main_v85 main_v32 main_v86 (addf : (⟨S50000x128, .f32⟩ : BufTy).Contents (Elt F) → (⟨S50000x128, .f32⟩ : BufTy).Contents (Elt F) → (⟨S50000x128, .f32⟩ : BufTy).Contents (Elt F)) ]

/-- The second graph-convolution layer. -/
abbrev ops2 : List (HloOp τ sig (Elt F)) :=
  [ unary main_arg4 main_v87 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v87 main_v88 rfl shapeCasts_S1x128x128_S128x128,
    binary main_v86 main_v88 main_v89 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_13 (constantI S_ 32 0#32),
    unary main_c_13 main_v90 (broadcastInDim S800000 ![] bcast_S_S800000 : (⟨S_, .i32⟩ : BufTy).Contents (Elt F) → (⟨S800000, .i32⟩ : BufTy).Contents (Elt F)),
    binary main_v1 main_v90 main_v91 (cmpi .slt : (⟨S800000, .i32⟩ : BufTy).Contents (Elt F) → (⟨S800000, .i32⟩ : BufTy).Contents (Elt F) → (⟨S800000, .i1⟩ : BufTy).Contents (Elt F)),
    nullary main_c_14 (constantI S_ 32 50000#32),
    unary main_c_14 main_v92 (broadcastInDim S800000 ![] bcast_S_S800000 : (⟨S_, .i32⟩ : BufTy).Contents (Elt F) → (⟨S800000, .i32⟩ : BufTy).Contents (Elt F)),
    binary main_v1 main_v92 main_v93 (addi : (⟨S800000, .i32⟩ : BufTy).Contents (Elt F) → (⟨S800000, .i32⟩ : BufTy).Contents (Elt F) → (⟨S800000, .i32⟩ : BufTy).Contents (Elt F)),
    ternary main_v91 main_v93 main_v1 main_v94 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v94 main_v95 (broadcastInDim S800000x1 ![0] bcast_S800000_S800000x1_0 : (⟨S800000, .i32⟩ : BufTy).Contents (Elt F) → (⟨S800000x1, .i32⟩ : BufTy).Contents (Elt F)),
    binary main_v89 main_v95 main_v96 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v25 main_v97 (broadcastInDim S800000x1 ![0] bcast_S800000_S800000x1_0 : (⟨S800000, .f32⟩ : BufTy).Contents (Elt F) → (⟨S800000x1, .f32⟩ : BufTy).Contents (Elt F)),
    unary main_v97 main_v98 (broadcastInDim S800000x128 ![0, 1] bcast_S800000x1_S800000x128_0_1 : (⟨S800000x1, .f32⟩ : BufTy).Contents (Elt F) → (⟨S800000x128, .f32⟩ : BufTy).Contents (Elt F)),
    binary main_v96 main_v98 main_v99 (mulf : (⟨S800000x128, .f32⟩ : BufTy).Contents (Elt F) → (⟨S800000x128, .f32⟩ : BufTy).Contents (Elt F) → (⟨S800000x128, .f32⟩ : BufTy).Contents (Elt F)),
    nullary main_cst_15 (constant S_ .f32 0x00000000#32),
    unary main_cst_15 main_v100 (broadcastInDim S50000x128 ![] bcast_S_S50000x128 : (⟨S_, .f32⟩ : BufTy).Contents (Elt F) → (⟨S50000x128, .f32⟩ : BufTy).Contents (Elt F)),
    unary main_v3 main_v101 (broadcastInDim S800000x1 ![0] bcast_S800000_S800000x1_0 : (⟨S800000, .i32⟩ : BufTy).Contents (Elt F) → (⟨S800000x1, .i32⟩ : BufTy).Contents (Elt F)),
    ternary main_v100 main_v101 main_v99 main_v102 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v27 main_v103 (broadcastInDim S50000x128 ![0, 1] bcast_S50000x1_S50000x128_0_1 : (⟨S50000x1, .f32⟩ : BufTy).Contents (Elt F) → (⟨S50000x128, .f32⟩ : BufTy).Contents (Elt F)),
    binary main_v89 main_v103 main_v104 (mulf : (⟨S50000x128, .f32⟩ : BufTy).Contents (Elt F) → (⟨S50000x128, .f32⟩ : BufTy).Contents (Elt F) → (⟨S50000x128, .f32⟩ : BufTy).Contents (Elt F)),
    binary main_v102 main_v104 main_v105 (addf : (⟨S50000x128, .f32⟩ : BufTy).Contents (Elt F) → (⟨S50000x128, .f32⟩ : BufTy).Contents (Elt F) → (⟨S50000x128, .f32⟩ : BufTy).Contents (Elt F)),
    unary main_arg5 main_v106 ((extractStridedSlice S1x128 ![1, 0] · slices_S3x128_S1x128_1_0) : (⟨S3x128, .f32⟩ : BufTy).Contents (Elt F) → (⟨S1x128, .f32⟩ : BufTy).Contents (Elt F)),
    reshape main_v106 main_v107 rfl shapeCasts_S1x128_S128,
    unary main_v107 main_v108 (broadcastInDim S1x128 ![1] bcast_S128_S1x128_1 : (⟨S128, .f32⟩ : BufTy).Contents (Elt F) → (⟨S1x128, .f32⟩ : BufTy).Contents (Elt F)),
    unary main_v108 main_v109 (broadcastInDim S50000x128 ![0, 1] bcast_S1x128_S50000x128_0_1 : (⟨S1x128, .f32⟩ : BufTy).Contents (Elt F) → (⟨S50000x128, .f32⟩ : BufTy).Contents (Elt F)),
    binary main_v105 main_v109 main_v110 (addf : (⟨S50000x128, .f32⟩ : BufTy).Contents (Elt F) → (⟨S50000x128, .f32⟩ : BufTy).Contents (Elt F) → (⟨S50000x128, .f32⟩ : BufTy).Contents (Elt F)),
    unary main_arg6 main_v111 ((extractStridedSlice S1x128 ![1, 0] · slices_S3x128_S1x128_1_0) : (⟨S3x128, .f32⟩ : BufTy).Contents (Elt F) → (⟨S1x128, .f32⟩ : BufTy).Contents (Elt F)),
    reshape main_v111 main_v112 rfl shapeCasts_S1x128_S128,
    unary main_arg7 main_v113 ((extractStridedSlice S1x128 ![1, 0] · slices_S3x128_S1x128_1_0) : (⟨S3x128, .f32⟩ : BufTy).Contents (Elt F) → (⟨S1x128, .f32⟩ : BufTy).Contents (Elt F)),
    reshape main_v113 main_v114 rfl shapeCasts_S1x128_S128,
    nullary main_cst_16 (constant S_ .f32 0x00000000#32),
    binary main_v110 main_cst_16 main_v115 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v115 main_v116 (broadcastInDim S50000x1 ![0] bcast_S50000_S50000x1_0 : (⟨S50000, .f32⟩ : BufTy).Contents (Elt F) → (⟨S50000x1, .f32⟩ : BufTy).Contents (Elt F)),
    nullary main_cst_17 (constant S_ .f32 0x43000000#32),
    unary main_cst_17 main_v117 (broadcastInDim S50000x1 ![] bcast_S_S50000x1 : (⟨S_, .f32⟩ : BufTy).Contents (Elt F) → (⟨S50000x1, .f32⟩ : BufTy).Contents (Elt F)),
    binary main_v116 main_v117 main_v118 (Host.divf : (⟨S50000x1, .f32⟩ : BufTy).Contents (Elt F) → (⟨S50000x1, .f32⟩ : BufTy).Contents (Elt F) → (⟨S50000x1, .f32⟩ : BufTy).Contents (Elt F)),
    unary main_v118 main_v119 (broadcastInDim S50000x128 ![0, 1] bcast_S50000x1_S50000x128_0_1 : (⟨S50000x1, .f32⟩ : BufTy).Contents (Elt F) → (⟨S50000x128, .f32⟩ : BufTy).Contents (Elt F)),
    binary main_v110 main_v119 main_v120 (subf : (⟨S50000x128, .f32⟩ : BufTy).Contents (Elt F) → (⟨S50000x128, .f32⟩ : BufTy).Contents (Elt F) → (⟨S50000x128, .f32⟩ : BufTy).Contents (Elt F)),
    binary main_v120 main_v120 main_v121 (mulf : (⟨S50000x128, .f32⟩ : BufTy).Contents (Elt F) → (⟨S50000x128, .f32⟩ : BufTy).Contents (Elt F) → (⟨S50000x128, .f32⟩ : BufTy).Contents (Elt F)),
    nullary main_cst_18 (constant S_ .f32 0x00000000#32),
    binary main_v121 main_cst_18 main_v122 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v122 main_v123 (broadcastInDim S50000x1 ![0] bcast_S50000_S50000x1_0 : (⟨S50000, .f32⟩ : BufTy).Contents (Elt F) → (⟨S50000x1, .f32⟩ : BufTy).Contents (Elt F)),
    nullary main_cst_19 (constant S_ .f32 0x43000000#32),
    unary main_cst_19 main_v124 (broadcastInDim S50000x1 ![] bcast_S_S50000x1 : (⟨S_, .f32⟩ : BufTy).Contents (Elt F) → (⟨S50000x1, .f32⟩ : BufTy).Contents (Elt F)),
    binary main_v123 main_v124 main_v125 (Host.divf : (⟨S50000x1, .f32⟩ : BufTy).Contents (Elt F) → (⟨S50000x1, .f32⟩ : BufTy).Contents (Elt F) → (⟨S50000x1, .f32⟩ : BufTy).Contents (Elt F)),
    unary main_v118 main_v126 (broadcastInDim S50000x128 ![0, 1] bcast_S50000x1_S50000x128_0_1 : (⟨S50000x1, .f32⟩ : BufTy).Contents (Elt F) → (⟨S50000x128, .f32⟩ : BufTy).Contents (Elt F)),
    binary main_v110 main_v126 main_v127 (subf : (⟨S50000x128, .f32⟩ : BufTy).Contents (Elt F) → (⟨S50000x128, .f32⟩ : BufTy).Contents (Elt F) → (⟨S50000x128, .f32⟩ : BufTy).Contents (Elt F)),
    nullary main_cst_20 (constant S_ .f32 0x3727C5AC#32),
    unary main_cst_20 main_v128 (broadcastInDim S50000x1 ![] bcast_S_S50000x1 : (⟨S_, .f32⟩ : BufTy).Contents (Elt F) → (⟨S50000x1, .f32⟩ : BufTy).Contents (Elt F)),
    binary main_v125 main_v128 main_v129 (addf : (⟨S50000x1, .f32⟩ : BufTy).Contents (Elt F) → (⟨S50000x1, .f32⟩ : BufTy).Contents (Elt F) → (⟨S50000x1, .f32⟩ : BufTy).Contents (Elt F)),
    unary main_v129 main_v130 (Host.rsqrt : (⟨S50000x1, .f32⟩ : BufTy).Contents (Elt F) → (⟨S50000x1, .f32⟩ : BufTy).Contents (Elt F)),
    unary main_v130 main_v131 (broadcastInDim S50000x128 ![0, 1] bcast_S50000x1_S50000x128_0_1 : (⟨S50000x1, .f32⟩ : BufTy).Contents (Elt F) → (⟨S50000x128, .f32⟩ : BufTy).Contents (Elt F)),
    binary main_v127 main_v131 main_v132 (mulf : (⟨S50000x128, .f32⟩ : BufTy).Contents (Elt F) → (⟨S50000x128, .f32⟩ : BufTy).Contents (Elt F) → (⟨S50000x128, .f32⟩ : BufTy).Contents (Elt F)),
    unary main_v112 main_v133 (broadcastInDim S1x128 ![1] bcast_S128_S1x128_1 : (⟨S128, .f32⟩ : BufTy).Contents (Elt F) → (⟨S1x128, .f32⟩ : BufTy).Contents (Elt F)),
    unary main_v133 main_v134 (broadcastInDim S50000x128 ![0, 1] bcast_S1x128_S50000x128_0_1 : (⟨S1x128, .f32⟩ : BufTy).Contents (Elt F) → (⟨S50000x128, .f32⟩ : BufTy).Contents (Elt F)),
    binary main_v132 main_v134 main_v135 (mulf : (⟨S50000x128, .f32⟩ : BufTy).Contents (Elt F) → (⟨S50000x128, .f32⟩ : BufTy).Contents (Elt F) → (⟨S50000x128, .f32⟩ : BufTy).Contents (Elt F)),
    unary main_v114 main_v136 (broadcastInDim S1x128 ![1] bcast_S128_S1x128_1 : (⟨S128, .f32⟩ : BufTy).Contents (Elt F) → (⟨S1x128, .f32⟩ : BufTy).Contents (Elt F)),
    unary main_v136 main_v137 (broadcastInDim S50000x128 ![0, 1] bcast_S1x128_S50000x128_0_1 : (⟨S1x128, .f32⟩ : BufTy).Contents (Elt F) → (⟨S50000x128, .f32⟩ : BufTy).Contents (Elt F)),
    binary main_v135 main_v137 main_v138 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v138) (TRef.of (T := ⟨S50000x128, .f32⟩) main_call2_v0) (TRef.of (T := ⟨S50000x128, .f32⟩) main_v139) maximumf,
    binary main_v139 main_v86 main_v140 (addf : (⟨S50000x128, .f32⟩ : BufTy).Contents (Elt F) → (⟨S50000x128, .f32⟩ : BufTy).Contents (Elt F) → (⟨S50000x128, .f32⟩ : BufTy).Contents (Elt F)) ]

/-- The third graph-convolution layer. -/
abbrev ops3 : List (HloOp τ sig (Elt F)) :=
  [ unary main_arg4 main_v141 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v141 main_v142 rfl shapeCasts_S1x128x128_S128x128,
    binary main_v140 main_v142 main_v143 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_21 (constantI S_ 32 0#32),
    unary main_c_21 main_v144 (broadcastInDim S800000 ![] bcast_S_S800000 : (⟨S_, .i32⟩ : BufTy).Contents (Elt F) → (⟨S800000, .i32⟩ : BufTy).Contents (Elt F)),
    binary main_v1 main_v144 main_v145 (cmpi .slt : (⟨S800000, .i32⟩ : BufTy).Contents (Elt F) → (⟨S800000, .i32⟩ : BufTy).Contents (Elt F) → (⟨S800000, .i1⟩ : BufTy).Contents (Elt F)),
    nullary main_c_22 (constantI S_ 32 50000#32),
    unary main_c_22 main_v146 (broadcastInDim S800000 ![] bcast_S_S800000 : (⟨S_, .i32⟩ : BufTy).Contents (Elt F) → (⟨S800000, .i32⟩ : BufTy).Contents (Elt F)),
    binary main_v1 main_v146 main_v147 (addi : (⟨S800000, .i32⟩ : BufTy).Contents (Elt F) → (⟨S800000, .i32⟩ : BufTy).Contents (Elt F) → (⟨S800000, .i32⟩ : BufTy).Contents (Elt F)),
    ternary main_v145 main_v147 main_v1 main_v148 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v148 main_v149 (broadcastInDim S800000x1 ![0] bcast_S800000_S800000x1_0 : (⟨S800000, .i32⟩ : BufTy).Contents (Elt F) → (⟨S800000x1, .i32⟩ : BufTy).Contents (Elt F)),
    binary main_v143 main_v149 main_v150 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v25 main_v151 (broadcastInDim S800000x1 ![0] bcast_S800000_S800000x1_0 : (⟨S800000, .f32⟩ : BufTy).Contents (Elt F) → (⟨S800000x1, .f32⟩ : BufTy).Contents (Elt F)),
    unary main_v151 main_v152 (broadcastInDim S800000x128 ![0, 1] bcast_S800000x1_S800000x128_0_1 : (⟨S800000x1, .f32⟩ : BufTy).Contents (Elt F) → (⟨S800000x128, .f32⟩ : BufTy).Contents (Elt F)),
    binary main_v150 main_v152 main_v153 (mulf : (⟨S800000x128, .f32⟩ : BufTy).Contents (Elt F) → (⟨S800000x128, .f32⟩ : BufTy).Contents (Elt F) → (⟨S800000x128, .f32⟩ : BufTy).Contents (Elt F)),
    nullary main_cst_23 (constant S_ .f32 0x00000000#32),
    unary main_cst_23 main_v154 (broadcastInDim S50000x128 ![] bcast_S_S50000x128 : (⟨S_, .f32⟩ : BufTy).Contents (Elt F) → (⟨S50000x128, .f32⟩ : BufTy).Contents (Elt F)),
    unary main_v3 main_v155 (broadcastInDim S800000x1 ![0] bcast_S800000_S800000x1_0 : (⟨S800000, .i32⟩ : BufTy).Contents (Elt F) → (⟨S800000x1, .i32⟩ : BufTy).Contents (Elt F)),
    ternary main_v154 main_v155 main_v153 main_v156 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v27 main_v157 (broadcastInDim S50000x128 ![0, 1] bcast_S50000x1_S50000x128_0_1 : (⟨S50000x1, .f32⟩ : BufTy).Contents (Elt F) → (⟨S50000x128, .f32⟩ : BufTy).Contents (Elt F)),
    binary main_v143 main_v157 main_v158 (mulf : (⟨S50000x128, .f32⟩ : BufTy).Contents (Elt F) → (⟨S50000x128, .f32⟩ : BufTy).Contents (Elt F) → (⟨S50000x128, .f32⟩ : BufTy).Contents (Elt F)),
    binary main_v156 main_v158 main_v159 (addf : (⟨S50000x128, .f32⟩ : BufTy).Contents (Elt F) → (⟨S50000x128, .f32⟩ : BufTy).Contents (Elt F) → (⟨S50000x128, .f32⟩ : BufTy).Contents (Elt F)),
    unary main_arg5 main_v160 ((extractStridedSlice S1x128 ![2, 0] · slices_S3x128_S1x128_2_0) : (⟨S3x128, .f32⟩ : BufTy).Contents (Elt F) → (⟨S1x128, .f32⟩ : BufTy).Contents (Elt F)),
    reshape main_v160 main_v161 rfl shapeCasts_S1x128_S128,
    unary main_v161 main_v162 (broadcastInDim S1x128 ![1] bcast_S128_S1x128_1 : (⟨S128, .f32⟩ : BufTy).Contents (Elt F) → (⟨S1x128, .f32⟩ : BufTy).Contents (Elt F)),
    unary main_v162 main_v163 (broadcastInDim S50000x128 ![0, 1] bcast_S1x128_S50000x128_0_1 : (⟨S1x128, .f32⟩ : BufTy).Contents (Elt F) → (⟨S50000x128, .f32⟩ : BufTy).Contents (Elt F)),
    binary main_v159 main_v163 main_v164 (addf : (⟨S50000x128, .f32⟩ : BufTy).Contents (Elt F) → (⟨S50000x128, .f32⟩ : BufTy).Contents (Elt F) → (⟨S50000x128, .f32⟩ : BufTy).Contents (Elt F)),
    unary main_arg6 main_v165 ((extractStridedSlice S1x128 ![2, 0] · slices_S3x128_S1x128_2_0) : (⟨S3x128, .f32⟩ : BufTy).Contents (Elt F) → (⟨S1x128, .f32⟩ : BufTy).Contents (Elt F)),
    reshape main_v165 main_v166 rfl shapeCasts_S1x128_S128,
    unary main_arg7 main_v167 ((extractStridedSlice S1x128 ![2, 0] · slices_S3x128_S1x128_2_0) : (⟨S3x128, .f32⟩ : BufTy).Contents (Elt F) → (⟨S1x128, .f32⟩ : BufTy).Contents (Elt F)),
    reshape main_v167 main_v168 rfl shapeCasts_S1x128_S128,
    nullary main_cst_24 (constant S_ .f32 0x00000000#32),
    binary main_v164 main_cst_24 main_v169 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v169 main_v170 (broadcastInDim S50000x1 ![0] bcast_S50000_S50000x1_0 : (⟨S50000, .f32⟩ : BufTy).Contents (Elt F) → (⟨S50000x1, .f32⟩ : BufTy).Contents (Elt F)),
    nullary main_cst_25 (constant S_ .f32 0x43000000#32),
    unary main_cst_25 main_v171 (broadcastInDim S50000x1 ![] bcast_S_S50000x1 : (⟨S_, .f32⟩ : BufTy).Contents (Elt F) → (⟨S50000x1, .f32⟩ : BufTy).Contents (Elt F)),
    binary main_v170 main_v171 main_v172 (Host.divf : (⟨S50000x1, .f32⟩ : BufTy).Contents (Elt F) → (⟨S50000x1, .f32⟩ : BufTy).Contents (Elt F) → (⟨S50000x1, .f32⟩ : BufTy).Contents (Elt F)),
    unary main_v172 main_v173 (broadcastInDim S50000x128 ![0, 1] bcast_S50000x1_S50000x128_0_1 : (⟨S50000x1, .f32⟩ : BufTy).Contents (Elt F) → (⟨S50000x128, .f32⟩ : BufTy).Contents (Elt F)),
    binary main_v164 main_v173 main_v174 (subf : (⟨S50000x128, .f32⟩ : BufTy).Contents (Elt F) → (⟨S50000x128, .f32⟩ : BufTy).Contents (Elt F) → (⟨S50000x128, .f32⟩ : BufTy).Contents (Elt F)),
    binary main_v174 main_v174 main_v175 (mulf : (⟨S50000x128, .f32⟩ : BufTy).Contents (Elt F) → (⟨S50000x128, .f32⟩ : BufTy).Contents (Elt F) → (⟨S50000x128, .f32⟩ : BufTy).Contents (Elt F)),
    nullary main_cst_26 (constant S_ .f32 0x00000000#32),
    binary main_v175 main_cst_26 main_v176 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v176 main_v177 (broadcastInDim S50000x1 ![0] bcast_S50000_S50000x1_0 : (⟨S50000, .f32⟩ : BufTy).Contents (Elt F) → (⟨S50000x1, .f32⟩ : BufTy).Contents (Elt F)),
    nullary main_cst_27 (constant S_ .f32 0x43000000#32),
    unary main_cst_27 main_v178 (broadcastInDim S50000x1 ![] bcast_S_S50000x1 : (⟨S_, .f32⟩ : BufTy).Contents (Elt F) → (⟨S50000x1, .f32⟩ : BufTy).Contents (Elt F)),
    binary main_v177 main_v178 main_v179 (Host.divf : (⟨S50000x1, .f32⟩ : BufTy).Contents (Elt F) → (⟨S50000x1, .f32⟩ : BufTy).Contents (Elt F) → (⟨S50000x1, .f32⟩ : BufTy).Contents (Elt F)),
    unary main_v172 main_v180 (broadcastInDim S50000x128 ![0, 1] bcast_S50000x1_S50000x128_0_1 : (⟨S50000x1, .f32⟩ : BufTy).Contents (Elt F) → (⟨S50000x128, .f32⟩ : BufTy).Contents (Elt F)),
    binary main_v164 main_v180 main_v181 (subf : (⟨S50000x128, .f32⟩ : BufTy).Contents (Elt F) → (⟨S50000x128, .f32⟩ : BufTy).Contents (Elt F) → (⟨S50000x128, .f32⟩ : BufTy).Contents (Elt F)),
    nullary main_cst_28 (constant S_ .f32 0x3727C5AC#32),
    unary main_cst_28 main_v182 (broadcastInDim S50000x1 ![] bcast_S_S50000x1 : (⟨S_, .f32⟩ : BufTy).Contents (Elt F) → (⟨S50000x1, .f32⟩ : BufTy).Contents (Elt F)),
    binary main_v179 main_v182 main_v183 (addf : (⟨S50000x1, .f32⟩ : BufTy).Contents (Elt F) → (⟨S50000x1, .f32⟩ : BufTy).Contents (Elt F) → (⟨S50000x1, .f32⟩ : BufTy).Contents (Elt F)),
    unary main_v183 main_v184 (Host.rsqrt : (⟨S50000x1, .f32⟩ : BufTy).Contents (Elt F) → (⟨S50000x1, .f32⟩ : BufTy).Contents (Elt F)),
    unary main_v184 main_v185 (broadcastInDim S50000x128 ![0, 1] bcast_S50000x1_S50000x128_0_1 : (⟨S50000x1, .f32⟩ : BufTy).Contents (Elt F) → (⟨S50000x128, .f32⟩ : BufTy).Contents (Elt F)),
    binary main_v181 main_v185 main_v186 (mulf : (⟨S50000x128, .f32⟩ : BufTy).Contents (Elt F) → (⟨S50000x128, .f32⟩ : BufTy).Contents (Elt F) → (⟨S50000x128, .f32⟩ : BufTy).Contents (Elt F)),
    unary main_v166 main_v187 (broadcastInDim S1x128 ![1] bcast_S128_S1x128_1 : (⟨S128, .f32⟩ : BufTy).Contents (Elt F) → (⟨S1x128, .f32⟩ : BufTy).Contents (Elt F)),
    unary main_v187 main_v188 (broadcastInDim S50000x128 ![0, 1] bcast_S1x128_S50000x128_0_1 : (⟨S1x128, .f32⟩ : BufTy).Contents (Elt F) → (⟨S50000x128, .f32⟩ : BufTy).Contents (Elt F)),
    binary main_v186 main_v188 main_v189 (mulf : (⟨S50000x128, .f32⟩ : BufTy).Contents (Elt F) → (⟨S50000x128, .f32⟩ : BufTy).Contents (Elt F) → (⟨S50000x128, .f32⟩ : BufTy).Contents (Elt F)),
    unary main_v168 main_v190 (broadcastInDim S1x128 ![1] bcast_S128_S1x128_1 : (⟨S128, .f32⟩ : BufTy).Contents (Elt F) → (⟨S1x128, .f32⟩ : BufTy).Contents (Elt F)),
    unary main_v190 main_v191 (broadcastInDim S50000x128 ![0, 1] bcast_S1x128_S50000x128_0_1 : (⟨S1x128, .f32⟩ : BufTy).Contents (Elt F) → (⟨S50000x128, .f32⟩ : BufTy).Contents (Elt F)),
    binary main_v189 main_v191 main_v192 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v192) (TRef.of (T := ⟨S50000x128, .f32⟩) main_call3_v0) (TRef.of (T := ⟨S50000x128, .f32⟩) main_v193) maximumf,
    binary main_v193 main_v140 main_v194 (addf : (⟨S50000x128, .f32⟩ : BufTy).Contents (Elt F) → (⟨S50000x128, .f32⟩ : BufTy).Contents (Elt F) → (⟨S50000x128, .f32⟩ : BufTy).Contents (Elt F)) ]

/-- The output layer. -/
abbrev ops4 : List (HloOp τ sig (Elt F)) :=
  [ binary main_v194 main_arg8 main_v195 ((fun l r => Host.dotGeneral dot_S50000x128_S128x32_S50000x32_1_0_0_1_n_n none l r) : (⟨S50000x128, .f32⟩ : BufTy).Contents (Elt F) → (⟨S128x32, .f32⟩ : BufTy).Contents (Elt F) → (⟨S50000x32, .f32⟩ : BufTy).Contents (Elt F)),
    unary main_arg9 main_v196 (broadcastInDim S1x32 ![1] bcast_S32_S1x32_1 : (⟨S32, .f32⟩ : BufTy).Contents (Elt F) → (⟨S1x32, .f32⟩ : BufTy).Contents (Elt F)),
    unary main_v196 main_v197 (broadcastInDim S50000x32 ![0, 1] bcast_S1x32_S50000x32_0_1 : (⟨S1x32, .f32⟩ : BufTy).Contents (Elt F) → (⟨S50000x32, .f32⟩ : BufTy).Contents (Elt F)),
    binary main_v195 main_v197 main_v198 (addf : (⟨S50000x32, .f32⟩ : BufTy).Contents (Elt F) → (⟨S50000x32, .f32⟩ : BufTy).Contents (Elt F) → (⟨S50000x32, .f32⟩ : BufTy).Contents (Elt F)) ]

set_option maxRecDepth 8192 in
set_option maxHeartbeats 4000000 in
/-- The program is the line of the five stretches. -/
theorem main_eq (c : Dev nD) : main (F := F) c = seq (ops0 ++ (ops1 ++ (ops2 ++ (ops3 ++ ops4)))) := rfl
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., binary_bufs_sub .., unary_bufs_sub .., unary_bufs_sub .., binary_bufs_sub .., nullary_bufs_sub .., unary_bufs_sub .., binary_bufs_sub ..⟩
set_option maxRecDepth 8192 in
theorem ops0_fresh : ∀ op ∈ (ops0 : List (HloOp τ sig (Elt F))), op.fresh = ∅ := by
  intro _ h; (repeat (cases h with | head => rfl | tail _ h => ?_)); exact nomatch h
/-- The arrays the stretch writes. -/
abbrev ops0_W : List (Ref sig .tc) := [main_v0, main_v1, main_v2, main_v3, main_cst, main_v4, main_cst_0, main_v5, main_v6, main_v7, main_cst_1, main_v8, main_v9, main_v10, main_c, main_v11, main_v12, main_c_2, main_v13, main_v14, main_v15, main_v16, main_v17, main_c_3, main_v18, main_v19, main_c_4, main_v20, main_v21, main_v22, main_v23, main_v24, main_v25, main_v26, main_v27, main_v28, main_v29, main_v30, main_v31, main_call0_cst, main_call0_v0, main_v32]
set_option maxRecDepth 8192 in
theorem ops0_writes : (ops0 : List (HloOp τ sig (Elt F))).Forall fun op => op.writes ⊆ (ops0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

set_option maxRecDepth 8192 in
theorem ops1_sub : (ops1 : List (HloOp τ sig (Elt F))).Forall fun op => op.bufs ⊆ tcRefs τ sig :=
  ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub ..⟩
set_option maxRecDepth 8192 in
theorem ops1_fresh : ∀ op ∈ (ops1 : List (HloOp τ sig (Elt F))), op.fresh = ∅ := by
  intro _ h; (repeat (cases h with | head => rfl | tail _ h => ?_)); exact nomatch h
/-- The arrays the stretch writes. -/
abbrev ops1_W : List (Ref sig .tc) := [main_v33, main_v34, main_v35, main_c_5, main_v36, main_v37, main_c_6, main_v38, main_v39, main_v40, main_v41, main_v42, main_v43, main_v44, main_v45, main_cst_7, main_v46, main_v47, main_v48, main_v49, main_v50, main_v51, main_v52, main_v53, main_v54, main_v55, main_v56, main_v57, main_v58, main_v59, main_v60, main_cst_8, main_v61, main_v62, main_cst_9, main_v63, main_v64, main_v65, main_v66, main_v67, main_cst_10, main_v68, main_v69, main_cst_11, main_v70, main_v71, main_v72, main_v73, main_cst_12, main_v74, main_v75, main_v76, main_v77, main_v78, main_v79, main_v80, main_v81, main_v82, main_v83, main_v84, main_call1_cst, main_call1_v0, main_v85, main_v86]
set_option maxRecDepth 8192 in
theorem ops1_writes : (ops1 : List (HloOp τ sig (Elt F))).Forall fun op => op.writes ⊆ (ops1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

set_option maxRecDepth 8192 in
theorem ops2_sub : (ops2 : List (HloOp τ sig (Elt F))).Forall fun op => op.bufs ⊆ tcRefs τ sig :=
  ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub ..⟩
set_option maxRecDepth 8192 in
theorem ops2_fresh : ∀ op ∈ (ops2 : List (HloOp τ sig (Elt F))), op.fresh = ∅ := by
  intro _ h; (repeat (cases h with | head => rfl | tail _ h => ?_)); exact nomatch h
/-- The arrays the stretch writes. -/
abbrev ops2_W : List (Ref sig .tc) := [main_v87, main_v88, main_v89, main_c_13, main_v90, main_v91, main_c_14, main_v92, main_v93, main_v94, main_v95, main_v96, main_v97, main_v98, main_v99, main_cst_15, main_v100, main_v101, main_v102, main_v103, main_v104, main_v105, main_v106, main_v107, main_v108, main_v109, main_v110, main_v111, main_v112, main_v113, main_v114, main_cst_16, main_v115, main_v116, main_cst_17, main_v117, main_v118, main_v119, main_v120, main_v121, main_cst_18, main_v122, main_v123, main_cst_19, main_v124, main_v125, main_v126, main_v127, main_cst_20, main_v128, main_v129, main_v130, main_v131, main_v132, main_v133, main_v134, main_v135, main_v136, main_v137, main_v138, main_call2_cst, main_call2_v0, main_v139, main_v140]
set_option maxRecDepth 8192 in
theorem ops2_writes : (ops2 : List (HloOp τ sig (Elt F))).Forall fun op => op.writes ⊆ (ops2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

set_option maxRecDepth 8192 in
theorem ops3_sub : (ops3 : List (HloOp τ sig (Elt F))).Forall fun op => op.bufs ⊆ tcRefs τ sig :=
  ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub ..⟩
set_option maxRecDepth 8192 in
theorem ops3_fresh : ∀ op ∈ (ops3 : List (HloOp τ sig (Elt F))), op.fresh = ∅ := by
  intro _ h; (repeat (cases h with | head => rfl | tail _ h => ?_)); exact nomatch h
/-- The arrays the stretch writes. -/
abbrev ops3_W : List (Ref sig .tc) := [main_v141, main_v142, main_v143, main_c_21, main_v144, main_v145, main_c_22, main_v146, main_v147, main_v148, main_v149, main_v150, main_v151, main_v152, main_v153, main_cst_23, main_v154, main_v155, main_v156, main_v157, main_v158, main_v159, main_v160, main_v161, main_v162, main_v163, main_v164, main_v165, main_v166, main_v167, main_v168, main_cst_24, main_v169, main_v170, main_cst_25, main_v171, main_v172, main_v173, main_v174, main_v175, main_cst_26, main_v176, main_v177, main_cst_27, main_v178, main_v179, main_v180, main_v181, main_cst_28, main_v182, main_v183, main_v184, main_v185, main_v186, main_v187, main_v188, main_v189, main_v190, main_v191, main_v192, main_call3_cst, main_call3_v0, main_v193, main_v194]
set_option maxRecDepth 8192 in
theorem ops3_writes : (ops3 : List (HloOp τ sig (Elt F))).Forall fun op => op.writes ⊆ (ops3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

set_option maxRecDepth 8192 in
theorem ops4_sub : (ops4 : List (HloOp τ sig (Elt F))).Forall fun op => op.bufs ⊆ tcRefs τ sig :=
  ⟨binary_bufs_sub .., unary_bufs_sub .., unary_bufs_sub .., binary_bufs_sub ..⟩
set_option maxRecDepth 8192 in
theorem ops4_fresh : ∀ op ∈ (ops4 : List (HloOp τ sig (Elt F))), op.fresh = ∅ := by
  intro _ h; (repeat (cases h with | head => rfl | tail _ h => ?_)); exact nomatch h
/-- The arrays the stretch writes. -/
abbrev ops4_W : List (Ref sig .tc) := [main_v195, main_v196, main_v197, main_v198]
set_option maxRecDepth 8192 in
theorem ops4_writes : (ops4 : List (HloOp τ sig (Elt F))).Forall fun op => op.writes ⊆ (ops4_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-! ## What the arrays hold at the six boundaries -/

/-- The arrays at launch. -/
def U0 (m : (ℓ : Loc nD τ sig) → Buf (Elt F) ℓ) (c : Dev nD) : Valuation τ sig (Elt F) := launchContents m c
/-- The arrays after the input layer. -/
def U1 (m : (ℓ : Loc nD τ sig) → Buf (Elt F) ℓ) (c : Dev nD) : Valuation τ sig (Elt F) := after ops0 (U0 m c)
/-- The arrays after the first graph-convolution layer. -/
def U2 (m : (ℓ : Loc nD τ sig) → Buf (Elt F) ℓ) (c : Dev nD) : Valuation τ sig (Elt F) := after ops1 (U1 m c)
/-- The arrays after the second graph-convolution layer. -/
def U3 (m : (ℓ : Loc nD τ sig) → Buf (Elt F) ℓ) (c : Dev nD) : Valuation τ sig (Elt F) := after ops2 (U2 m c)
/-- The arrays after the third graph-convolution layer. -/
def U4 (m : (ℓ : Loc nD τ sig) → Buf (Elt F) ℓ) (c : Dev nD) : Valuation τ sig (Elt F) := after ops3 (U3 m c)
/-- The arrays after the output layer: the end of the line. -/
def U5 (m : (ℓ : Loc nD τ sig) → Buf (Elt F) ℓ) (c : Dev nD) : Valuation τ sig (Elt F) := after ops4 (U4 m c)

/-- The whole line run from the launch contents ends at the last boundary. -/
theorem after_all (m : (ℓ : Loc nD τ sig) → Buf (Elt F) ℓ) (c : Dev nD) :
    after (ops0 ++ (ops1 ++ (ops2 ++ (ops3 ++ ops4)))) (launchContents m c) = U5 m c :=
  (Cert.Lib.after_append ops0 _ _).trans ((Cert.Lib.after_append ops1 _ _).trans
    ((Cert.Lib.after_append ops2 _ _).trans (Cert.Lib.after_append ops3 _ _)))

/-- An array the stretch does not write holds after it what it held before. -/
theorem U1_keep (m : (ℓ : Loc nD τ sig) → Buf (Elt F) ℓ) (c : Dev nD) (r : Ref sig .tc) (h : r ∉ (ops0_W : List (Ref sig .tc))) :
    U1 m c (Proc.devRef .tc r) = U0 m c (Proc.devRef .tc r) :=
  after_of_writes_sub ops0 _ ops0_writes h
/-- An array the stretch does not write holds after it what it held before. -/
theorem U2_keep (m : (ℓ : Loc nD τ sig) → Buf (Elt F) ℓ) (c : Dev nD) (r : Ref sig .tc) (h : r ∉ (ops1_W : List (Ref sig .tc))) :
    U2 m c (Proc.devRef .tc r) = U1 m c (Proc.devRef .tc r) :=
  after_of_writes_sub ops1 _ ops1_writes h
/-- An array the stretch does not write holds after it what it held before. -/
theorem U3_keep (m : (ℓ : Loc nD τ sig) → Buf (Elt F) ℓ) (c : Dev nD) (r : Ref sig .tc) (h : r ∉ (ops2_W : List (Ref sig .tc))) :
    U3 m c (Proc.devRef .tc r) = U2 m c (Proc.devRef .tc r) :=
  after_of_writes_sub ops2 _ ops2_writes h
/-- An array the stretch does not write holds after it what it held before. -/
theorem U4_keep (m : (ℓ : Loc nD τ sig) → Buf (Elt F) ℓ) (c : Dev nD) (r : Ref sig .tc) (h : r ∉ (ops3_W : List (Ref sig .tc))) :
    U4 m c (Proc.devRef .tc r) = U3 m c (Proc.devRef .tc r) :=
  after_of_writes_sub ops3 _ ops3_writes h
/-- An array the stretch does not write holds after it what it held before. -/
theorem U5_keep (m : (ℓ : Loc nD τ sig) → Buf (Elt F) ℓ) (c : Dev nD) (r : Ref sig .tc) (h : r ∉ (ops4_W : List (Ref sig .tc))) :
    U5 m c (Proc.devRef .tc r) = U4 m c (Proc.devRef .tc r) :=
  after_of_writes_sub ops4 _ ops4_writes h

/-! ### The arguments are never written -/

theorem U0_arg0 (m : (ℓ : Loc nD τ sig) → Buf (Elt F) ℓ) (c : Dev nD) : U0 m c (no_index (Proc.devRef .tc main_arg0)) = m ((c.tc : Thread nD τ).loc main_arg0) := rfl
theorem U0_arg1 (m : (ℓ : Loc nD τ sig) → Buf (Elt F) ℓ) (c : Dev nD) : U0 m c (no_index (Proc.devRef .tc main_arg1)) = m ((c.tc : Thread nD τ).loc main_arg1) := rfl
theorem U0_arg2 (m : (ℓ : Loc nD τ sig) → Buf (Elt F) ℓ) (c : Dev nD) : U0 m c (no_index (Proc.devRef .tc main_arg2)) = m ((c.tc : Thread nD τ).loc main_arg2) := rfl
theorem U0_arg3 (m : (ℓ : Loc nD τ sig) → Buf (Elt F) ℓ) (c : Dev nD) : U0 m c (no_index (Proc.devRef .tc main_arg3)) = m ((c.tc : Thread nD τ).loc main_arg3) := rfl
theorem U0_arg4 (m : (ℓ : Loc nD τ sig) → Buf (Elt F) ℓ) (c : Dev nD) : U0 m c (no_index (Proc.devRef .tc main_arg4)) = m ((c.tc : Thread nD τ).loc main_arg4) := rfl
theorem U0_arg5 (m : (ℓ : Loc nD τ sig) → Buf (Elt F) ℓ) (c : Dev nD) : U0 m c (no_index (Proc.devRef .tc main_arg5)) = m ((c.tc : Thread nD τ).loc main_arg5) := rfl
theorem U0_arg6 (m : (ℓ : Loc nD τ sig) → Buf (Elt F) ℓ) (c : Dev nD) : U0 m c (no_index (Proc.devRef .tc main_arg6)) = m ((c.tc : Thread nD τ).loc main_arg6) := rfl
theorem U0_arg7 (m : (ℓ : Loc nD τ sig) → Buf (Elt F) ℓ) (c : Dev nD) : U0 m c (no_index (Proc.devRef .tc main_arg7)) = m ((c.tc : Thread nD τ).loc main_arg7) := rfl
theorem U0_arg8 (m : (ℓ : Loc nD τ sig) → Buf (Elt F) ℓ) (c : Dev nD) : U0 m c (no_index (Proc.devRef .tc main_arg8)) = m ((c.tc : Thread nD τ).loc main_arg8) := rfl
theorem U0_arg9 (m : (ℓ : Loc nD τ sig) → Buf (Elt F) ℓ) (c : Dev nD) : U0 m c (no_index (Proc.devRef .tc main_arg9)) = m ((c.tc : Thread nD τ).loc main_arg9) := rfl
theorem U1_arg0 (m : (ℓ : Loc nD τ sig) → Buf (Elt F) ℓ) (c : Dev nD) : U1 m c (no_index (Proc.devRef .tc main_arg0)) = m ((c.tc : Thread nD τ).loc main_arg0) :=
  (U1_keep m c main_arg0 (by decide)).trans (U0_arg0 m c)
theorem U1_arg1 (m : (ℓ : Loc nD τ sig) → Buf (Elt F) ℓ) (c : Dev nD) : U1 m c (no_index (Proc.devRef .tc main_arg1)) = m ((c.tc : Thread nD τ).loc main_arg1) :=
  (U1_keep m c main_arg1 (by decide)).trans (U0_arg1 m c)
theorem U1_arg2 (m : (ℓ : Loc nD τ sig) → Buf (Elt F) ℓ) (c : Dev nD) : U1 m c (no_index (Proc.devRef .tc main_arg2)) = m ((c.tc : Thread nD τ).loc main_arg2) :=
  (U1_keep m c main_arg2 (by decide)).trans (U0_arg2 m c)
theorem U1_arg3 (m : (ℓ : Loc nD τ sig) → Buf (Elt F) ℓ) (c : Dev nD) : U1 m c (no_index (Proc.devRef .tc main_arg3)) = m ((c.tc : Thread nD τ).loc main_arg3) :=
  (U1_keep m c main_arg3 (by decide)).trans (U0_arg3 m c)
theorem U1_arg4 (m : (ℓ : Loc nD τ sig) → Buf (Elt F) ℓ) (c : Dev nD) : U1 m c (no_index (Proc.devRef .tc main_arg4)) = m ((c.tc : Thread nD τ).loc main_arg4) :=
  (U1_keep m c main_arg4 (by decide)).trans (U0_arg4 m c)
theorem U1_arg5 (m : (ℓ : Loc nD τ sig) → Buf (Elt F) ℓ) (c : Dev nD) : U1 m c (no_index (Proc.devRef .tc main_arg5)) = m ((c.tc : Thread nD τ).loc main_arg5) :=
  (U1_keep m c main_arg5 (by decide)).trans (U0_arg5 m c)
theorem U1_arg6 (m : (ℓ : Loc nD τ sig) → Buf (Elt F) ℓ) (c : Dev nD) : U1 m c (no_index (Proc.devRef .tc main_arg6)) = m ((c.tc : Thread nD τ).loc main_arg6) :=
  (U1_keep m c main_arg6 (by decide)).trans (U0_arg6 m c)
theorem U1_arg7 (m : (ℓ : Loc nD τ sig) → Buf (Elt F) ℓ) (c : Dev nD) : U1 m c (no_index (Proc.devRef .tc main_arg7)) = m ((c.tc : Thread nD τ).loc main_arg7) :=
  (U1_keep m c main_arg7 (by decide)).trans (U0_arg7 m c)
theorem U1_arg8 (m : (ℓ : Loc nD τ sig) → Buf (Elt F) ℓ) (c : Dev nD) : U1 m c (no_index (Proc.devRef .tc main_arg8)) = m ((c.tc : Thread nD τ).loc main_arg8) :=
  (U1_keep m c main_arg8 (by decide)).trans (U0_arg8 m c)
theorem U1_arg9 (m : (ℓ : Loc nD τ sig) → Buf (Elt F) ℓ) (c : Dev nD) : U1 m c (no_index (Proc.devRef .tc main_arg9)) = m ((c.tc : Thread nD τ).loc main_arg9) :=
  (U1_keep m c main_arg9 (by decide)).trans (U0_arg9 m c)
theorem U2_arg0 (m : (ℓ : Loc nD τ sig) → Buf (Elt F) ℓ) (c : Dev nD) : U2 m c (no_index (Proc.devRef .tc main_arg0)) = m ((c.tc : Thread nD τ).loc main_arg0) :=
  (U2_keep m c main_arg0 (by decide)).trans (U1_arg0 m c)
theorem U2_arg1 (m : (ℓ : Loc nD τ sig) → Buf (Elt F) ℓ) (c : Dev nD) : U2 m c (no_index (Proc.devRef .tc main_arg1)) = m ((c.tc : Thread nD τ).loc main_arg1) :=
  (U2_keep m c main_arg1 (by decide)).trans (U1_arg1 m c)
theorem U2_arg2 (m : (ℓ : Loc nD τ sig) → Buf (Elt F) ℓ) (c : Dev nD) : U2 m c (no_index (Proc.devRef .tc main_arg2)) = m ((c.tc : Thread nD τ).loc main_arg2) :=
  (U2_keep m c main_arg2 (by decide)).trans (U1_arg2 m c)
theorem U2_arg3 (m : (ℓ : Loc nD τ sig) → Buf (Elt F) ℓ) (c : Dev nD) : U2 m c (no_index (Proc.devRef .tc main_arg3)) = m ((c.tc : Thread nD τ).loc main_arg3) :=
  (U2_keep m c main_arg3 (by decide)).trans (U1_arg3 m c)
theorem U2_arg4 (m : (ℓ : Loc nD τ sig) → Buf (Elt F) ℓ) (c : Dev nD) : U2 m c (no_index (Proc.devRef .tc main_arg4)) = m ((c.tc : Thread nD τ).loc main_arg4) :=
  (U2_keep m c main_arg4 (by decide)).trans (U1_arg4 m c)
theorem U2_arg5 (m : (ℓ : Loc nD τ sig) → Buf (Elt F) ℓ) (c : Dev nD) : U2 m c (no_index (Proc.devRef .tc main_arg5)) = m ((c.tc : Thread nD τ).loc main_arg5) :=
  (U2_keep m c main_arg5 (by decide)).trans (U1_arg5 m c)
theorem U2_arg6 (m : (ℓ : Loc nD τ sig) → Buf (Elt F) ℓ) (c : Dev nD) : U2 m c (no_index (Proc.devRef .tc main_arg6)) = m ((c.tc : Thread nD τ).loc main_arg6) :=
  (U2_keep m c main_arg6 (by decide)).trans (U1_arg6 m c)
theorem U2_arg7 (m : (ℓ : Loc nD τ sig) → Buf (Elt F) ℓ) (c : Dev nD) : U2 m c (no_index (Proc.devRef .tc main_arg7)) = m ((c.tc : Thread nD τ).loc main_arg7) :=
  (U2_keep m c main_arg7 (by decide)).trans (U1_arg7 m c)
theorem U2_arg8 (m : (ℓ : Loc nD τ sig) → Buf (Elt F) ℓ) (c : Dev nD) : U2 m c (no_index (Proc.devRef .tc main_arg8)) = m ((c.tc : Thread nD τ).loc main_arg8) :=
  (U2_keep m c main_arg8 (by decide)).trans (U1_arg8 m c)
theorem U2_arg9 (m : (ℓ : Loc nD τ sig) → Buf (Elt F) ℓ) (c : Dev nD) : U2 m c (no_index (Proc.devRef .tc main_arg9)) = m ((c.tc : Thread nD τ).loc main_arg9) :=
  (U2_keep m c main_arg9 (by decide)).trans (U1_arg9 m c)
theorem U3_arg0 (m : (ℓ : Loc nD τ sig) → Buf (Elt F) ℓ) (c : Dev nD) : U3 m c (no_index (Proc.devRef .tc main_arg0)) = m ((c.tc : Thread nD τ).loc main_arg0) :=
  (U3_keep m c main_arg0 (by decide)).trans (U2_arg0 m c)
theorem U3_arg1 (m : (ℓ : Loc nD τ sig) → Buf (Elt F) ℓ) (c : Dev nD) : U3 m c (no_index (Proc.devRef .tc main_arg1)) = m ((c.tc : Thread nD τ).loc main_arg1) :=
  (U3_keep m c main_arg1 (by decide)).trans (U2_arg1 m c)
theorem U3_arg2 (m : (ℓ : Loc nD τ sig) → Buf (Elt F) ℓ) (c : Dev nD) : U3 m c (no_index (Proc.devRef .tc main_arg2)) = m ((c.tc : Thread nD τ).loc main_arg2) :=
  (U3_keep m c main_arg2 (by decide)).trans (U2_arg2 m c)
theorem U3_arg3 (m : (ℓ : Loc nD τ sig) → Buf (Elt F) ℓ) (c : Dev nD) : U3 m c (no_index (Proc.devRef .tc main_arg3)) = m ((c.tc : Thread nD τ).loc main_arg3) :=
  (U3_keep m c main_arg3 (by decide)).trans (U2_arg3 m c)
theorem U3_arg4 (m : (ℓ : Loc nD τ sig) → Buf (Elt F) ℓ) (c : Dev nD) : U3 m c (no_index (Proc.devRef .tc main_arg4)) = m ((c.tc : Thread nD τ).loc main_arg4) :=
  (U3_keep m c main_arg4 (by decide)).trans (U2_arg4 m c)
theorem U3_arg5 (m : (ℓ : Loc nD τ sig) → Buf (Elt F) ℓ) (c : Dev nD) : U3 m c (no_index (Proc.devRef .tc main_arg5)) = m ((c.tc : Thread nD τ).loc main_arg5) :=
  (U3_keep m c main_arg5 (by decide)).trans (U2_arg5 m c)
theorem U3_arg6 (m : (ℓ : Loc nD τ sig) → Buf (Elt F) ℓ) (c : Dev nD) : U3 m c (no_index (Proc.devRef .tc main_arg6)) = m ((c.tc : Thread nD τ).loc main_arg6) :=
  (U3_keep m c main_arg6 (by decide)).trans (U2_arg6 m c)
theorem U3_arg7 (m : (ℓ : Loc nD τ sig) → Buf (Elt F) ℓ) (c : Dev nD) : U3 m c (no_index (Proc.devRef .tc main_arg7)) = m ((c.tc : Thread nD τ).loc main_arg7) :=
  (U3_keep m c main_arg7 (by decide)).trans (U2_arg7 m c)
theorem U3_arg8 (m : (ℓ : Loc nD τ sig) → Buf (Elt F) ℓ) (c : Dev nD) : U3 m c (no_index (Proc.devRef .tc main_arg8)) = m ((c.tc : Thread nD τ).loc main_arg8) :=
  (U3_keep m c main_arg8 (by decide)).trans (U2_arg8 m c)
theorem U3_arg9 (m : (ℓ : Loc nD τ sig) → Buf (Elt F) ℓ) (c : Dev nD) : U3 m c (no_index (Proc.devRef .tc main_arg9)) = m ((c.tc : Thread nD τ).loc main_arg9) :=
  (U3_keep m c main_arg9 (by decide)).trans (U2_arg9 m c)
theorem U4_arg0 (m : (ℓ : Loc nD τ sig) → Buf (Elt F) ℓ) (c : Dev nD) : U4 m c (no_index (Proc.devRef .tc main_arg0)) = m ((c.tc : Thread nD τ).loc main_arg0) :=
  (U4_keep m c main_arg0 (by decide)).trans (U3_arg0 m c)
theorem U4_arg1 (m : (ℓ : Loc nD τ sig) → Buf (Elt F) ℓ) (c : Dev nD) : U4 m c (no_index (Proc.devRef .tc main_arg1)) = m ((c.tc : Thread nD τ).loc main_arg1) :=
  (U4_keep m c main_arg1 (by decide)).trans (U3_arg1 m c)
theorem U4_arg2 (m : (ℓ : Loc nD τ sig) → Buf (Elt F) ℓ) (c : Dev nD) : U4 m c (no_index (Proc.devRef .tc main_arg2)) = m ((c.tc : Thread nD τ).loc main_arg2) :=
  (U4_keep m c main_arg2 (by decide)).trans (U3_arg2 m c)
theorem U4_arg3 (m : (ℓ : Loc nD τ sig) → Buf (Elt F) ℓ) (c : Dev nD) : U4 m c (no_index (Proc.devRef .tc main_arg3)) = m ((c.tc : Thread nD τ).loc main_arg3) :=
  (U4_keep m c main_arg3 (by decide)).trans (U3_arg3 m c)
theorem U4_arg4 (m : (ℓ : Loc nD τ sig) → Buf (Elt F) ℓ) (c : Dev nD) : U4 m c (no_index (Proc.devRef .tc main_arg4)) = m ((c.tc : Thread nD τ).loc main_arg4) :=
  (U4_keep m c main_arg4 (by decide)).trans (U3_arg4 m c)
theorem U4_arg5 (m : (ℓ : Loc nD τ sig) → Buf (Elt F) ℓ) (c : Dev nD) : U4 m c (no_index (Proc.devRef .tc main_arg5)) = m ((c.tc : Thread nD τ).loc main_arg5) :=
  (U4_keep m c main_arg5 (by decide)).trans (U3_arg5 m c)
theorem U4_arg6 (m : (ℓ : Loc nD τ sig) → Buf (Elt F) ℓ) (c : Dev nD) : U4 m c (no_index (Proc.devRef .tc main_arg6)) = m ((c.tc : Thread nD τ).loc main_arg6) :=
  (U4_keep m c main_arg6 (by decide)).trans (U3_arg6 m c)
theorem U4_arg7 (m : (ℓ : Loc nD τ sig) → Buf (Elt F) ℓ) (c : Dev nD) : U4 m c (no_index (Proc.devRef .tc main_arg7)) = m ((c.tc : Thread nD τ).loc main_arg7) :=
  (U4_keep m c main_arg7 (by decide)).trans (U3_arg7 m c)
theorem U4_arg8 (m : (ℓ : Loc nD τ sig) → Buf (Elt F) ℓ) (c : Dev nD) : U4 m c (no_index (Proc.devRef .tc main_arg8)) = m ((c.tc : Thread nD τ).loc main_arg8) :=
  (U4_keep m c main_arg8 (by decide)).trans (U3_arg8 m c)
theorem U4_arg9 (m : (ℓ : Loc nD τ sig) → Buf (Elt F) ℓ) (c : Dev nD) : U4 m c (no_index (Proc.devRef .tc main_arg9)) = m ((c.tc : Thread nD τ).loc main_arg9) :=
  (U4_keep m c main_arg9 (by decide)).trans (U3_arg9 m c)
theorem U5_arg0 (m : (ℓ : Loc nD τ sig) → Buf (Elt F) ℓ) (c : Dev nD) : U5 m c (no_index (Proc.devRef .tc main_arg0)) = m ((c.tc : Thread nD τ).loc main_arg0) :=
  (U5_keep m c main_arg0 (by decide)).trans (U4_arg0 m c)
theorem U5_arg1 (m : (ℓ : Loc nD τ sig) → Buf (Elt F) ℓ) (c : Dev nD) : U5 m c (no_index (Proc.devRef .tc main_arg1)) = m ((c.tc : Thread nD τ).loc main_arg1) :=
  (U5_keep m c main_arg1 (by decide)).trans (U4_arg1 m c)
theorem U5_arg2 (m : (ℓ : Loc nD τ sig) → Buf (Elt F) ℓ) (c : Dev nD) : U5 m c (no_index (Proc.devRef .tc main_arg2)) = m ((c.tc : Thread nD τ).loc main_arg2) :=
  (U5_keep m c main_arg2 (by decide)).trans (U4_arg2 m c)
theorem U5_arg3 (m : (ℓ : Loc nD τ sig) → Buf (Elt F) ℓ) (c : Dev nD) : U5 m c (no_index (Proc.devRef .tc main_arg3)) = m ((c.tc : Thread nD τ).loc main_arg3) :=
  (U5_keep m c main_arg3 (by decide)).trans (U4_arg3 m c)
theorem U5_arg4 (m : (ℓ : Loc nD τ sig) → Buf (Elt F) ℓ) (c : Dev nD) : U5 m c (no_index (Proc.devRef .tc main_arg4)) = m ((c.tc : Thread nD τ).loc main_arg4) :=
  (U5_keep m c main_arg4 (by decide)).trans (U4_arg4 m c)
theorem U5_arg5 (m : (ℓ : Loc nD τ sig) → Buf (Elt F) ℓ) (c : Dev nD) : U5 m c (no_index (Proc.devRef .tc main_arg5)) = m ((c.tc : Thread nD τ).loc main_arg5) :=
  (U5_keep m c main_arg5 (by decide)).trans (U4_arg5 m c)
theorem U5_arg6 (m : (ℓ : Loc nD τ sig) → Buf (Elt F) ℓ) (c : Dev nD) : U5 m c (no_index (Proc.devRef .tc main_arg6)) = m ((c.tc : Thread nD τ).loc main_arg6) :=
  (U5_keep m c main_arg6 (by decide)).trans (U4_arg6 m c)
theorem U5_arg7 (m : (ℓ : Loc nD τ sig) → Buf (Elt F) ℓ) (c : Dev nD) : U5 m c (no_index (Proc.devRef .tc main_arg7)) = m ((c.tc : Thread nD τ).loc main_arg7) :=
  (U5_keep m c main_arg7 (by decide)).trans (U4_arg7 m c)
theorem U5_arg8 (m : (ℓ : Loc nD τ sig) → Buf (Elt F) ℓ) (c : Dev nD) : U5 m c (no_index (Proc.devRef .tc main_arg8)) = m ((c.tc : Thread nD τ).loc main_arg8) :=
  (U5_keep m c main_arg8 (by decide)).trans (U4_arg8 m c)
theorem U5_arg9 (m : (ℓ : Loc nD τ sig) → Buf (Elt F) ℓ) (c : Dev nD) : U5 m c (no_index (Proc.devRef .tc main_arg9)) = m ((c.tc : Thread nD τ).loc main_arg9) :=
  (U5_keep m c main_arg9 (by decide)).trans (U4_arg9 m c)

/-! ### After the input layer -/

set_option maxRecDepth 8192 in
set_option maxHeartbeats 1000000 in
theorem U1_v1 (m : (ℓ : Loc nD τ sig) → Buf (Elt F) ℓ) (c : Dev nD) : U1 m c (no_index (Proc.devRef .tc main_v1)) = val_main_v1 (F := F) (m ((c.tc : Thread nD τ).loc main_arg1)) := by
  unfold U1
  simp only [ops0]
  after_results_simp
  simp only [U0_arg1] <;> rfl
set_option maxRecDepth 8192 in
set_option maxHeartbeats 1000000 in
theorem U1_v3 (m : (ℓ : Loc nD τ sig) → Buf (Elt F) ℓ) (c : Dev nD) : U1 m c (no_index (Proc.devRef .tc main_v3)) = val_main_v3 (F := F) (m ((c.tc : Thread nD τ).loc main_arg1)) := by
  unfold U1
  simp only [ops0]
  after_results_simp
  simp only [U0_arg1] <;> rfl
set_option maxRecDepth 8192 in
set_option maxHeartbeats 2000000 in
theorem U1_v25 (m : (ℓ : Loc nD τ sig) → Buf (Elt F) ℓ) (c : Dev nD) : U1 m c (no_index (Proc.devRef .tc main_v25)) = val_main_v25 (F := F) (m ((c.tc : Thread nD τ).loc main_arg1)) := by
  unfold U1
  simp only [ops0]
  after_results_simp
  simp only [U0_arg1] <;> rfl
set_option maxRecDepth 8192 in
set_option maxHeartbeats 2000000 in
theorem U1_v27 (m : (ℓ : Loc nD τ sig) → Buf (Elt F) ℓ) (c : Dev nD) : U1 m c (no_index (Proc.devRef .tc main_v27)) = val_main_v27 (F := F) (m ((c.tc : Thread nD τ).loc main_arg1)) := by
  unfold U1
  simp only [ops0]
  after_results_simp
  simp only [U0_arg1] <;> rfl
set_option maxRecDepth 8192 in
set_option maxHeartbeats 2000000 in
theorem U1_v32 (m : (ℓ : Loc nD τ sig) → Buf (Elt F) ℓ) (c : Dev nD) : U1 m c (no_index (Proc.devRef .tc main_v32)) = val_main_v32 (F := F) (m ((c.tc : Thread nD τ).loc main_arg0)) (m ((c.tc : Thread nD τ).loc main_arg2)) (m ((c.tc : Thread nD τ).loc main_arg3)) := by
  unfold U1
  simp only [ops0]
  after_results_simp
  simp only [U0_arg0, U0_arg2, U0_arg3] <;> rfl

/-! ### After the first graph-convolution layer -/

theorem U2_v1 (m : (ℓ : Loc nD τ sig) → Buf (Elt F) ℓ) (c : Dev nD) : U2 m c (no_index (Proc.devRef .tc main_v1)) = val_main_v1 (F := F) (m ((c.tc : Thread nD τ).loc main_arg1)) :=
  (U2_keep m c main_v1 (by decide)).trans (U1_v1 m c)
theorem U2_v3 (m : (ℓ : Loc nD τ sig) → Buf (Elt F) ℓ) (c : Dev nD) : U2 m c (no_index (Proc.devRef .tc main_v3)) = val_main_v3 (F := F) (m ((c.tc : Thread nD τ).loc main_arg1)) :=
  (U2_keep m c main_v3 (by decide)).trans (U1_v3 m c)
theorem U2_v25 (m : (ℓ : Loc nD τ sig) → Buf (Elt F) ℓ) (c : Dev nD) : U2 m c (no_index (Proc.devRef .tc main_v25)) = val_main_v25 (F := F) (m ((c.tc : Thread nD τ).loc main_arg1)) :=
  (U2_keep m c main_v25 (by decide)).trans (U1_v25 m c)
theorem U2_v27 (m : (ℓ : Loc nD τ sig) → Buf (Elt F) ℓ) (c : Dev nD) : U2 m c (no_index (Proc.devRef .tc main_v27)) = val_main_v27 (F := F) (m ((c.tc : Thread nD τ).loc main_arg1)) :=
  (U2_keep m c main_v27 (by decide)).trans (U1_v27 m c)
set_option maxRecDepth 8192 in
set_option maxHeartbeats 4000000 in
theorem U2_v86 (m : (ℓ : Loc nD τ sig) → Buf (Elt F) ℓ) (c : Dev nD) : U2 m c (no_index (Proc.devRef .tc main_v86)) = val_main_v86 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold U2
  simp only [ops1]
  after_results_simp
  simp only [U1_v32, U1_v1, U1_v3, U1_v25, U1_v27, U1_arg4, U1_arg5, U1_arg6, U1_arg7] <;> rfl

/-! ### After the second graph-convolution layer -/

theorem U3_v1 (m : (ℓ : Loc nD τ sig) → Buf (Elt F) ℓ) (c : Dev nD) : U3 m c (no_index (Proc.devRef .tc main_v1)) = val_main_v1 (F := F) (m ((c.tc : Thread nD τ).loc main_arg1)) :=
  (U3_keep m c main_v1 (by decide)).trans (U2_v1 m c)
theorem U3_v3 (m : (ℓ : Loc nD τ sig) → Buf (Elt F) ℓ) (c : Dev nD) : U3 m c (no_index (Proc.devRef .tc main_v3)) = val_main_v3 (F := F) (m ((c.tc : Thread nD τ).loc main_arg1)) :=
  (U3_keep m c main_v3 (by decide)).trans (U2_v3 m c)
theorem U3_v25 (m : (ℓ : Loc nD τ sig) → Buf (Elt F) ℓ) (c : Dev nD) : U3 m c (no_index (Proc.devRef .tc main_v25)) = val_main_v25 (F := F) (m ((c.tc : Thread nD τ).loc main_arg1)) :=
  (U3_keep m c main_v25 (by decide)).trans (U2_v25 m c)
theorem U3_v27 (m : (ℓ : Loc nD τ sig) → Buf (Elt F) ℓ) (c : Dev nD) : U3 m c (no_index (Proc.devRef .tc main_v27)) = val_main_v27 (F := F) (m ((c.tc : Thread nD τ).loc main_arg1)) :=
  (U3_keep m c main_v27 (by decide)).trans (U2_v27 m c)
set_option maxRecDepth 8192 in
set_option maxHeartbeats 4000000 in
theorem U3_v140 (m : (ℓ : Loc nD τ sig) → Buf (Elt F) ℓ) (c : Dev nD) : U3 m c (no_index (Proc.devRef .tc main_v140)) = val_main_v140 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold U3
  simp only [ops2]
  after_results_simp
  simp only [U2_v86, U2_v1, U2_v3, U2_v25, U2_v27, U2_arg4, U2_arg5, U2_arg6, U2_arg7] <;> rfl

/-! ### After the third graph-convolution layer -/

set_option maxRecDepth 8192 in
set_option maxHeartbeats 4000000 in
theorem U4_v194 (m : (ℓ : Loc nD τ sig) → Buf (Elt F) ℓ) (c : Dev nD) : U4 m c (no_index (Proc.devRef .tc main_v194)) = val_main_v194 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold U4
  simp only [ops3]
  after_results_simp
  simp only [U3_v140, U3_v1, U3_v3, U3_v25, U3_v27, U3_arg4, U3_arg5, U3_arg6, U3_arg7] <;> rfl

/-! ### After the output layer -/

set_option maxRecDepth 8192 in
set_option maxHeartbeats 1000000 in
theorem U5_v198 (m : (ℓ : Loc nD τ sig) → Buf (Elt F) ℓ) (c : Dev nD) : U5 m c (no_index (Proc.devRef .tc main_v198)) = val_main_v198 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold U5
  simp only [ops4]
  after_results_simp
  simp only [U4_v194, U4_arg8, U4_arg9] <;> rfl

/-! ## The run -/

/-- Every operation of the line touches TensorCore arrays only. -/
theorem ops_sub : (ops0 ++ (ops1 ++ (ops2 ++ (ops3 ++ ops4))) : List (HloOp τ sig (Elt F))).Forall fun op => op.bufs ⊆ tcRefs τ sig :=
  List.forall_iff_forall_mem.mpr fun op h => by
    rcases List.mem_append.mp h with h | h
    · exact List.forall_iff_forall_mem.mp ops0_sub op h
    rcases List.mem_append.mp h with h | h
    · exact List.forall_iff_forall_mem.mp ops1_sub op h
    rcases List.mem_append.mp h with h | h
    · exact List.forall_iff_forall_mem.mp ops2_sub op h
    rcases List.mem_append.mp h with h | h
    · exact List.forall_iff_forall_mem.mp ops3_sub op h
    · exact List.forall_iff_forall_mem.mp ops4_sub op h

/-- Every operation of the line determines its results. -/
theorem ops_fresh : ∀ op ∈ (ops0 ++ (ops1 ++ (ops2 ++ (ops3 ++ ops4))) : List (HloOp τ sig (Elt F))), op.fresh = ∅ := by
  intro op h
  rcases List.mem_append.mp h with h | h
  · exact ops0_fresh op h
  rcases List.mem_append.mp h with h | h
  · exact ops1_fresh op h
  rcases List.mem_append.mp h with h | h
  · exact ops2_fresh op h
  rcases List.mem_append.mp h with h | h
  · exact ops3_fresh op h
  · exact ops4_fresh op h

/-- On every device, from any memory with zero counters: every weakly fair execution of the reference program terminates
    with the result array at the output layer's value of the ten arguments' launch contents, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v198) = val_main_v198 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v198).trans ((congrFun (after_all m c) _).trans (U5_v198 m c)),
      (h c main_arg0).trans ((congrFun (after_all m c) _).trans (U5_arg0 m c)),
      (h c main_arg1).trans ((congrFun (after_all m c) _).trans (U5_arg1 m c)),
      (h c main_arg2).trans ((congrFun (after_all m c) _).trans (U5_arg2 m c)),
      (h c main_arg3).trans ((congrFun (after_all m c) _).trans (U5_arg3 m c)),
      (h c main_arg4).trans ((congrFun (after_all m c) _).trans (U5_arg4 m c)),
      (h c main_arg5).trans ((congrFun (after_all m c) _).trans (U5_arg5 m c)),
      (h c main_arg6).trans ((congrFun (after_all m c) _).trans (U5_arg6 m c)),
      (h c main_arg7).trans ((congrFun (after_all m c) _).trans (U5_arg7 m c)),
      (h c main_arg8).trans ((congrFun (after_all m c) _).trans (U5_arg8 m c)),
      (h c main_arg9).trans ((congrFun (after_all m c) _).trans (U5_arg9 m c))⟩)
    (run_seq scopedRefs_eq scopedSems_eq defs main (fun _ => ops0 ++ (ops1 ++ (ops2 ++ (ops3 ++ ops4)))) main_eq (fun _ => ops_sub) m ρ
      (fun _ => ops_fresh))

end Cert.ReferenceIdeal.RefRun

end
-- ==== Proof.Claims.lean ====
/-
  The five claims. The three frames: each kernel program's generated frame, and the reference's run with its result
  dropped. The idealization rewrote nothing, so `preserves` has nothing to say. The value claim: from memories that agree
  on the ten arguments, the idealized kernel ends with its result array at the last boundary's contents, which the
  boundary-by-boundary walk identifies with the reference's output stage of the kernel's arguments; the reference ends
  at the same stage of its own arguments, which are the kernel's.
-/
import proofs.«107958_j12893491822680_1_alg».proof.Defs
import proofs.«107958_j12893491822680_1_alg».proof.Proof.Gen.Pre_finite_inputs
import proofs.«107958_j12893491822680_1_alg».proof.Proof.Gen.Kernel.Frame
import proofs.«107958_j12893491822680_1_alg».proof.Proof.Gen.KernelIdeal.Frame
import proofs.«107958_j12893491822680_1_alg».proof.Proof.RunNamed
import proofs.«107958_j12893491822680_1_alg».proof.Proof.Chain4
import proofs.«107958_j12893491822680_1_alg».proof.Proof.RefRun

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run m ρ)

theorem preserves : Cert.preserves_Kernel_KernelIdeal := trivial

/-- Both programs end with the reference's output stage of the kernel's arguments. -/
theorem algebraic : Cert.algebraic_KernelIdeal_ReferenceIdeal := by
  intro m ρ m' ρ' _ hagree
  refine ⟨fun c => Cert.KernelIdeal.Chain.rOut m c, ?_, ?_⟩
  · exact (θ_run Cert.KernelIdeal.defs _ _).mono
      (fun r h c => ⟨(h c).1.trans (Cert.KernelIdeal.Chain.F16_v115 m ρ c), (h c).2⟩)
      (Cert.KernelIdeal.RunValue.run_named (F := Ideal) m ρ)
  · refine (θ_run Cert.ReferenceIdeal.defs _ _).mono (fun r h c => ⟨(h c).1.trans ?_, (h c).2⟩)
      (Cert.ReferenceIdeal.RefRun.run m' ρ')
    obtain ⟨e0, e1, e2, e3, e4, e5, e6, e7, e8, e9⟩ := hagree c
    rw [e0, e1, e2, e3, e4, e5, e6, e7, e8, e9]

end Cert.Proof.Claims

end
-- ==== Proof.lean ====
/- The proof of `Cert.Claim`: the idealized kernel and the idealized reference of a three-layer graph network compute equal
   results over the extended reals. The kernel is eight pallas_calls — an input projection, three times a message
   projection and a fused aggregate-normalise-activate-residual stage, an output projection — each tiled over the node
   axis in blocks of 2000 rows, among the same gather / scatter-add host operations as the reference. Tiling the node
   axis changes no entry: every entry of a dense stage is a finite sum over the FEATURE axis of one row, which the
   block holds whole. Proof/Spec.lean states the dense stages once; Proof/Region0 … Region7 read each pallas_call's
   array as that stage of its operand arrays; Proof/RefStages* read the reference's stages the same way;
   Proof/Chain1 … Chain4 walk the kernel's buffers boundary by boundary; Proof/RefRun reads the reference's run a layer
   at a time; Proof/Claims assembles the five claims. No law used needs a finite input: the only algebra is x + 0 = x. -/
import proofs.«107958_j12893491822680_1_alg».proof.Defs
import proofs.«107958_j12893491822680_1_alg».proof.Proof.Gen.Kernel
import proofs.«107958_j12893491822680_1_alg».proof.Proof.Gen.Kernel.Skeleton
import proofs.«107958_j12893491822680_1_alg».proof.Proof.Gen.Kernel.Launch
import proofs.«107958_j12893491822680_1_alg».proof.Proof.Gen.Kernel.Points
import proofs.«107958_j12893491822680_1_alg».proof.Proof.Gen.Kernel.Frame
import proofs.«107958_j12893491822680_1_alg».proof.Proof.Gen.KernelIdeal
import proofs.«107958_j12893491822680_1_alg».proof.Proof.Gen.KernelIdeal.Skeleton
import proofs.«107958_j12893491822680_1_alg».proof.Proof.Gen.KernelIdeal.Launch
import proofs.«107958_j12893491822680_1_alg».proof.Proof.Gen.KernelIdeal.Points
import proofs.«107958_j12893491822680_1_alg».proof.Proof.Gen.KernelIdeal.Frame
import proofs.«107958_j12893491822680_1_alg».proof.Proof.Gen.ReferenceIdeal
import proofs.«107958_j12893491822680_1_alg».proof.Proof.Gen.Pre_finite_inputs
import proofs.«107958_j12893491822680_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
